-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x37 : Shape := ⟨2, ![100000, 37]⟩
abbrev S2x1000000 : Shape := ⟨2, ![2, 1000000]⟩
abbrev S37x64 : Shape := ⟨2, ![37, 64]⟩
abbrev S64x64 : Shape := ⟨2, ![64, 64]⟩
abbrev S3x64 : Shape := ⟨2, ![3, 64]⟩
abbrev S_ : Shape := ⟨0, ![]⟩

class Facts : Prop where
  bcast_S_S100000x37 : S_.BroadcastsInDim S100000x37 (![] : Fin 0 → Fin S100000x37.rank)
  reducesTo_S100000x37_S_d0_1 : S100000x37.ReducesTo [0, 1] S_
  h_S_ : 0 < S_.numel
  bcast_S_S37x64 : S_.BroadcastsInDim S37x64 (![] : Fin 0 → Fin S37x64.rank)
  reducesTo_S37x64_S_d0_1 : S37x64.ReducesTo [0, 1] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg8 : FVec F S3x64 .f32) (main_arg9 : FVec F S3x64 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S3x64 .f32 := Host.absf main_arg9
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  main_v43

def fn_part1 {F : FTy → Type} [FloatOps F] (main_arg5 : FVec F S3x64 .f32) (main_arg6 : FVec F S3x64 .f32) (main_arg7 : FVec F S3x64 .f32) (main_arg8 : FVec F S3x64 .f32) (main_arg9 : FVec F S3x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg6
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg8 main_arg9 main_v33

def fn {F : FTy → Type} [FloatOps F] (main_arg0 : FVec F S100000x37 .f32) (main_arg1 : IVec S2x1000000 32) (main_arg2 : FVec F S37x64 .f32) (main_arg3 : FVec F S64x64 .f32) (main_arg4 : FVec F S64x64 .f32) (main_arg5 : FVec F S3x64 .f32) (main_arg6 : FVec F S3x64 .f32) (main_arg7 : FVec F S3x64 .f32) (main_arg8 : FVec F S3x64 .f32) (main_arg9 : FVec F S3x64 .f32) : IVec S_ 1 :=
  let main_v0 : FVec F S100000x37 .f32 := Host.absf main_arg0
  let main_cst : FVec F S_ .f32 := constant S_ .f32 0x7F800000#32
  let main_v1 : FVec F S100000x37 .f32 := broadcastInDim S100000x37 ![] bcast_S_S100000x37 main_cst
  let main_v2 : IVec S100000x37 1 := cmpf .olt main_v0 main_v1
  let main_c : IVec S_ 1 := constantI S_ 1 1#1
  let main_v3 : IVec S_ 1 := (fun x v => Host.reduce IntOp.andi x v reducesTo_S100000x37_S_d0_1 h_S_) main_v2 main_c
  let main_v4 : FVec F S37x64 .f32 := Host.absf main_arg2
  let main_cst_0 : FVec F S_ .f32 := constant S_ .f32 0x7F800000#32
  let main_v5 : FVec F S37x64 .f32 := broadcastInDim S37x64 ![] bcast_S_S37x64 main_cst_0
  let main_v6 : IVec S37x64 1 := cmpf .olt main_v4 main_v5
  let main_c_1 : IVec S_ 1 := constantI S_ 1 1#1
  let main_v7 : IVec S_ 1 := (fun x v => Host.reduce IntOp.andi x v reducesTo_S37x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x37 : Shape := ⟨2, ![100000, 37]⟩
abbrev S2x1000000 : Shape := ⟨2, ![2, 1000000]⟩
abbrev S37x64 : Shape := ⟨2, ![37, 64]⟩
abbrev S64x64 : Shape := ⟨2, ![64, 64]⟩
abbrev S3x64 : Shape := ⟨2, ![3, 64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x1 : Shape := ⟨2, ![100000, 1]⟩
abbrev S100000x64 : Shape := ⟨2, ![100000, 64]⟩
abbrev S5000x37 : Shape := ⟨2, ![5000, 37]⟩
abbrev S5000x1 : Shape := ⟨2, ![5000, 1]⟩
abbrev S5000x64 : Shape := ⟨2, ![5000, 64]⟩
abbrev S1100000x64 : Shape := ⟨2, ![1100000, 64]⟩
abbrev S1x64 : Shape := ⟨2, ![1, 64]⟩
abbrev S64 : Shape := ⟨1, ![64]⟩

abbrev nBuf : Space → Nat
  | .hbm => 122
  | .vmem => 58
  | .smem => 0
  | _ => 0

abbrev bufTy : (tb : Table) → Fin (tcTables nBuf tb) → BufTy
  | .hbm, ⟨0, _⟩ => ⟨S100000x37, .f32⟩
  | .hbm, ⟨1, _⟩ => ⟨S2x1000000, .i32⟩
  | .hbm, ⟨2, _⟩ => ⟨S37x64, .f32⟩
  | .hbm, ⟨3, _⟩ => ⟨S64x64, .f32⟩
  | .hbm, ⟨4, _⟩ => ⟨S64x64, .f32⟩
  | .hbm, ⟨5, _⟩ => ⟨S3x64, .f32⟩
  | .hbm, ⟨6, _⟩ => ⟨S3x64, .f32⟩
  | .hbm, ⟨7, _⟩ => ⟨S3x64, .f32⟩
  | .hbm, ⟨8, _⟩ => ⟨S3x64, .f32⟩
  | .hbm, ⟨9, _⟩ => ⟨S3x64, .f32⟩
  | .hbm, ⟨10, _⟩ => ⟨S100000, .i32⟩
  | .hbm, ⟨11, _⟩ => ⟨S1x1000000, .i32⟩
  | .hbm, ⟨12, _⟩ => ⟨S1000000, .i32⟩
  | .hbm, ⟨13, _⟩ => ⟨S1100000, .i32⟩
  | .hbm, ⟨14, _⟩ => ⟨S1x1000000, .i32⟩
  | .hbm, ⟨15, _⟩ => ⟨S1000000, .i32⟩
  | .hbm, ⟨16, _⟩ => ⟨S1100000, .i32⟩
  | .hbm, ⟨17, _⟩ => ⟨S_, .f32⟩
  | .hbm, ⟨18, _⟩ => ⟨S1100000, .f32⟩
  | .hbm, ⟨19, _⟩ => ⟨S_, .f32⟩
  | .hbm, ⟨20, _⟩ => ⟨S100000, .f32⟩
  | .hbm, ⟨21, _⟩ => ⟨S1100000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S_, .i32⟩
  | .hbm, ⟨34, _⟩ => ⟨S1100000, .i32⟩
  | .hbm, ⟨35, _⟩ => ⟨S1100000, .i1⟩
  | .hbm, ⟨36, _⟩ => ⟨S_, .i32⟩
  | .hbm, ⟨37, _⟩ => ⟨S1100000, .i32⟩
  | .hbm, ⟨38, _⟩ => ⟨S1100000, .i32⟩
  | .hbm, ⟨39, _⟩ => ⟨S1100000, .i32⟩
  | .hbm, ⟨40, _⟩ => ⟨S1100000x1, .i32⟩
  | .hbm, ⟨41, _⟩ => ⟨S1100000x64, .f32⟩
  | .hbm, ⟨42, _⟩ => ⟨S_, .f32⟩
  | .hbm, ⟨43, _⟩ => ⟨S100000x64, .f32⟩
  | .hbm, ⟨44, _⟩ => ⟨S1100000x1, .i32⟩
  | .hbm, ⟨45, _⟩ => ⟨S100000x64, .f32⟩
  | .hbm, ⟨46, _⟩ => ⟨S1x64, .f32⟩
  | .hbm, ⟨47, _⟩ => ⟨S64, .f32⟩
  | .hbm, ⟨48, _⟩ => ⟨S1x64, .f32⟩
  | .hbm, ⟨49, _⟩ => ⟨S1x64, .f32⟩
  | .hbm, ⟨50, _⟩ => ⟨S64, .f32⟩
  | .hbm, ⟨51, _⟩ => ⟨S1x64, .f32⟩
  | .hbm, ⟨52, _⟩ => ⟨S1x64, .f32⟩
  | .hbm, ⟨53, _⟩ => ⟨S64, .f32⟩
  | .hbm, ⟨54, _⟩ => ⟨S1x64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1100000, .i32⟩
  | .hbm, ⟨65, _⟩ => ⟨S1100000, .i1⟩
  | .hbm, ⟨66, _⟩ => ⟨S_, .i32⟩
  | .hbm, ⟨67, _⟩ => ⟨S1100000, .i32⟩
  | .hbm, ⟨68, _⟩ => ⟨S1100000, .i32⟩
  | .hbm, ⟨69, _⟩ => ⟨S1100000, .i32⟩
  | .hbm, ⟨70, _⟩ => ⟨S1100000x1, .i32⟩
  | .hbm, ⟨71, _⟩ => ⟨S1100000x64, .f32⟩
  | .hbm, ⟨72, _⟩ => ⟨S_, .f32⟩
  | .hbm, ⟨73, _⟩ => ⟨S100000x64, .f32⟩
  | .hbm, ⟨74, _⟩ => ⟨S1100000x1, .i32⟩
  | .hbm, ⟨75, _⟩ => ⟨S100000x64, .f32⟩
  | .hbm, ⟨76, _⟩ => ⟨S1x64, .f32⟩
  | .hbm, ⟨77, _⟩ => ⟨S64, .f32⟩
  | .hbm, ⟨78, _⟩ => ⟨S1x64, .f32⟩
  | .hbm, ⟨79, _⟩ => ⟨S1x64, .f32⟩
  | .hbm, ⟨80, _⟩ => ⟨S64, .f32⟩
  | .hbm, ⟨81, _⟩ => ⟨S1x64, .f32⟩
  | .hbm, ⟨82, _⟩ => ⟨S1x64, .f32⟩
  | .hbm, ⟨83, _⟩ => ⟨S64, .f32⟩
  | .hbm, ⟨84, _⟩ => ⟨S1x64, .f32⟩
  | .hbm, ⟨85, _⟩ => ⟨S1x64, .f32⟩
  | .hbm, ⟨86, _⟩ => ⟨S64, .f32⟩
  | .hbm, ⟨87, _⟩ => ⟨S1x64, .f32⟩
  | .hbm, ⟨88, _⟩ => ⟨S1x64, .f32⟩
  | .hbm, ⟨89, _⟩ => ⟨S64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .i32⟩
  | .hbm, ⟨94, _⟩ => ⟨S1100000, .i32⟩
  | .hbm, ⟨95, _⟩ => ⟨S1100000, .i1⟩
  | .hbm, ⟨96, _⟩ => ⟨S_, .i32⟩
  | .hbm, ⟨97, _⟩ => ⟨S1100000, .i32⟩
  | .hbm, ⟨98, _⟩ => ⟨S1100000, .i32⟩
  | .hbm, ⟨99, _⟩ => ⟨S1100000, .i32⟩
  | .hbm, ⟨100, _⟩ => ⟨S1100000x1, .i32⟩
  | .hbm, ⟨101, _⟩ => ⟨S1100000x64, .f32⟩
  | .hbm, ⟨102, _⟩ => ⟨S_, .f32⟩
  | .hbm, ⟨103, _⟩ => ⟨S100000x64, .f32⟩
  | .hbm, ⟨104, _⟩ => ⟨S1100000x1, .i32⟩
  | .hbm, ⟨105, _⟩ => ⟨S100000x64, .f32⟩
  | .hbm, ⟨106, _⟩ => ⟨S1x64, .f32⟩
  | .hbm, ⟨107, _⟩ => ⟨S64, .f32⟩
  | .hbm, ⟨108, _⟩ => ⟨S1x64, .f32⟩
  | .hbm, ⟨109, _⟩ => ⟨S1x64, .f32⟩
  | .hbm, ⟨110, _⟩ => ⟨S64, .f32⟩
  | .hbm, ⟨111, _⟩ => ⟨S1x64, .f32⟩
  | .hbm, ⟨112, _⟩ => ⟨S1x64, .f32⟩
  | .hbm, ⟨113, _⟩ => ⟨S64, .f32⟩
  | .hbm, ⟨114, _⟩ => ⟨S1x64, .f32⟩
  | .hbm, ⟨115, _⟩ => ⟨S1x64, .f32⟩
  | .hbm, ⟨116, _⟩ => ⟨S64, .f32⟩
  | .hbm, ⟨117, _⟩ => ⟨S1x64, .f32⟩
  | .hbm, ⟨118, _⟩ => ⟨S1x64, .f32⟩
  | .hbm, ⟨119, _⟩ => ⟨S64, .f32⟩
  | .hbm, ⟨120, _⟩ => ⟨S1x64, .f32⟩
  | .hbm, ⟨121, _⟩ => ⟨S100000x64, .f32⟩
  | .local _ .vmem, ⟨0, _⟩ => ⟨S5000x37, .f32⟩
  | .local _ .vmem, ⟨1, _⟩ => ⟨S5000x37, .f32⟩
  | .local _ .vmem, ⟨2, _⟩ => ⟨S37x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S5000x1, .f32⟩
  | .local _ .vmem, ⟨22, _⟩ => ⟨S5000x1, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S5000x1, .f32⟩
  | .local _ .vmem, ⟨42, _⟩ => ⟨S5000x1, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x1, .f32⟩
  | .local _ .vmem, ⟨48, _⟩ => ⟨S5000x1, .f32⟩
  | .local _ .vmem, ⟨49, _⟩ => ⟨S1x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | _, _ => ⟨S100000x37, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_5 : Ref sig .tc := ⟨.hbm, 63, rfl⟩
abbrev main_v44 : Ref sig .tc := ⟨.hbm, 64, rfl⟩
abbrev main_v45 : Ref sig .tc := ⟨.hbm, 65, rfl⟩
abbrev main_c_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_7 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_8 : Ref sig .tc := ⟨.hbm, 93, rfl⟩
abbrev main_v71 : Ref sig .tc := ⟨.hbm, 94, rfl⟩
abbrev main_v72 : Ref sig .tc := ⟨.hbm, 95, rfl⟩
abbrev main_c_9 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_10 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc3_stg8_0 : Ref sig .tc := ⟨.vmem, 36, rfl⟩
abbrev cc3_stg8_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg7_1 : Ref sig .tc := ⟨.vmem, 55, rfl⟩
abbrev cc5_stg8_0 : Ref sig .tc := ⟨.vmem, 56, rfl⟩
abbrev cc5_stg8_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc3_sem8_0 : DmaSem sig := 36
abbrev cc3_sem8_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem2_1 : DmaSem sig := 42
abbrev cc4_sem3_0 : DmaSem sig := 43
abbrev cc4_sem3_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem7_1 : DmaSem sig := 55
abbrev cc5_sem8_0 : DmaSem sig := 56
abbrev cc5_sem8_1 : DmaSem sig := 57

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x37 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S37x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S5000x64 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S100000_S100000x1_0 : S100000.BroadcastsInDim S100000x1 (![0] : Fin 1 → Fin S100000x1.rank)
  inb_S5000x37_S5000x37_0_0 : ∀ a, (![0, 0] : Fin 2 → Nat) a + S5000x37.size a ≤ S5000x37.size a
  h_S5000x37 : 0 < S5000x37.numel
  bitsLt_bf16_f32 : FTy.bits .bf16 < FTy.bits .f32
  inb_S37x64_S37x64_0_0 : ∀ a, (![0, 0] : Fin 2 → Nat) a + S37x64.size a ≤ S37x64.size a
  h_S37x64 : 0 < S37x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  slices_S3x64_S1x64_1_0 : S3x64.Slices ![1, 0] S1x64
  slices_S3x64_S1x64_2_0 : S3x64.Slices ![2, 0] S1x64
  scatter_S100000_S1100000x1_S1100000_n_0_0_1_wf : ScatterDims.WF S100000 S1100000x1 S1100000 [] [0] [0] 1
  dot_S5000x37_S37x64_S5000x64_1_0_0_1_n_n_wf : DotDims.WF S5000x37 S37x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x37.size a ≤ S100000x37.size a
  hwx0_0 : ∀ i : grid0.Coords, EltTy.bits .f32 = 32 ∨ (Rect.block (s := S100000x37) S5000x37.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S37x64.size a ≤ S37x64.size a
  hwx0_1 : ∀ i : grid0.Coords, EltTy.bits .f32 = 32 ∨ (Rect.block (s := S37x64) S37x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S100000x64.size a
  hwx3_7 : ∀ i : grid3.Coords, EltTy.bits .f32 = 32 ∨ (Rect.block (s := S100000x64) S5000x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x64.size a ≤ S100000x64.size a
  hwx3_8 : ∀ i : grid3.Coords, EltTy.bits .f32 = 32 ∨ (Rect.block (s := S100000x64) S5000x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S100000x64.size a
  hwx5_7 : ∀ i : grid5.Coords, EltTy.bits .f32 = 32 ∨ (Rect.block (s := S100000x64) S5000x64.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x64.size a ≤ S100000x64.size a
  hwx5_8 : ∀ i : grid5.Coords, EltTy.bits .f32 = 32 ∨ (Rect.block (s := S100000x64) S5000x64.size (cc5_transform_8 i) (hinb5_8 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def dot_S5000x37_S37x64_S5000x64_1_0_0_1_n_n : DotDims S5000x37 S37x64 S5000x64 where
  lhsContracting := [1]
  rhsContracting := [0]
  lhsNonContracting := [0]
  rhsNonContracting := [1]
  lhsBatch := []
  rhsBatch := []
  wf := dot_S5000x37_S37x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x37.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S37x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v42) S5000x64.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v69) S5000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v69) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v70) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v80) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v86) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v89) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v92) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v95) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v69) S5000x64.size cc5_transform_7 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_v96) S5000x64.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S100000x37 : Shape := ⟨2, ![100000, 37]⟩
abbrev S2x1000000 : Shape := ⟨2, ![2, 1000000]⟩
abbrev S37x64 : Shape := ⟨2, ![37, 64]⟩
abbrev S64x64 : Shape := ⟨2, ![64, 64]⟩
abbrev S3x64 : Shape := ⟨2, ![3, 64]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S64 : Shape := ⟨1, ![64]⟩

abbrev nBuf : Space → Nat
  | .hbm => 197
  | .vmem => 0
  | .smem => 0
  | _ => 0

abbrev hbmTy0_0 (i : Nat) : BufTy := match i % 128 with
  | 0 => ⟨S100000x37, .f32⟩
  | 1 => ⟨S2x1000000, .i32⟩
  | 2 => ⟨S37x64, .f32⟩
  | 3 => ⟨S64x64, .f32⟩
  | 4 => ⟨S64x64, .f32⟩
  | 5 => ⟨S3x64, .f32⟩
  | 6 => ⟨S3x64, .f32⟩
  | 7 => ⟨S3x64, .f32⟩
  | 8 => ⟨S3x64, .f32⟩
  | 9 => ⟨S3x64, .f32⟩
  | 10 => ⟨S100000, .i32⟩
  | 11 => ⟨S1x1000000, .i32⟩
  | 12 => ⟨S1000000, .i32⟩
  | 13 => ⟨S1100000, .i32⟩
  | 14 => ⟨S1x1000000, .i32⟩
  | 15 => ⟨S1000000, .i32⟩
  | 16 => ⟨S1100000, .i32⟩
  | 17 => ⟨S_, .f32⟩
  | 18 => ⟨S1100000, .f32⟩
  | 19 => ⟨S_, .f32⟩
  | 20 => ⟨S100000, .f32⟩
  | 21 => ⟨S1100000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1100000, .i32⟩
  | 33 => ⟨S1100000, .i1⟩
  | 34 => ⟨S_, .i32⟩
  | 35 => ⟨S1100000, .i32⟩
  | 36 => ⟨S1100000, .i32⟩
  | 37 => ⟨S1100000, .i32⟩
  | 38 => ⟨S1100000x1, .i32⟩
  | 39 => ⟨S1100000, .f32⟩
  | 40 => ⟨S_, .i32⟩
  | 41 => ⟨S1100000, .i32⟩
  | 42 => ⟨S1100000, .i1⟩
  | 43 => ⟨S_, .i32⟩
  | 44 => ⟨S1100000, .i32⟩
  | 45 => ⟨S1100000, .i32⟩
  | 46 => ⟨S1100000, .i32⟩
  | 47 => ⟨S1100000x1, .i32⟩
  | 48 => ⟨S1100000, .f32⟩
  | 49 => ⟨S1100000, .f32⟩
  | 50 => ⟨S1100000x1, .f32⟩
  | 51 => ⟨S100000x64, .f32⟩
  | 52 => ⟨S_, .i32⟩
  | 53 => ⟨S1100000, .i32⟩
  | 54 => ⟨S1100000, .i1⟩
  | 55 => ⟨S_, .i32⟩
  | 56 => ⟨S1100000, .i32⟩
  | 57 => ⟨S1100000, .i32⟩
  | 58 => ⟨S1100000, .i32⟩
  | 59 => ⟨S1100000x1, .i32⟩
  | 60 => ⟨S1100000x64, .f32⟩
  | 61 => ⟨S1100000x64, .f32⟩
  | 62 => ⟨S1100000x64, .f32⟩
  | 63 => ⟨S_, .f32⟩
  | 64 => ⟨S100000x64, .f32⟩
  | 65 => ⟨S1100000x1, .i32⟩
  | 66 => ⟨S100000x64, .f32⟩
  | 67 => ⟨S1x64, .f32⟩
  | 68 => ⟨S64, .f32⟩
  | 69 => ⟨S1x64, .f32⟩
  | 70 => ⟨S100000x64, .f32⟩
  | 71 => ⟨S100000x64, .f32⟩
  | 72 => ⟨S1x64, .f32⟩
  | 73 => ⟨S64, .f32⟩
  | 74 => ⟨S1x64, .f32⟩
  | 75 => ⟨S100000x64, .f32⟩
  | 76 => ⟨S100000x64, .f32⟩
  | 77 => ⟨S1x64, .f32⟩
  | 78 => ⟨S64, .f32⟩
  | 79 => ⟨S_, .f32⟩
  | 80 => ⟨S64, .f32⟩
  | 81 => ⟨S64, .f32⟩
  | 82 => ⟨S64, .f32⟩
  | 83 => ⟨S1x64, .f32⟩
  | 84 => ⟨S100000x64, .f32⟩
  | 85 => ⟨S100000x64, .f32⟩
  | 86 => ⟨S1x64, .f32⟩
  | 87 => ⟨S64, .f32⟩
  | 88 => ⟨S1x64, .f32⟩
  | 89 => ⟨S100000x64, .f32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x64, .f32⟩
  | 100 => ⟨S_, .i32⟩
  | 101 => ⟨S1100000, .i32⟩
  | 102 => ⟨S1100000, .i1⟩
  | 103 => ⟨S_, .i32⟩
  | 104 => ⟨S1100000, .i32⟩
  | 105 => ⟨S1100000, .i32⟩
  | 106 => ⟨S1100000, .i32⟩
  | 107 => ⟨S1100000x1, .i32⟩
  | 108 => ⟨S1100000x64, .f32⟩
  | 109 => ⟨S1100000x64, .f32⟩
  | 110 => ⟨S1100000x64, .f32⟩
  | 111 => ⟨S_, .f32⟩
  | 112 => ⟨S100000x64, .f32⟩
  | 113 => ⟨S1100000x1, .i32⟩
  | 114 => ⟨S100000x64, .f32⟩
  | 115 => ⟨S1x64, .f32⟩
  | 116 => ⟨S64, .f32⟩
  | 117 => ⟨S1x64, .f32⟩
  | 118 => ⟨S100000x64, .f32⟩
  | 119 => ⟨S100000x64, .f32⟩
  | 120 => ⟨S1x64, .f32⟩
  | 121 => ⟨S64, .f32⟩
  | 122 => ⟨S1x64, .f32⟩
  | 123 => ⟨S100000x64, .f32⟩
  | 124 => ⟨S100000x64, .f32⟩
  | 125 => ⟨S1x64, .f32⟩
  | 126 => ⟨S64, .f32⟩
  | 127 => ⟨S_, .f32⟩
  | _ => ⟨S100000x37, .f32⟩

abbrev hbmTy0_1 (i : Nat) : BufTy := match i % 128 with
  | 0 => ⟨S64, .f32⟩
  | 1 => ⟨S64, .f32⟩
  | 2 => ⟨S64, .f32⟩
  | 3 => ⟨S1x64, .f32⟩
  | 4 => ⟨S100000x64, .f32⟩
  | 5 => ⟨S100000x64, .f32⟩
  | 6 => ⟨S1x64, .f32⟩
  | 7 => ⟨S64, .f32⟩
  | 8 => ⟨S1x64, .f32⟩
  | 9 => ⟨S100000x64, .f32⟩
  | 10 => ⟨S100000x64, .f32⟩
  | 11 => ⟨S1x64, .f32⟩
  | 12 => ⟨S64, .f32⟩
  | 13 => ⟨S1x64, .f32⟩
  | 14 => ⟨S100000x64, .f32⟩
  | 15 => ⟨S100000x64, .f32⟩
  | 16 => ⟨S_, .f32⟩
  | 17 => ⟨S100000x64, .f32⟩
  | 18 => ⟨S100000x64, .f32⟩
  | 19 => ⟨S100000x64, .f32⟩
  | 20 => ⟨S100000x64, .f32⟩
  | 21 => ⟨S_, .i32⟩
  | 22 => ⟨S1100000, .i32⟩
  | 23 => ⟨S1100000, .i1⟩
  | 24 => ⟨S_, .i32⟩
  | 25 => ⟨S1100000, .i32⟩
  | 26 => ⟨S1100000, .i32⟩
  | 27 => ⟨S1100000, .i32⟩
  | 28 => ⟨S1100000x1, .i32⟩
  | 29 => ⟨S1100000x64, .f32⟩
  | 30 => ⟨S1100000x64, .f32⟩
  | 31 => ⟨S1100000x64, .f32⟩
  | 32 => ⟨S_, .f32⟩
  | 33 => ⟨S100000x64, .f32⟩
  | 34 => ⟨S1100000x1, .i32⟩
  | 35 => ⟨S100000x64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S1x64, .f32⟩
  | 42 => ⟨S64, .f32⟩
  | 43 => ⟨S1x64, .f32⟩
  | 44 => ⟨S100000x64, .f32⟩
  | 45 => ⟨S100000x64, .f32⟩
  | 46 => ⟨S1x64, .f32⟩
  | 47 => ⟨S64, .f32⟩
  | 48 => ⟨S_, .f32⟩
  | 49 => ⟨S64, .f32⟩
  | 50 => ⟨S64, .f32⟩
  | 51 => ⟨S64, .f32⟩
  | 52 => ⟨S1x64, .f32⟩
  | 53 => ⟨S100000x64, .f32⟩
  | 54 => ⟨S100000x64, .f32⟩
  | 55 => ⟨S1x64, .f32⟩
  | 56 => ⟨S64, .f32⟩
  | 57 => ⟨S1x64, .f32⟩
  | 58 => ⟨S100000x64, .f32⟩
  | 59 => ⟨S100000x64, .f32⟩
  | 60 => ⟨S1x64, .f32⟩
  | 61 => ⟨S64, .f32⟩
  | 62 => ⟨S1x64, .f32⟩
  | 63 => ⟨S100000x64, .f32⟩
  | 64 => ⟨S100000x64, .f32⟩
  | 65 => ⟨S_, .f32⟩
  | 66 => ⟨S100000x64, .f32⟩
  | 67 => ⟨S100000x64, .f32⟩
  | 68 => ⟨S100000x64, .f32⟩
  | _ => ⟨S100000x37, .f32⟩

abbrev hbmTy (i : Nat) : BufTy := match i / 128 with
  | 0 => hbmTy0_0 i
  | 1 => hbmTy0_1 i
  | _ => ⟨S100000x37, .f32⟩

abbrev bufTy : (tb : Table) → Fin (tcTables nBuf tb) → BufTy
  | .hbm, ⟨i, _⟩ => hbmTy i
  | _, _ => ⟨S100000x37, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩
abbrev main_c_10 : Ref sig .tc := ⟨.hbm, 100, rfl⟩
abbrev main_v74 : Ref sig .tc := ⟨.hbm, 101, rfl⟩
abbrev main_v75 : Ref sig .tc := ⟨.hbm, 102, rfl⟩
abbrev main_c_11 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_12 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_13 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_call2_cst : Ref sig .tc := ⟨.hbm, 144, rfl⟩
abbrev main_call2_v0 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_c_14 : Ref sig .tc := ⟨.hbm, 149, rfl⟩
abbrev main_v117 : Ref sig .tc := ⟨.hbm, 150, rfl⟩
abbrev main_v118 : Ref sig .tc := ⟨.hbm, 151, rfl⟩
abbrev main_c_15 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_cst_16 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_cst_17 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_call3_cst : Ref sig .tc := ⟨.hbm, 193, rfl⟩
abbrev main_call3_v0 : Ref sig .tc := ⟨.hbm, 194, rfl⟩
abbrev main_v157 : Ref sig .tc := ⟨.hbm, 195, rfl⟩
abbrev main_v158 : Ref sig .tc := ⟨.hbm, 196, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S3x64_S1x64_1_0 : S3x64.Slices ![1, 0] S1x64
  slices_S3x64_S1x64_2_0 : S3x64.Slices ![2, 0] S1x64
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x37_S37x64_S100000x64_1_0_0_1_n_n_wf : DotDims.WF S100000x37 S37x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x37_S37x64_S100000x64_1_0_0_1_n_n : DotDims S100000x37 S37x64 S100000x64 where
  lhsContracting := [1]
  rhsContracting := [0]
  lhsNonContracting := [0]
  rhsNonContracting := [1]
  lhsBatch := []
  rhsBatch := []
  wf := dot_S100000x37_S37x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibAfterResultsCat.lean ====
/-
  Evaluating a straight-line host program's operations past a concatenation.

  What a buffer holds after a list of host operations is a fold; the library evaluates it in one rewriting pass, operation by operation.
  A concatenation takes its operands as a LIST of (shape, vector) pairs, and the pass does not rewrite under such pairs: whatever is
  looked up inside them stays a fold over all the earlier operations. Stated as ordinary functions of two or three vectors, a
  concatenation's operands are rewritten like any other's. The equations are definitional; the pass applies them on the way down,
  before it visits the operands.
-/
import Idealize.ShloMosaic.Lib.StableHlo.Run

noncomputable section

namespace Idealize.ShloMosaic.StableHlo

open Idealize.ShloMosaic

/-- A concatenation of two vectors as a function of the two. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- A concatenation of three vectors as a function of the three. -/
def cat3 {α : Type} (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

theorem concatenate_triple {α : Type} (t : Shape) (a : Fin t.rank) (s₁ s₂ s₃ : Shape) (h : Shape.Concatenates [s₁, s₂, s₃] t a)
    (x : s₁.Idx → α) (y : s₂.Idx → α) (z : s₃.Idx → α) :
    concatenate t a [⟨s₁, x⟩, ⟨s₂, y⟩, ⟨s₃, z⟩] h = cat3 t a s₁ s₂ s₃ h x y z := rfl

/-- The one-pass evaluation of an operation list's results, concatenations' operands included. -/
macro "after_results_cat" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', ↓concatenate_pair, ↓concatenate_triple]))

/-- The operations of a function the program calls carry their values through casts along the equality of a buffer's type with
    the value's type; the two types are the same once the buffer is a literal, and the casts then go. To be run after
    `after_results_cat`, and on one call's operations at a time, over whatever the buffers held before: each cast
    removed is a rewrite inside the whole term, so the smaller the term around it the better. -/
macro "after_results_strip" : tactic =>
  `(tactic| (simp only [TRef.toBuf, TRef.ofBuf, cast_eq]))

end Idealize.ShloMosaic.StableHlo

end
-- ==== Proof.KernelWalk.lean ====
/- The buffer contents of the ideal kernel's run, walked boundary by boundary: which buffers each TensorCore region
   and each stretch of host operations leaves as it found them, and the run's result buffer read at the last
   boundary's contents. -/
import proofs.«135579_j32401233281333_2_alg».proof.Proof.Gen.KernelIdeal.Frame

set_option maxRecDepth 16384

noncomputable section

namespace Cert.KernelIdeal.Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, with the result buffer named -/

-- the launch theorem's implicit arguments are found by unifying its conclusion with this one, which takes unfolding
-- plain definitions in a metavariable's type
set_option backward.isDefEq.respectTransparency.types false in
/-- The run of the six regions and the host stretches between them, with the result buffer read at the last
    boundary's contents: from any memory with zero counters every weakly fair execution terminates, and in every final
    state the result buffer holds what the fold through the twelve segments leaves there, and each of the ten argument
    arrays holds what it held at launch. -/
theorem run_result : θ_run defs (onTc (τ := τ) (main (F := F))) ⟨m, fun _ => 0, ρ⟩ (fun r => ∀ c : Dev nD,
      r.2.mem ((c.tc : Thread nD τ).loc main_v96) = Gen.W12 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v96 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

/-! ## A region changes no array but its output

An input window's array is, at the region's exit, what the region's proof data hold for it at the last point, which is
what they hold at the first, which is the entry contents; a buffer that is no window's array is untouched. -/

/-- Region 0 leaves every TensorCore buffer but its output `main_v16` as it found it. -/
theorem keep4 (c : Dev nD) (b : Ref sig .tc) (hb : b ≠ main_v16) :
    Gen.W4 m ρ c (Proc.devRef .tc b) = Gen.W3 m ρ c (Proc.devRef .tc b) := by
  by_cases h : ∃ w, Pipeline.arrRef spec0 w = b
  · obtain ⟨w, rfl⟩ := h
    have hin : (cfg0.win w).isOut = false :=
      (show ∀ w : Fin 4, Pipeline.arrRef spec0 w ≠ main_v16 → (cfg0.win w).isOut = false from by decide) w hb
    exact (Gen.W4_arr m ρ c w).trans
      (((Gen.dat0 (Gen.V3 m ρ) c).arrAt_in w hin _).trans (Gen.A_eq0 (Gen.V3 m ρ) c w))
  · exact Gen.W4_of_ne m ρ c b fun w e => h ⟨w, e⟩

/-- Region 1 leaves every TensorCore buffer but its output `main_v42` as it found it. -/
theorem keep6 (c : Dev nD) (b : Ref sig .tc) (hb : b ≠ main_v42) :
    Gen.W6 m ρ c (Proc.devRef .tc b) = Gen.W5 m ρ c (Proc.devRef .tc b) := by
  by_cases h : ∃ w, Pipeline.arrRef spec1 w = b
  · obtain ⟨w, rfl⟩ := h
    have hin : (cfg1.win w).isOut = false :=
      (show ∀ w : Fin 8, Pipeline.arrRef spec1 w ≠ main_v42 → (cfg1.win w).isOut = false from by decide) w hb
    exact (Gen.W6_arr m ρ c w).trans
      (((Gen.dat1 (Gen.V5 m ρ) c).arrAt_in w hin _).trans (Gen.A_eq1 (Gen.V5 m ρ) c w))
  · exact Gen.W6_of_ne m ρ c b fun w e => h ⟨w, e⟩

/-- Region 2 leaves every TensorCore buffer but its output `main_v43` as it found it. -/
theorem keep7 (c : Dev nD) (b : Ref sig .tc) (hb : b ≠ main_v43) :
    Gen.W7 m ρ c (Proc.devRef .tc b) = Gen.W6 m ρ c (Proc.devRef .tc b) := by
  by_cases h : ∃ w, Pipeline.arrRef spec2 w = b
  · obtain ⟨w, rfl⟩ := h
    have hin : (cfg2.win w).isOut = false :=
      (show ∀ w : Fin 4, Pipeline.arrRef spec2 w ≠ main_v43 → (cfg2.win w).isOut = false from by decide) w hb
    exact (Gen.W7_arr m ρ c w).trans
      (((Gen.dat2 (Gen.V6 m ρ) c).arrAt_in w hin _).trans (Gen.A_eq2 (Gen.V6 m ρ) c w))
  · exact Gen.W7_of_ne m ρ c b fun w e => h ⟨w, e⟩

/-- Region 3 leaves every TensorCore buffer but its output `main_v69` as it found it. -/
theorem keep9 (c : Dev nD) (b : Ref sig .tc) (hb : b ≠ main_v69) :
    Gen.W9 m ρ c (Proc.devRef .tc b) = Gen.W8 m ρ c (Proc.devRef .tc b) := by
  by_cases h : ∃ w, Pipeline.arrRef spec3 w = b
  · obtain ⟨w, rfl⟩ := h
    have hin : (cfg3.win w).isOut = false :=
      (show ∀ w : Fin 9, Pipeline.arrRef spec3 w ≠ main_v69 → (cfg3.win w).isOut = false from by decide) w hb
    exact (Gen.W9_arr m ρ c w).trans
      (((Gen.dat3 (Gen.V8 m ρ) c).arrAt_in w hin _).trans (Gen.A_eq3 (Gen.V8 m ρ) c w))
  · exact Gen.W9_of_ne m ρ c b fun w e => h ⟨w, e⟩

/-- Region 4 leaves every TensorCore buffer but its output `main_v70` as it found it. -/
theorem keep10 (c : Dev nD) (b : Ref sig .tc) (hb : b ≠ main_v70) :
    Gen.W10 m ρ c (Proc.devRef .tc b) = Gen.W9 m ρ c (Proc.devRef .tc b) := by
  by_cases h : ∃ w, Pipeline.arrRef spec4 w = b
  · obtain ⟨w, rfl⟩ := h
    have hin : (cfg4.win w).isOut = false :=
      (show ∀ w : Fin 4, Pipeline.arrRef spec4 w ≠ main_v70 → (cfg4.win w).isOut = false from by decide) w hb
    exact (Gen.W10_arr m ρ c w).trans
      (((Gen.dat4 (Gen.V9 m ρ) c).arrAt_in w hin _).trans (Gen.A_eq4 (Gen.V9 m ρ) c w))
  · exact Gen.W10_of_ne m ρ c b fun w e => h ⟨w, e⟩

/-- Region 5 leaves every TensorCore buffer but its output `main_v96` as it found it. -/
theorem keep12 (c : Dev nD) (b : Ref sig .tc) (hb : b ≠ main_v96) :
    Gen.W12 m ρ c (Proc.devRef .tc b) = Gen.W11 m ρ c (Proc.devRef .tc b) := by
  by_cases h : ∃ w, Pipeline.arrRef spec5 w = b
  · obtain ⟨w, rfl⟩ := h
    have hin : (cfg5.win w).isOut = false :=
      (show ∀ w : Fin 9, Pipeline.arrRef spec5 w ≠ main_v96 → (cfg5.win w).isOut = false from by decide) w hb
    exact (Gen.W12_arr m ρ c w).trans
      (((Gen.dat5 (Gen.V11 m ρ) c).arrAt_in w hin _).trans (Gen.A_eq5 (Gen.V11 m ρ) c w))
  · exact Gen.W12_of_ne m ρ c b fun w e => h ⟨w, e⟩

/-! ## A host stretch changes no buffer but those its operations write -/

/-- A buffer no operation of `hostOps1` writes holds after the stretch what it held before. -/
theorem keep5 (c : Dev nD) (b : DevRef τ sig)
    (hb : ∀ op ∈ (Gen.hostOps1 : List (HloOp τ sig (Elt F))), b ∉ op.writes) :
    Gen.W5 m ρ c b = Gen.W4 m ρ c b :=
  StableHlo.after_of_forall_not_mem _ _ hb

/-- A buffer no operation of `hostOps3` writes holds after the stretch what it held before. -/
theorem keep8 (c : Dev nD) (b : DevRef τ sig)
    (hb : ∀ op ∈ (Gen.hostOps3 : List (HloOp τ sig (Elt F))), b ∉ op.writes) :
    Gen.W8 m ρ c b = Gen.W7 m ρ c b :=
  StableHlo.after_of_forall_not_mem _ _ hb

/-- A buffer no operation of `hostOps5` writes holds after the stretch what it held before. -/
theorem keep11 (c : Dev nD) (b : DevRef τ sig)
    (hb : ∀ op ∈ (Gen.hostOps5 : List (HloOp τ sig (Elt F))), b ∉ op.writes) :
    Gen.W11 m ρ c b = Gen.W10 m ρ c b :=
  StableHlo.after_of_forall_not_mem _ _ hb

/-- Closes `∀ op ∈ ops, b ∉ op.writes` for a literal stretch `ops` and a named TensorCore buffer `b`: each
    operation writes one named buffer, and two differently named buffers are different. -/
macro "not_written" : tactic => `(tactic|
  exact List.forall_iff_forall_mem.mp (by
    simp only [Cert.KernelIdeal.Gen.hostOps1, Cert.KernelIdeal.Gen.hostOps3, Cert.KernelIdeal.Gen.hostOps5,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ### What `hostOps1` leaves alone -/

theorem keep5_main_v3 (c : Dev nD) :
    Gen.W5 m ρ c (Proc.devRef .tc main_v3) = Gen.W4 m ρ c (Proc.devRef .tc main_v3) :=
  keep5 m ρ c _ (by not_written)
theorem keep5_main_v6 (c : Dev nD) :
    Gen.W5 m ρ c (Proc.devRef .tc main_v6) = Gen.W4 m ρ c (Proc.devRef .tc main_v6) :=
  keep5 m ρ c _ (by not_written)
theorem keep5_main_v15 (c : Dev nD) :
    Gen.W5 m ρ c (Proc.devRef .tc main_v15) = Gen.W4 m ρ c (Proc.devRef .tc main_v15) :=
  keep5 m ρ c _ (by not_written)
theorem keep5_main_arg3 (c : Dev nD) :
    Gen.W5 m ρ c (Proc.devRef .tc main_arg3) = Gen.W4 m ρ c (Proc.devRef .tc main_arg3) :=
  keep5 m ρ c _ (by not_written)
theorem keep5_main_arg4 (c : Dev nD) :
    Gen.W5 m ρ c (Proc.devRef .tc main_arg4) = Gen.W4 m ρ c (Proc.devRef .tc main_arg4) :=
  keep5 m ρ c _ (by not_written)
theorem keep5_main_arg5 (c : Dev nD) :
    Gen.W5 m ρ c (Proc.devRef .tc main_arg5) = Gen.W4 m ρ c (Proc.devRef .tc main_arg5) :=
  keep5 m ρ c _ (by not_written)
theorem keep5_main_arg6 (c : Dev nD) :
    Gen.W5 m ρ c (Proc.devRef .tc main_arg6) = Gen.W4 m ρ c (Proc.devRef .tc main_arg6) :=
  keep5 m ρ c _ (by not_written)
theorem keep5_main_arg7 (c : Dev nD) :
    Gen.W5 m ρ c (Proc.devRef .tc main_arg7) = Gen.W4 m ρ c (Proc.devRef .tc main_arg7) :=
  keep5 m ρ c _ (by not_written)
theorem keep5_main_arg8 (c : Dev nD) :
    Gen.W5 m ρ c (Proc.devRef .tc main_arg8) = Gen.W4 m ρ c (Proc.devRef .tc main_arg8) :=
  keep5 m ρ c _ (by not_written)
theorem keep5_main_arg9 (c : Dev nD) :
    Gen.W5 m ρ c (Proc.devRef .tc main_arg9) = Gen.W4 m ρ c (Proc.devRef .tc main_arg9) :=
  keep5 m ρ c _ (by not_written)

/-! ### What `hostOps3` leaves alone -/

theorem keep8_main_v3 (c : Dev nD) :
    Gen.W8 m ρ c (Proc.devRef .tc main_v3) = Gen.W7 m ρ c (Proc.devRef .tc main_v3) :=
  keep8 m ρ c _ (by not_written)
theorem keep8_main_v6 (c : Dev nD) :
    Gen.W8 m ρ c (Proc.devRef .tc main_v6) = Gen.W7 m ρ c (Proc.devRef .tc main_v6) :=
  keep8 m ρ c _ (by not_written)
theorem keep8_main_v15 (c : Dev nD) :
    Gen.W8 m ρ c (Proc.devRef .tc main_v15) = Gen.W7 m ρ c (Proc.devRef .tc main_v15) :=
  keep8 m ρ c _ (by not_written)
theorem keep8_main_arg3 (c : Dev nD) :
    Gen.W8 m ρ c (Proc.devRef .tc main_arg3) = Gen.W7 m ρ c (Proc.devRef .tc main_arg3) :=
  keep8 m ρ c _ (by not_written)
theorem keep8_main_arg4 (c : Dev nD) :
    Gen.W8 m ρ c (Proc.devRef .tc main_arg4) = Gen.W7 m ρ c (Proc.devRef .tc main_arg4) :=
  keep8 m ρ c _ (by not_written)
theorem keep8_main_arg5 (c : Dev nD) :
    Gen.W8 m ρ c (Proc.devRef .tc main_arg5) = Gen.W7 m ρ c (Proc.devRef .tc main_arg5) :=
  keep8 m ρ c _ (by not_written)
theorem keep8_main_arg6 (c : Dev nD) :
    Gen.W8 m ρ c (Proc.devRef .tc main_arg6) = Gen.W7 m ρ c (Proc.devRef .tc main_arg6) :=
  keep8 m ρ c _ (by not_written)
theorem keep8_main_arg7 (c : Dev nD) :
    Gen.W8 m ρ c (Proc.devRef .tc main_arg7) = Gen.W7 m ρ c (Proc.devRef .tc main_arg7) :=
  keep8 m ρ c _ (by not_written)
theorem keep8_main_arg8 (c : Dev nD) :
    Gen.W8 m ρ c (Proc.devRef .tc main_arg8) = Gen.W7 m ρ c (Proc.devRef .tc main_arg8) :=
  keep8 m ρ c _ (by not_written)
theorem keep8_main_arg9 (c : Dev nD) :
    Gen.W8 m ρ c (Proc.devRef .tc main_arg9) = Gen.W7 m ρ c (Proc.devRef .tc main_arg9) :=
  keep8 m ρ c _ (by not_written)
theorem keep8_main_v42 (c : Dev nD) :
    Gen.W8 m ρ c (Proc.devRef .tc main_v42) = Gen.W7 m ρ c (Proc.devRef .tc main_v42) :=
  keep8 m ρ c _ (by not_written)

/-! ### What `hostOps5` leaves alone -/

theorem keep11_main_v3 (c : Dev nD) :
    Gen.W11 m ρ c (Proc.devRef .tc main_v3) = Gen.W10 m ρ c (Proc.devRef .tc main_v3) :=
  keep11 m ρ c _ (by not_written)
theorem keep11_main_v6 (c : Dev nD) :
    Gen.W11 m ρ c (Proc.devRef .tc main_v6) = Gen.W10 m ρ c (Proc.devRef .tc main_v6) :=
  keep11 m ρ c _ (by not_written)
theorem keep11_main_v15 (c : Dev nD) :
    Gen.W11 m ρ c (Proc.devRef .tc main_v15) = Gen.W10 m ρ c (Proc.devRef .tc main_v15) :=
  keep11 m ρ c _ (by not_written)
theorem keep11_main_arg3 (c : Dev nD) :
    Gen.W11 m ρ c (Proc.devRef .tc main_arg3) = Gen.W10 m ρ c (Proc.devRef .tc main_arg3) :=
  keep11 m ρ c _ (by not_written)
theorem keep11_main_arg4 (c : Dev nD) :
    Gen.W11 m ρ c (Proc.devRef .tc main_arg4) = Gen.W10 m ρ c (Proc.devRef .tc main_arg4) :=
  keep11 m ρ c _ (by not_written)
theorem keep11_main_arg5 (c : Dev nD) :
    Gen.W11 m ρ c (Proc.devRef .tc main_arg5) = Gen.W10 m ρ c (Proc.devRef .tc main_arg5) :=
  keep11 m ρ c _ (by not_written)
theorem keep11_main_arg6 (c : Dev nD) :
    Gen.W11 m ρ c (Proc.devRef .tc main_arg6) = Gen.W10 m ρ c (Proc.devRef .tc main_arg6) :=
  keep11 m ρ c _ (by not_written)
theorem keep11_main_arg7 (c : Dev nD) :
    Gen.W11 m ρ c (Proc.devRef .tc main_arg7) = Gen.W10 m ρ c (Proc.devRef .tc main_arg7) :=
  keep11 m ρ c _ (by not_written)
theorem keep11_main_arg8 (c : Dev nD) :
    Gen.W11 m ρ c (Proc.devRef .tc main_arg8) = Gen.W10 m ρ c (Proc.devRef .tc main_arg8) :=
  keep11 m ρ c _ (by not_written)
theorem keep11_main_arg9 (c : Dev nD) :
    Gen.W11 m ρ c (Proc.devRef .tc main_arg9) = Gen.W10 m ρ c (Proc.devRef .tc main_arg9) :=
  keep11 m ρ c _ (by not_written)
theorem keep11_main_v69 (c : Dev nD) :
    Gen.W11 m ρ c (Proc.devRef .tc main_v69) = Gen.W10 m ρ c (Proc.devRef .tc main_v69) :=
  keep11 m ρ c _ (by not_written)

end Cert.KernelIdeal.Walk

end
-- ==== Proof.LibPlainDot.lean ====
/-
  A matrix product read entry by entry.

  For a contraction of the second axis of an [M, K] matrix with the first axis of a [K, N] matrix — whatever record of
  dimension numbers spells it, as long as its operand indices at an output entry (r, c) and a contraction coordinate k
  are (r, k) and (k, c) — the sum over the record's contraction index type is the ordinary sum over `k : Fin K` of
  `x (r, k) * w (k, c)`. On the extended reals this is what both a block product on the matrix unit (into a zero
  accumulator) and a host `dot_general` denote, so the two meet in this one form.
-/
import Idealize.ShloMosaic.PureOps.Ideal.Laws
import Idealize.ShloMosaic.Lib.ValueIdx

namespace Idealize.ShloMosaic.PlainDot

open Idealize.ShloMosaic Idealize.ShloMosaic.ValueIdx

/-- The contraction sum of a plain two-dimensional product, re-indexed by the contracted coordinate. The four
    hypotheses say where the record reads its operands: the left one at (row of the entry, k), the right one at
    (k, column of the entry). -/
theorem sum_contr {M K N : Nat} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal)
    (i : (⟨2, ![M, N]⟩ : Shape).Idx) :
    ∑ q : D.contr.Idx, x (D.lhsIdx i q) * w (D.rhsIdx i q) = ∑ k : Fin K, x (ix2 (i 0) k) * w (ix2 k (i 1)) := by
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact l0 _ _
    | ⟨1, _⟩ => exact (l1 _ _).trans hk)
  have er : D.rhsIdx i ((contrEquiv1 D K hr hs).symm k) = ix2 k (i 1) := funext fun a => Fin.ext (by
    match a with
    | ⟨0, _⟩ => exact (r0 _ _).trans hk
    | ⟨1, _⟩ => exact r1 _ _)
  rw [el, er]
  rfl

/-- A product on the matrix unit into a zero accumulator, at an entry: the sum over the contracted coordinate. -/
theorem matmul_zero_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (x : FVec Ideal ⟨2, ![M, K]⟩ φ₁) (w : FVec Ideal ⟨2, ![K, N]⟩ φ₂)
    (i : (⟨2, ![M, N]⟩ : Shape).Idx) :
    FloatOps.matmul D prec x w (constant ⟨2, ![M, N]⟩ .f32 0x00000000#32) i
      = ∑ k : Fin K, x (ix2 (i 0) k) * w (ix2 k (i 1)) :=
  (Ideal.matmul_constant_zero_apply D prec x w i).trans (sum_contr D hr hs l0 l1 r0 r1 x w i)

/-- A host `dot_general` at an entry: the same sum. -/
theorem dotGeneral_apply {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (prec : Option ContractPrecision) (sched : HostSchedule) (x : FVec Ideal ⟨2, ![M, K]⟩ φ₁) (w : FVec Ideal ⟨2, ![K, N]⟩ φ₂)
    (i : (⟨2, ![M, N]⟩ : Shape).Idx) :
    FloatOps.dotGeneral D prec sched x w i = ∑ k : Fin K, x (ix2 (i 0) k) * w (ix2 k (i 1)) :=
  (Ideal.dotGeneral_apply D prec sched x w i).trans (sum_contr D hr hs l0 l1 r0 r1 x w i)

end Idealize.ShloMosaic.PlainDot
-- ==== Proof.GcnSpec.lean ====
/-
  What each of the six kernels of a three-layer normalised graph convolution leaves in its output array, as one
  function of its input arrays, entry by entry, on the extended reals.  100000 nodes, 64 hidden features.

  `mmScale K X W D`: entry (n, j) is (row n of X times column j of W) times the node's factor D(n).
  `bnAct A D b μ v γ β`: entry (n, j) is max(((A(n,j)·D(n) + b(j)) − μ(j)) · rsqrt(v(j) + ε) · γ(j) + β(j), 0).
  `bnActRes … P`: the same, added to the previous layer's entry P(n, j).
  The two literals are kept as the float words the programs print: ε is the single-precision word 0x3727C5AC and
  zero the word 0x00000000; the same words stand on both sides of every equation, so ε's value is never needed.
-/
import Idealize.ShloMosaic.PureOps.Ideal
import Idealize.ShloMosaic.Lib.ValueIdx

noncomputable section

open scoped BigOperators

namespace Cert.Gcn

open Idealize.ShloMosaic Idealize.ShloMosaic.ValueIdx

/-- The feature transform followed by the per-node factor. -/
def mmScale (K : Nat) (X : (⟨2, ![100000, K]⟩ : Shape).Idx → EReal) (W : (⟨2, ![K, 64]⟩ : Shape).Idx → EReal)
    (D : (⟨2, ![100000, 1]⟩ : Shape).Idx → EReal) : (⟨2, ![100000, 64]⟩ : Shape).Idx → EReal :=
  fun i => (∑ k : Fin K, X (ix2 (i 0) k) * W (ix2 k (i 1))) * D (ix2 (i 0) ⟨0, Nat.one_pos⟩)

/-- One entry of the normalisation chain: factor, bias, running statistics, scale and shift, rectifier. -/
def bnEntry (a d b μ v γ β : EReal) : EReal :=
  max (((((a * d + b) - μ) * Ideal.rsqrt (v + Ideal.ofBits .f32 0x3727C5AC#32)) * γ) + β) (Ideal.ofBits .f32 0x00000000#32)

/-- The normalisation chain over the whole array. -/
def bnAct (A : (⟨2, ![100000, 64]⟩ : Shape).Idx → EReal) (D : (⟨2, ![100000, 1]⟩ : Shape).Idx → EReal)
    (b μ v γ β : (⟨2, ![1, 64]⟩ : Shape).Idx → EReal) : (⟨2, ![100000, 64]⟩ : Shape).Idx → EReal :=
  fun i => bnEntry (A i) (D (ix2 (i 0) ⟨0, Nat.one_pos⟩)) (b (ix2 ⟨0, Nat.one_pos⟩ (i 1))) (μ (ix2 ⟨0, Nat.one_pos⟩ (i 1)))
    (v (ix2 ⟨0, Nat.one_pos⟩ (i 1))) (γ (ix2 ⟨0, Nat.one_pos⟩ (i 1))) (β (ix2 ⟨0, Nat.one_pos⟩ (i 1)))

/-- The normalisation chain added to the previous layer's array. -/
def bnActRes (A : (⟨2, ![100000, 64]⟩ : Shape).Idx → EReal) (D : (⟨2, ![100000, 1]⟩ : Shape).Idx → EReal)
    (b μ v γ β : (⟨2, ![1, 64]⟩ : Shape).Idx → EReal) (P : (⟨2, ![100000, 64]⟩ : Shape).Idx → EReal) :
    (⟨2, ![100000, 64]⟩ : Shape).Idx → EReal :=
  fun i => P i + bnAct A D b μ v γ β i

end Cert.Gcn

end
-- ==== Proof.KernelPay.lean ====
/-
  The six kernel bodies of the three graph-convolution layers, read at one entry of a block of 5000 rows, on the
  extended reals.

  A feature-transform body: the block's row p of x times column q of the weight matrix — the change of float format
  in front of the product is the identity on the extended reals, and the matrix unit's product into a zero
  accumulator is the plain sum over the contracted index — times the row's normalisation factor.
  A normalisation body: the aggregate's entry times the row's factor, plus the bias, minus the running mean, times
  the reciprocal square root of (running variance + ε), times the scale, plus the shift, then the maximum with zero;
  the residual variant adds the previous layer's entry in front.
-/
import proofs.«135579_j32401233281333_2_alg».proof.Proof.Gen.KernelIdeal.Skeleton
import proofs.«135579_j32401233281333_2_alg».proof.Proof.LibPlainDot
import proofs.«135579_j32401233281333_2_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- A column [5000, 1] spread over 64 lanes reads, at (p, q), the column's entry of row p. -/
theorem spreadCol (v : Vec Ideal S5000x1 .f32) (p : Fin 5000) (q : Fin 64) :
    broadcastTo S5000x64 v broadcasts_S5000x1_S5000x64 (ix2 p q) = v (ix2 p ⟨0, Nat.one_pos⟩) :=
  broadcastTo_apply v broadcasts_S5000x1_S5000x64 (ix2 p q) (ix2 p ⟨0, Nat.one_pos⟩) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- A row [1, 64] spread over 5000 rows reads, at (p, q), the row's entry of lane q. -/
theorem spreadRow (v : Vec Ideal S1x64 .f32) (p : Fin 5000) (q : Fin 64) :
    broadcastTo S5000x64 v broadcasts_S1x64_S5000x64 (ix2 p q) = v (ix2 ⟨0, Nat.one_pos⟩ q) :=
  broadcastTo_apply v broadcasts_S1x64_S5000x64 (ix2 p q) (ix2 ⟨0, Nat.one_pos⟩ q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-- The first layer's feature transform (37 input features) at (p, q). -/
theorem mm0 (x0 : Vec Ideal S5000x37 .f32) (x1 : Vec Ideal S37x64 .f32) (x2 : Vec Ideal S5000x1 .f32) (p : Fin 5000) (q : Fin 64) :
    k0_pay1 (F := Ideal) x0 x1 x2 (ix2 p q) = (∑ k : Fin 37, x0 (ix2 p k) * x1 (ix2 k q)) * x2 (ix2 p ⟨0, Nat.one_pos⟩) := by
  unfold k0_pay1
  simp only [shapeCast_self]
  rw [mulf_apply, spreadCol]
  refine congrArg (· * _) ?_
  exact PlainDot.matmul_zero_apply dot_S5000x37_S37x64_S5000x64_1_0_0_1_n_n rfl rfl
    (fun i q => by
      unfold DotDims.lhsIdx
      rw [dif_neg (show ¬(0 : Fin S5000x37.rank) ∈ dot_S5000x37_S37x64_S5000x64_1_0_0_1_n_n.lhsBatch by decide), dif_pos (show (0 : Fin S5000x37.rank) ∈ dot_S5000x37_S37x64_S5000x64_1_0_0_1_n_n.lhsNonContracting by decide)]
      rfl)
    (fun i q => dot_S5000x37_S37x64_S5000x64_1_0_0_1_n_n.lhsIdx_val_of_single rfl i q)
    (fun i q => dot_S5000x37_S37x64_S5000x64_1_0_0_1_n_n.rhsIdx_val_of_single rfl i q)
    (fun i q => by
      unfold DotDims.rhsIdx
      rw [dif_neg (show ¬(1 : Fin S37x64.rank) ∈ dot_S5000x37_S37x64_S5000x64_1_0_0_1_n_n.rhsBatch by decide), dif_pos (show (1 : Fin S37x64.rank) ∈ dot_S5000x37_S37x64_S5000x64_1_0_0_1_n_n.rhsNonContracting by decide)]
      rfl)
    none _ _ (ix2 p q)

/-- The second layer's feature transform (64 input features) at (p, q). -/
theorem mm2 (x0 : Vec Ideal S5000x64 .f32) (x1 : Vec Ideal S64x64 .f32) (x2 : Vec Ideal S5000x1 .f32) (p : Fin 5000) (q : Fin 64) :
    k2_pay1 (F := Ideal) x0 x1 x2 (ix2 p q) = (∑ k : Fin 64, x0 (ix2 p k) * x1 (ix2 k q)) * x2 (ix2 p ⟨0, Nat.one_pos⟩) := by
  unfold k2_pay1
  simp only [shapeCast_self]
  rw [mulf_apply, spreadCol]
  refine congrArg (· * _) ?_
  exact PlainDot.matmul_zero_apply dot_S5000x64_S64x64_S5000x64_1_0_0_1_n_n rfl rfl
    (fun i q => by
      unfold DotDims.lhsIdx
      rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
      rfl)
    (fun i q => dot_S5000x64_S64x64_S5000x64_1_0_0_1_n_n.lhsIdx_val_of_single rfl i q)
    (fun i q => dot_S5000x64_S64x64_S5000x64_1_0_0_1_n_n.rhsIdx_val_of_single rfl i q)
    (fun i q => by
      unfold DotDims.rhsIdx
      rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
      rfl)
    none _ _ (ix2 p q)

/-- The third layer's feature transform (64 input features) at (p, q). -/
theorem mm4 (x0 : Vec Ideal S5000x64 .f32) (x1 : Vec Ideal S64x64 .f32) (x2 : Vec Ideal S5000x1 .f32) (p : Fin 5000) (q : Fin 64) :
    k4_pay1 (F := Ideal) x0 x1 x2 (ix2 p q) = (∑ k : Fin 64, x0 (ix2 p k) * x1 (ix2 k q)) * x2 (ix2 p ⟨0, Nat.one_pos⟩) := by
  unfold k4_pay1
  simp only [shapeCast_self]
  rw [mulf_apply, spreadCol]
  refine congrArg (· * _) ?_
  exact PlainDot.matmul_zero_apply dot_S5000x64_S64x64_S5000x64_1_0_0_1_n_n rfl rfl
    (fun i q => by
      unfold DotDims.lhsIdx
      rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
      rfl)
    (fun i q => dot_S5000x64_S64x64_S5000x64_1_0_0_1_n_n.lhsIdx_val_of_single rfl i q)
    (fun i q => dot_S5000x64_S64x64_S5000x64_1_0_0_1_n_n.rhsIdx_val_of_single rfl i q)
    (fun i q => by
      unfold DotDims.rhsIdx
      rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
      rfl)
    none _ _ (ix2 p q)

/-- The first layer's normalisation body at (p, q). -/
theorem bn1 (v0 : Vec Ideal S5000x64 .f32) (v2 : Vec Ideal S5000x1 .f32) (v6 v10 v14 v21 v25 : Vec Ideal S1x64 .f32) (p : Fin 5000) (q : Fin 64) :
    k1_pay1 (F := Ideal) v0 v2 v6 v10 v14 v21 v25 (ix2 p q)
      = Cert.Gcn.bnEntry (v0 (ix2 p q)) (v2 (ix2 p ⟨0, Nat.one_pos⟩)) (v6 (ix2 ⟨0, Nat.one_pos⟩ q)) (v10 (ix2 ⟨0, Nat.one_pos⟩ q))
          (v14 (ix2 ⟨0, Nat.one_pos⟩ q)) (v21 (ix2 ⟨0, Nat.one_pos⟩ q)) (v25 (ix2 ⟨0, Nat.one_pos⟩ q)) := by
  unfold k1_pay1 Cert.Gcn.bnEntry
  simp only [shapeCast_self]
  simp only [addf_apply, mulf_apply, subf_apply, maximumf_apply]
  rw [spreadCol, spreadRow, spreadRow, spreadRow, spreadRow, spreadRow]
  rfl

/-- A residual normalisation body at (p, q). -/
theorem bn3 (v0 : Vec Ideal S5000x64 .f32) (v2 : Vec Ideal S5000x1 .f32) (v6 v10 v14 v21 v25 : Vec Ideal S1x64 .f32) (v31 : Vec Ideal S5000x64 .f32) (p : Fin 5000) (q : Fin 64) :
    k3_pay1 (F := Ideal) v0 v2 v6 v10 v14 v21 v25 v31 (ix2 p q)
      = v31 (ix2 p q) + Cert.Gcn.bnEntry (v0 (ix2 p q)) (v2 (ix2 p ⟨0, Nat.one_pos⟩)) (v6 (ix2 ⟨0, Nat.one_pos⟩ q)) (v10 (ix2 ⟨0, Nat.one_pos⟩ q))
          (v14 (ix2 ⟨0, Nat.one_pos⟩ q)) (v21 (ix2 ⟨0, Nat.one_pos⟩ q)) (v25 (ix2 ⟨0, Nat.one_pos⟩ q)) := by
  unfold k3_pay1 Cert.Gcn.bnEntry
  simp only [shapeCast_self]
  simp only [addf_apply, mulf_apply, subf_apply, maximumf_apply]
  rw [spreadCol, spreadRow, spreadRow, spreadRow, spreadRow, spreadRow]
  rfl

/-- A residual normalisation body at (p, q). -/
theorem bn5 (v0 : Vec Ideal S5000x64 .f32) (v2 : Vec Ideal S5000x1 .f32) (v6 v10 v14 v21 v25 : Vec Ideal S1x64 .f32) (v31 : Vec Ideal S5000x64 .f32) (p : Fin 5000) (q : Fin 64) :
    k5_pay1 (F := Ideal) v0 v2 v6 v10 v14 v21 v25 v31 (ix2 p q)
      = v31 (ix2 p q) + Cert.Gcn.bnEntry (v0 (ix2 p q)) (v2 (ix2 p ⟨0, Nat.one_pos⟩)) (v6 (ix2 ⟨0, Nat.one_pos⟩ q)) (v10 (ix2 ⟨0, Nat.one_pos⟩ q))
          (v14 (ix2 ⟨0, Nat.one_pos⟩ q)) (v21 (ix2 ⟨0, Nat.one_pos⟩ q)) (v25 (ix2 ⟨0, Nat.one_pos⟩ q)) := by
  unfold k5_pay1 Cert.Gcn.bnEntry
  simp only [shapeCast_self]
  simp only [addf_apply, mulf_apply, subf_apply, maximumf_apply]
  rw [spreadCol, spreadRow, spreadRow, spreadRow, spreadRow, spreadRow]
  rfl

end Cert.KernelIdeal.Pay

end
-- ==== Proof.KernelRegions.lean ====
/-
  What each of the six kernels leaves in its output array, for arbitrary contents of the buffers when the kernel is
  entered.

  A kernel runs over 20 blocks of 5000 rows.  Block t of every row-tiled operand is rows 5000·t … 5000·t + 4999 of
  its array, all columns; the small operands (a weight matrix, a [1, 64] parameter row) are read whole at every
  block.  So what block t writes back is block t of one whole-array function of the operand arrays — the functions
  of the specification module — and the 20 blocks tile the 100000 rows, so the array ends holding that function.
-/
import proofs.«135579_j32401233281333_2_alg».proof.Proof.Gen.KernelIdeal.Frame
import proofs.«135579_j32401233281333_2_alg».proof.Proof.KernelPay
import Idealize.ShloMosaic.Lib.Pipeline.Value

set_option maxRecDepth 16384

noncomputable section

open scoped BigOperators

namespace Cert.KernelIdeal.Regions

open Cert.KernelIdeal Cert.KernelIdeal.Gen Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0: the first layer's feature transform -/

/-- Region 0's index maps over its 20 points: the row-tiled operands move with the point, the weight matrix stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array function. -/
theorem flushed0 (c : Dev nD) (t : Fin cfg0.N) :
    (dat0 (F := Ideal) V c).flushed 3 t = ((cfg0.win 3).blk t).view.read (Elt Ideal)
      (Cert.Gcn.mmScale 37 (V c main_arg0) (V c main_arg2) (V c main_v15)) := by
  show (cfg0.win 3).cut (grid0.coords t) ((dat0 (F := Ideal) V c).after 3 t) = _
  rw [after0_3]
  unfold out0_3
  rw [View.canon_unit_zero hz]
  simp only [View.ld_unit_zero (S := S5000x37) hz, View.ld_unit_zero (S := S37x64) hz, View.ld_unit_zero (S := S5000x1) hz]
  obtain ⟨e00, e01, e10, e11, e20, e21, e30, e31⟩ := idx0 t
  funext j
  obtain ⟨p, q, rfl⟩ : ∃ (p : Fin 5000) (q : Fin 64), j = ix2 p q := ⟨j 0, j 1, eq_ix2 j⟩
  refine (Pay.mm0 (iblk0 V c 0 t) (iblk0 V c 1 t) (iblk0 V c 2 t) p q).trans ?_
  have hx : ∀ k : Fin 37, iblk0 V c 0 t (ix2 p k)
      = V c main_arg0 (ix2 ((((cfg0.win 3).blk t).view.emb (ix2 p q)) 0) k) := fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 37 + 1 * k.val = k.val; omega
  have hw : ∀ k : Fin 37, iblk0 V c 1 t (ix2 k q)
      = V c main_arg2 (ix2 k ((((cfg0.win 3).blk t).view.emb (ix2 p q)) 1)) := fun k => by
    show V c main_arg2 (((cfg0.win 1).blk t).view.emb (ix2 k q)) = _
    refine congrArg _ (funext fun a => Fin.ext ?_)
    match a with
    | ⟨0, _⟩ => show win0_1.index t (0 : Fin 2) * 37 + 1 * k.val = k.val; omega
    | ⟨1, _⟩ => show win0_1.index t (1 : Fin 2) * 64 + 1 * q.val = win0_3.index t (1 : Fin 2) * 64 + 1 * q.val; omega
  have hd : iblk0 V c 2 t (ix2 p ⟨0, Nat.one_pos⟩)
      = V c main_v15 (ix2 ((((cfg0.win 3).blk t).view.emb (ix2 p q)) 0) ⟨0, Nat.one_pos⟩) := by
    show V c main_v15 (((cfg0.win 2).blk t).view.emb (ix2 p ⟨0, Nat.one_pos⟩)) = _
    refine congrArg _ (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  rw [hd, Finset.sum_congr rfl (fun k _ => by rw [hx k, hw k])]
  rfl

/-- An index of the output array lies in point t's block iff its row lies in the block's 5000 rows. -/
theorem mem_blk0 (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- The 20 blocks tile the array: row r lies in block r / 5000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  rw [mem_blk0]
  obtain ⟨_, _, _, _, _, _, e30, e31⟩ := idx0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e30]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e31]; omega

/-- Region 0's output array after the region: the feature transform of its operand arrays, scaled row by row. -/
theorem region0 (c : Dev nD) :
    (dat0 (F := Ideal) V c).arrAt 3 cfg0.N = Cert.Gcn.mmScale 37 (V c main_arg0) (V c main_arg2) (V c main_v15) :=
  (dat0 (F := Ideal) V c).arrAt_eq_of_cover 3 _ (fun t _ => flushed0 V c t) (cover0)

/-! ## Region 1: the first layer's normalisation -/

/-- Region 1's index maps over its 20 points: the row-tiled operands move with the point, the parameter rows stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

set_option maxHeartbeats 8000000 in
/-- What point t writes back is block t of the whole-array function. -/
theorem flushed1 (c : Dev nD) (t : Fin cfg1.N) :
    (dat1 (F := Ideal) V c).flushed 7 t = ((cfg1.win 7).blk t).view.read (Elt Ideal)
      (Cert.Gcn.bnAct (V c main_v26) (V c main_v15) (V c main_v29) (V c main_v32) (V c main_v35) (V c main_v38) (V c main_v41)) := by
  show (cfg1.win 7).cut (grid1.coords t) ((dat1 (F := Ideal) V c).after 7 t) = _
  rw [after1_7]
  unfold out1_7
  rw [View.canon_unit_zero hz]
  simp only [View.ld_unit_zero (S := S5000x64) hz, View.ld_unit_zero (S := S5000x1) hz, View.ld_unit_zero (S := S1x64) hz]
  obtain ⟨e00, e01, e10, e11, e20, e21, e30, e31, e40, e41, e50, e51, e60, e61, e70, e71⟩ := idx1 t
  funext j
  obtain ⟨p, q, rfl⟩ : ∃ (p : Fin 5000) (q : Fin 64), j = ix2 p q := ⟨j 0, j 1, eq_ix2 j⟩
  refine (Pay.bn1 (iblk1 V c 0 t) (iblk1 V c 1 t) (iblk1 V c 2 t) (iblk1 V c 3 t) (iblk1 V c 4 t) (iblk1 V c 5 t) (iblk1 V c 6 t) p q).trans ?_
  have ha : iblk1 V c 0 t (ix2 p q) = V c main_v26 (((cfg1.win 7).blk t).view.emb (ix2 p q)) := by
    show V c main_v26 (((cfg1.win 0).blk t).view.emb (ix2 p q)) = _
    refine congrArg _ (funext fun a => Fin.ext ?_)
    match a with
    | ⟨0, _⟩ => show win1_0.index t (0 : Fin 2) * 5000 + 1 * p.val = win1_7.index t (0 : Fin 2) * 5000 + 1 * p.val; omega
    | ⟨1, _⟩ => show win1_0.index t (1 : Fin 2) * 64 + 1 * q.val = win1_7.index t (1 : Fin 2) * 64 + 1 * q.val; omega
  have hd : iblk1 V c 1 t (ix2 p ⟨0, Nat.one_pos⟩)
      = V c main_v15 (ix2 ((((cfg1.win 7).blk t).view.emb (ix2 p q)) 0) ⟨0, Nat.one_pos⟩) := by
    show V c main_v15 (((cfg1.win 1).blk t).view.emb (ix2 p ⟨0, Nat.one_pos⟩)) = _
    refine congrArg _ (funext fun a => Fin.ext ?_)
    match a with
    | ⟨0, _⟩ => show win1_1.index t (0 : Fin 2) * 5000 + 1 * p.val = win1_7.index t (0 : Fin 2) * 5000 + 1 * p.val; omega
    | ⟨1, _⟩ => show win1_1.index t (1 : Fin 2) * 1 + 1 * 0 = 0; omega
  have h2 : iblk1 V c 2 t (ix2 ⟨0, Nat.one_pos⟩ q)
      = V c main_v29 (ix2 ⟨0, Nat.one_pos⟩ ((((cfg1.win 7).blk t).view.emb (ix2 p q)) 1)) := by
    show V c main_v29 (((cfg1.win 2).blk t).view.emb (ix2 ⟨0, Nat.one_pos⟩ q)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * q.val = win1_7.index t (1 : Fin 2) * 64 + 1 * q.val; omega
  have h3 : iblk1 V c 3 t (ix2 ⟨0, Nat.one_pos⟩ q)
      = V c main_v32 (ix2 ⟨0, Nat.one_pos⟩ ((((cfg1.win 7).blk t).view.emb (ix2 p q)) 1)) := by
    show V c main_v32 (((cfg1.win 3).blk t).view.emb (ix2 ⟨0, Nat.one_pos⟩ q)) = _
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = win1_7.index t (1 : Fin 2) * 64 + 1 * q.val; omega
  have h4 : iblk1 V c 4 t (ix2 ⟨0, Nat.one_pos⟩ q)
      = V c main_v35 (ix2 ⟨0, Nat.one_pos⟩ ((((cfg1.win 7).blk t).view.emb (ix2 p q)) 1)) := by
    show V c main_v35 (((cfg1.win 4).blk t).view.emb (ix2 ⟨0, Nat.one_pos⟩ q)) = _
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * q.val = win1_7.index t (1 : Fin 2) * 64 + 1 * q.val; omega
  have h5 : iblk1 V c 5 t (ix2 ⟨0, Nat.one_pos⟩ q)
      = V c main_v38 (ix2 ⟨0, Nat.one_pos⟩ ((((cfg1.win 7).blk t).view.emb (ix2 p q)) 1)) := by
    show V c main_v38 (((cfg1.win 5).blk t).view.emb (ix2 ⟨0, Nat.one_pos⟩ q)) = _
    refine congrArg _ (funext fun a => Fin.ext ?_)
    match a with
    | ⟨0, _⟩ => show win1_5.index t (0 : Fin 2) * 1 + 1 * 0 = 0; omega
    | ⟨1, _⟩ => show win1_5.index t (1 : Fin 2) * 64 + 1 * q.val = win1_7.index t (1 : Fin 2) * 64 + 1 * q.val; omega
  have h6 : iblk1 V c 6 t (ix2 ⟨0, Nat.one_pos⟩ q)
      = V c main_v41 (ix2 ⟨0, Nat.one_pos⟩ ((((cfg1.win 7).blk t).view.emb (ix2 p q)) 1)) := by
    show V c main_v41 (((cfg1.win 6).blk t).view.emb (ix2 ⟨0, Nat.one_pos⟩ q)) = _
    refine congrArg _ (funext fun a => Fin.ext ?_)
    match a with
    | ⟨0, _⟩ => show win1_6.index t (0 : Fin 2) * 1 + 1 * 0 = 0; omega
    | ⟨1, _⟩ => show win1_6.index t (1 : Fin 2) * 64 + 1 * q.val = win1_7.index t (1 : Fin 2) * 64 + 1 * q.val; omega
  rw [ha, hd, h2, h3, h4, h5, h6]
  rfl

/-- An index of the output array lies in point t's block iff its row lies in the block's 5000 rows. -/
theorem mem_blk1 (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v42).slice (win1_7.rect t)).set ↔ _
  rw [View.set_slice_whole, Rect.mem_set_unit]
  exact Iff.rfl

/-- The 20 blocks tile the array: row r lies in block r / 5000. -/
theorem cover1 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_7 _, ?_⟩
  rw [mem_blk1]
  have hidx := idx1 ⟨(i 0).val / 5000, by rw [hN]; omega⟩
  have e0 := hidx.2.2.2.2.2.2.2.2.2.2.2.2.2.2.1
  have e1 := hidx.2.2.2.2.2.2.2.2.2.2.2.2.2.2.2
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 64 ≤ (i 1).val ∧ (i 1).val < win1_7.index _ (1 : Fin 2) * 64 + 64
    rw [e1]; omega

/-- Region 1's output array after the region: the normalisation chain of its operand arrays. -/
theorem region1 (c : Dev nD) :
    (dat1 (F := Ideal) V c).arrAt 7 cfg1.N = Cert.Gcn.bnAct (V c main_v26) (V c main_v15) (V c main_v29) (V c main_v32) (V c main_v35) (V c main_v38) (V c main_v41) :=
  (dat1 (F := Ideal) V c).arrAt_eq_of_cover 7 _ (fun t _ => flushed1 V c t) (cover1)

/-! ## Region 2: the second layer's feature transform -/

/-- Region 2's index maps over its 20 points: the row-tiled operands move with the point, the weight matrix stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is block t of the whole-array function. -/
theorem flushed2 (c : Dev nD) (t : Fin cfg2.N) :
    (dat2 (F := Ideal) V c).flushed 3 t = ((cfg2.win 3).blk t).view.read (Elt Ideal)
      (Cert.Gcn.mmScale 64 (V c main_v42) (V c main_arg3) (V c main_v15)) := by
  show (cfg2.win 3).cut (grid2.coords t) ((dat2 (F := Ideal) V c).after 3 t) = _
  rw [after2_3]
  unfold out2_3
  rw [View.canon_unit_zero hz]
  simp only [View.ld_unit_zero (S := S5000x64) hz, View.ld_unit_zero (S := S64x64) hz, View.ld_unit_zero (S := S5000x1) hz]
  obtain ⟨e00, e01, e10, e11, e20, e21, e30, e31⟩ := idx2 t
  funext j
  obtain ⟨p, q, rfl⟩ : ∃ (p : Fin 5000) (q : Fin 64), j = ix2 p q := ⟨j 0, j 1, eq_ix2 j⟩
  refine (Pay.mm2 (iblk2 V c 0 t) (iblk2 V c 1 t) (iblk2 V c 2 t) p q).trans ?_
  have hx : ∀ k : Fin 64, iblk2 V c 0 t (ix2 p k)
      = V c main_v42 (ix2 ((((cfg2.win 3).blk t).view.emb (ix2 p q)) 0) k) := fun k => by
    show V c main_v42 (((cfg2.win 0).blk t).view.emb (ix2 p k)) = _
    refine congrArg _ (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 64 + 1 * k.val = k.val; omega
  have hw : ∀ k : Fin 64, iblk2 V c 1 t (ix2 k q)
      = V c main_arg3 (ix2 k ((((cfg2.win 3).blk t).view.emb (ix2 p q)) 1)) := fun k => by
    show V c main_arg3 (((cfg2.win 1).blk t).view.emb (ix2 k q)) = _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = win2_3.index t (1 : Fin 2) * 64 + 1 * q.val; omega
  have hd : iblk2 V c 2 t (ix2 p ⟨0, Nat.one_pos⟩)
      = V c main_v15 (ix2 ((((cfg2.win 3).blk t).view.emb (ix2 p q)) 0) ⟨0, Nat.one_pos⟩) := by
    show V c main_v15 (((cfg2.win 2).blk t).view.emb (ix2 p ⟨0, Nat.one_pos⟩)) = _
    refine congrArg _ (funext fun a => Fin.ext ?_)
    match a with
    | ⟨0, _⟩ => show win2_2.index t (0 : Fin 2) * 5000 + 1 * p.val = win2_3.index t (0 : Fin 2) * 5000 + 1 * p.val; omega
    | ⟨1, _⟩ => show win2_2.index t (1 : Fin 2) * 1 + 1 * 0 = 0; omega
  rw [hd, Finset.sum_congr rfl (fun k _ => by rw [hx k, hw k])]
  rfl

/-- An index of the output array lies in point t's block iff its row lies in the block's 5000 rows. -/
theorem mem_blk2 (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v43).slice (win2_3.rect t)).set ↔ _
  rw [View.set_slice_whole, Rect.mem_set_unit]
  exact Iff.rfl

/-- The 20 blocks tile the array: row r lies in block r / 5000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_3 _, ?_⟩
  rw [mem_blk2]
  obtain ⟨_, _, _, _, _, _, e30, e31⟩ := idx2 ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e30]; show (i 0).val / 5000 * 5000 ≤ (i 0).val ∧ (i 0).val < (i 0).val / 5000 * 5000 + 5000; omega
  | ⟨1, _⟩ =>
    show win2_3.index _ (1 : Fin 2) * 64 ≤ (i 1).val ∧ (i 1).val < win2_3.index _ (1 : Fin 2) * 64 + 64
    rw [e31]; omega

/-- Region 2's output array after the region: the feature transform of its operand arrays, scaled row by row. -/
theorem region2 (c : Dev nD) :
    (dat2 (F := Ideal) V c).arrAt 3 cfg2.N = Cert.Gcn.mmScale 64 (V c main_v42) (V c main_arg3) (V c main_v15) :=
  (dat2 (F := Ideal) V c).arrAt_eq_of_cover 3 _ (fun t _ => flushed2 V c t) (cover2)

/-! ## Region 3: the second layer's normalisation with the residual -/

/-- Region 3's index maps over its 20 points: the row-tiled operands move with the point, the parameter rows stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

set_option maxHeartbeats 8000000 in
/-- What point t writes back is block t of the whole-array function. -/
theorem flushed3 (c : Dev nD) (t : Fin cfg3.N) :
    (dat3 (F := Ideal) V c).flushed 8 t = ((cfg3.win 8).blk t).view.read (Elt Ideal)
      (Cert.Gcn.bnActRes (V c main_v53) (V c main_v15) (V c main_v56) (V c main_v59) (V c main_v62) (V c main_v65) (V c main_v68) (V c main_v42)) := by
  show (cfg3.win 8).cut (grid3.coords t) ((dat3 (F := Ideal) V c).after 8 t) = _
  rw [after3_8]
  unfold out3_8
  rw [View.canon_unit_zero hz]
  simp only [View.ld_unit_zero (S := S5000x64) hz, View.ld_unit_zero (S := S5000x1) hz, View.ld_unit_zero (S := S1x64) hz]
  obtain ⟨e00, e01, e10, e11, e20, e21, e30, e31, e40, e41, e50, e51, e60, e61, e70, e71, e80, e81⟩ := idx3 t
  funext j
  obtain ⟨p, q, rfl⟩ : ∃ (p : Fin 5000) (q : Fin 64), j = ix2 p q := ⟨j 0, j 1, eq_ix2 j⟩
  refine (Pay.bn3 (iblk3 V c 0 t) (iblk3 V c 1 t) (iblk3 V c 2 t) (iblk3 V c 3 t) (iblk3 V c 4 t) (iblk3 V c 5 t) (iblk3 V c 6 t) (iblk3 V c 7 t) p q).trans ?_
  have ha : iblk3 V c 0 t (ix2 p q) = V c main_v53 (((cfg3.win 8).blk t).view.emb (ix2 p q)) := by
    show V c main_v53 (((cfg3.win 0).blk t).view.emb (ix2 p q)) = _
    refine congrArg _ (funext fun a => Fin.ext ?_)
    match a with
    | ⟨0, _⟩ => show win3_0.index t (0 : Fin 2) * 5000 + 1 * p.val = win3_8.index t (0 : Fin 2) * 5000 + 1 * p.val; omega
    | ⟨1, _⟩ => show win3_0.index t (1 : Fin 2) * 64 + 1 * q.val = win3_8.index t (1 : Fin 2) * 64 + 1 * q.val; omega
  have hd : iblk3 V c 1 t (ix2 p ⟨0, Nat.one_pos⟩)
      = V c main_v15 (ix2 ((((cfg3.win 8).blk t).view.emb (ix2 p q)) 0) ⟨0, Nat.one_pos⟩) := by
    show V c main_v15 (((cfg3.win 1).blk t).view.emb (ix2 p ⟨0, Nat.one_pos⟩)) = _
    refine congrArg _ (funext fun a => Fin.ext ?_)
    match a with
    | ⟨0, _⟩ => show win3_1.index t (0 : Fin 2) * 5000 + 1 * p.val = win3_8.index t (0 : Fin 2) * 5000 + 1 * p.val; omega
    | ⟨1, _⟩ => show win3_1.index t (1 : Fin 2) * 1 + 1 * 0 = 0; omega
  have h2 : iblk3 V c 2 t (ix2 ⟨0, Nat.one_pos⟩ q)
      = V c main_v56 (ix2 ⟨0, Nat.one_pos⟩ ((((cfg3.win 8).blk t).view.emb (ix2 p q)) 1)) := by
    show V c main_v56 (((cfg3.win 2).blk t).view.emb (ix2 ⟨0, Nat.one_pos⟩ q)) = _
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * q.val = win3_8.index t (1 : Fin 2) * 64 + 1 * q.val; omega
  have h3 : iblk3 V c 3 t (ix2 ⟨0, Nat.one_pos⟩ q)
      = V c main_v59 (ix2 ⟨0, Nat.one_pos⟩ ((((cfg3.win 8).blk t).view.emb (ix2 p q)) 1)) := by
    show V c main_v59 (((cfg3.win 3).blk t).view.emb (ix2 ⟨0, Nat.one_pos⟩ q)) = _
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * q.val = win3_8.index t (1 : Fin 2) * 64 + 1 * q.val; omega
  have h4 : iblk3 V c 4 t (ix2 ⟨0, Nat.one_pos⟩ q)
      = V c main_v62 (ix2 ⟨0, Nat.one_pos⟩ ((((cfg3.win 8).blk t).view.emb (ix2 p q)) 1)) := by
    show V c main_v62 (((cfg3.win 4).blk t).view.emb (ix2 ⟨0, Nat.one_pos⟩ q)) = _
    refine congrArg _ (funext fun a => Fin.ext ?_)
    match a with
    | ⟨0, _⟩ => show win3_4.index t (0 : Fin 2) * 1 + 1 * 0 = 0; omega
    | ⟨1, _⟩ => show win3_4.index t (1 : Fin 2) * 64 + 1 * q.val = win3_8.index t (1 : Fin 2) * 64 + 1 * q.val; omega
  have h5 : iblk3 V c 5 t (ix2 ⟨0, Nat.one_pos⟩ q)
      = V c main_v65 (ix2 ⟨0, Nat.one_pos⟩ ((((cfg3.win 8).blk t).view.emb (ix2 p q)) 1)) := by
    show V c main_v65 (((cfg3.win 5).blk t).view.emb (ix2 ⟨0, Nat.one_pos⟩ q)) = _
    refine congrArg _ (funext fun a => Fin.ext ?_)
    match a with
    | ⟨0, _⟩ => show win3_5.index t (0 : Fin 2) * 1 + 1 * 0 = 0; omega
    | ⟨1, _⟩ => show win3_5.index t (1 : Fin 2) * 64 + 1 * q.val = win3_8.index t (1 : Fin 2) * 64 + 1 * q.val; omega
  have h6 : iblk3 V c 6 t (ix2 ⟨0, Nat.one_pos⟩ q)
      = V c main_v68 (ix2 ⟨0, Nat.one_pos⟩ ((((cfg3.win 8).blk t).view.emb (ix2 p q)) 1)) := by
    show V c main_v68 (((cfg3.win 6).blk t).view.emb (ix2 ⟨0, Nat.one_pos⟩ q)) = _
    refine congrArg _ (funext fun a => Fin.ext ?_)
    match a with
    | ⟨0, _⟩ => show win3_6.index t (0 : Fin 2) * 1 + 1 * 0 = 0; omega
    | ⟨1, _⟩ => show win3_6.index t (1 : Fin 2) * 64 + 1 * q.val = win3_8.index t (1 : Fin 2) * 64 + 1 * q.val; omega
  have hp : iblk3 V c 7 t (ix2 p q) = V c main_v42 (((cfg3.win 8).blk t).view.emb (ix2 p q)) := by
    show V c main_v42 (((cfg3.win 7).blk t).view.emb (ix2 p q)) = _
    refine congrArg _ (funext fun a => Fin.ext ?_)
    match a with
    | ⟨0, _⟩ => show win3_7.index t (0 : Fin 2) * 5000 + 1 * p.val = win3_8.index t (0 : Fin 2) * 5000 + 1 * p.val; omega
    | ⟨1, _⟩ => show win3_7.index t (1 : Fin 2) * 64 + 1 * q.val = win3_8.index t (1 : Fin 2) * 64 + 1 * q.val; omega
  rw [ha, hd, h2, h3, h4, h5, h6, hp]
  rfl

/-- An index of the output array lies in point t's block iff its row lies in the block's 5000 rows. -/
theorem mem_blk3 (t : Fin cfg3.N) (i : S100000x64.Idx) :
    i ∈ ((cfg3.win 8).blk t).view.set ↔ ∀ a : Fin 2, win3_8.index t a * S5000x64.size a ≤ (i a).val
      ∧ (i a).val < win3_8.index t a * S5000x64.size a + S5000x64.size a := by
  show i ∈ ((View.whole main_v69).slice (win3_8.rect t)).set ↔ _
  rw [View.set_slice_whole, Rect.mem_set_unit]
  exact Iff.rfl

/-- The 20 blocks tile the array: row r lies in block r / 5000. -/
theorem cover3 (i : S100000x64.Idx) :
    ∃ t : Fin cfg3.N, (cfg3.win 8).flush t = true ∧ i ∈ ((cfg3.win 8).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_8 _, ?_⟩
  rw [mem_blk3]
  have hidx := idx3 ⟨(i 0).val / 5000, by rw [hN]; omega⟩
  have e0 := hidx.2.2.2.2.2.2.2.2.2.2.2.2.2.2.2.2.1
  have e1 := hidx.2.2.2.2.2.2.2.2.2.2.2.2.2.2.2.2.2
  intro a
  match a with
  | ⟨0, _⟩ =>
    show win3_8.index _ (0 : Fin 2) * 5000 ≤ (i 0).val ∧ (i 0).val < win3_8.index _ (0 : Fin 2) * 5000 + 5000
    rw [e0]; show (i 0).val / 5000 * 5000 ≤ (i 0).val ∧ (i 0).val < (i 0).val / 5000 * 5000 + 5000; omega
  | ⟨1, _⟩ =>
    show win3_8.index _ (1 : Fin 2) * 64 ≤ (i 1).val ∧ (i 1).val < win3_8.index _ (1 : Fin 2) * 64 + 64
    rw [e1]; omega

/-- Region 3's output array after the region: the normalisation chain of its operand arrays, added to the previous layer's array. -/
theorem region3 (c : Dev nD) :
    (dat3 (F := Ideal) V c).arrAt 8 cfg3.N = Cert.Gcn.bnActRes (V c main_v53) (V c main_v15) (V c main_v56) (V c main_v59) (V c main_v62) (V c main_v65) (V c main_v68) (V c main_v42) :=
  (dat3 (F := Ideal) V c).arrAt_eq_of_cover 8 _ (fun t _ => flushed3 V c t) (cover3)

/-! ## Region 4: the third layer's feature transform -/

/-- Region 4's index maps over its 20 points: the row-tiled operands move with the point, the weight matrix stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- What point t writes back is block t of the whole-array function. -/
theorem flushed4 (c : Dev nD) (t : Fin cfg4.N) :
    (dat4 (F := Ideal) V c).flushed 3 t = ((cfg4.win 3).blk t).view.read (Elt Ideal)
      (Cert.Gcn.mmScale 64 (V c main_v69) (V c main_arg4) (V c main_v15)) := by
  show (cfg4.win 3).cut (grid4.coords t) ((dat4 (F := Ideal) V c).after 3 t) = _
  rw [after4_3]
  unfold out4_3
  rw [View.canon_unit_zero hz]
  simp only [View.ld_unit_zero (S := S5000x64) hz, View.ld_unit_zero (S := S64x64) hz, View.ld_unit_zero (S := S5000x1) hz]
  obtain ⟨e00, e01, e10, e11, e20, e21, e30, e31⟩ := idx4 t
  funext j
  obtain ⟨p, q, rfl⟩ : ∃ (p : Fin 5000) (q : Fin 64), j = ix2 p q := ⟨j 0, j 1, eq_ix2 j⟩
  refine (Pay.mm4 (iblk4 V c 0 t) (iblk4 V c 1 t) (iblk4 V c 2 t) p q).trans ?_
  have hx : ∀ k : Fin 64, iblk4 V c 0 t (ix2 p k)
      = V c main_v69 (ix2 ((((cfg4.win 3).blk t).view.emb (ix2 p q)) 0) k) := fun k => by
    show V c main_v69 (((cfg4.win 0).blk t).view.emb (ix2 p k)) = _
    refine congrArg _ (funext fun a => Fin.ext ?_)
    match a with
    | ⟨0, _⟩ => show win4_0.index t (0 : Fin 2) * 5000 + 1 * p.val = win4_3.index t (0 : Fin 2) * 5000 + 1 * p.val; omega
    | ⟨1, _⟩ => show win4_0.index t (1 : Fin 2) * 64 + 1 * k.val = k.val; omega
  have hw : ∀ k : Fin 64, iblk4 V c 1 t (ix2 k q)
      = V c main_arg4 (ix2 k ((((cfg4.win 3).blk t).view.emb (ix2 p q)) 1)) := fun k => by
    show V c main_arg4 (((cfg4.win 1).blk t).view.emb (ix2 k q)) = _
    refine congrArg _ (funext fun a => Fin.ext ?_)
    match a with
    | ⟨0, _⟩ => show win4_1.index t (0 : Fin 2) * 64 + 1 * k.val = k.val; omega
    | ⟨1, _⟩ => show win4_1.index t (1 : Fin 2) * 64 + 1 * q.val = win4_3.index t (1 : Fin 2) * 64 + 1 * q.val; omega
  have hd : iblk4 V c 2 t (ix2 p ⟨0, Nat.one_pos⟩)
      = V c main_v15 (ix2 ((((cfg4.win 3).blk t).view.emb (ix2 p q)) 0) ⟨0, Nat.one_pos⟩) := by
    show V c main_v15 (((cfg4.win 2).blk t).view.emb (ix2 p ⟨0, Nat.one_pos⟩)) = _
    refine congrArg _ (funext fun a => Fin.ext ?_)
    match a with
    | ⟨0, _⟩ => show win4_2.index t (0 : Fin 2) * 5000 + 1 * p.val = win4_3.index t (0 : Fin 2) * 5000 + 1 * p.val; omega
    | ⟨1, _⟩ => show win4_2.index t (1 : Fin 2) * 1 + 1 * 0 = 0; omega
  rw [hd, Finset.sum_congr rfl (fun k _ => by rw [hx k, hw k])]
  rfl

/-- An index of the output array lies in point t's block iff its row lies in the block's 5000 rows. -/
theorem mem_blk4 (t : Fin cfg4.N) (i : S100000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v70).slice (win4_3.rect t)).set ↔ _
  rw [View.set_slice_whole, Rect.mem_set_unit]
  exact Iff.rfl

/-- The 20 blocks tile the array: row r lies in block r / 5000. -/
theorem cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_3 _, ?_⟩
  rw [mem_blk4]
  obtain ⟨_, _, _, _, _, _, e30, e31⟩ := idx4 ⟨(i 0).val / 5000, by rw [hN]; omega⟩
  intro a
  match a with
  | ⟨0, _⟩ =>
    show win4_3.index _ (0 : Fin 2) * 5000 ≤ (i 0).val ∧ (i 0).val < win4_3.index _ (0 : Fin 2) * 5000 + 5000
    rw [e30]; show (i 0).val / 5000 * 5000 ≤ (i 0).val ∧ (i 0).val < (i 0).val / 5000 * 5000 + 5000; omega
  | ⟨1, _⟩ =>
    show win4_3.index _ (1 : Fin 2) * 64 ≤ (i 1).val ∧ (i 1).val < win4_3.index _ (1 : Fin 2) * 64 + 64
    rw [e31]; omega

/-- Region 4's output array after the region: the feature transform of its operand arrays, scaled row by row. -/
theorem region4 (c : Dev nD) :
    (dat4 (F := Ideal) V c).arrAt 3 cfg4.N = Cert.Gcn.mmScale 64 (V c main_v69) (V c main_arg4) (V c main_v15) :=
  (dat4 (F := Ideal) V c).arrAt_eq_of_cover 3 _ (fun t _ => flushed4 V c t) (cover4)

/-! ## Region 5: the third layer's normalisation with the residual -/

/-- Region 5's index maps over its 20 points: the row-tiled operands move with the point, the parameter rows stay. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0
    ∧ win5_8.index t (0 : Fin 2) = t.val ∧ win5_8.index t (1 : Fin 2) = 0 :=
  (by decide +kernel : ∀ t : Fin grid5.N, _)

set_option maxHeartbeats 8000000 in
/-- What point t writes back is block t of the whole-array function. -/
theorem flushed5 (c : Dev nD) (t : Fin cfg5.N) :
    (dat5 (F := Ideal) V c).flushed 8 t = ((cfg5.win 8).blk t).view.read (Elt Ideal)
      (Cert.Gcn.bnActRes (V c main_v80) (V c main_v15) (V c main_v83) (V c main_v86) (V c main_v89) (V c main_v92) (V c main_v95) (V c main_v69)) := by
  show (cfg5.win 8).cut (grid5.coords t) ((dat5 (F := Ideal) V c).after 8 t) = _
  rw [after5_8]
  unfold out5_8
  rw [View.canon_unit_zero hz]
  simp only [View.ld_unit_zero (S := S5000x64) hz, View.ld_unit_zero (S := S5000x1) hz, View.ld_unit_zero (S := S1x64) hz]
  obtain ⟨e00, e01, e10, e11, e20, e21, e30, e31, e40, e41, e50, e51, e60, e61, e70, e71, e80, e81⟩ := idx5 t
  funext j
  obtain ⟨p, q, rfl⟩ : ∃ (p : Fin 5000) (q : Fin 64), j = ix2 p q := ⟨j 0, j 1, eq_ix2 j⟩
  refine (Pay.bn5 (iblk5 V c 0 t) (iblk5 V c 1 t) (iblk5 V c 2 t) (iblk5 V c 3 t) (iblk5 V c 4 t) (iblk5 V c 5 t) (iblk5 V c 6 t) (iblk5 V c 7 t) p q).trans ?_
  have ha : iblk5 V c 0 t (ix2 p q) = V c main_v80 (((cfg5.win 8).blk t).view.emb (ix2 p q)) := by
    show V c main_v80 (((cfg5.win 0).blk t).view.emb (ix2 p q)) = _
    refine congrArg _ (funext fun a => Fin.ext ?_)
    match a with
    | ⟨0, _⟩ => show win5_0.index t (0 : Fin 2) * 5000 + 1 * p.val = win5_8.index t (0 : Fin 2) * 5000 + 1 * p.val; omega
    | ⟨1, _⟩ => show win5_0.index t (1 : Fin 2) * 64 + 1 * q.val = win5_8.index t (1 : Fin 2) * 64 + 1 * q.val; omega
  have hd : iblk5 V c 1 t (ix2 p ⟨0, Nat.one_pos⟩)
      = V c main_v15 (ix2 ((((cfg5.win 8).blk t).view.emb (ix2 p q)) 0) ⟨0, Nat.one_pos⟩) := by
    show V c main_v15 (((cfg5.win 1).blk t).view.emb (ix2 p ⟨0, Nat.one_pos⟩)) = _
    refine congrArg _ (funext fun a => Fin.ext ?_)
    match a with
    | ⟨0, _⟩ => show win5_1.index t (0 : Fin 2) * 5000 + 1 * p.val = win5_8.index t (0 : Fin 2) * 5000 + 1 * p.val; omega
    | ⟨1, _⟩ => show win5_1.index t (1 : Fin 2) * 1 + 1 * 0 = 0; omega
  have h2 : iblk5 V c 2 t (ix2 ⟨0, Nat.one_pos⟩ q)
      = V c main_v83 (ix2 ⟨0, Nat.one_pos⟩ ((((cfg5.win 8).blk t).view.emb (ix2 p q)) 1)) := by
    show V c main_v83 (((cfg5.win 2).blk t).view.emb (ix2 ⟨0, Nat.one_pos⟩ q)) = _
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * q.val = win5_8.index t (1 : Fin 2) * 64 + 1 * q.val; omega
  have h3 : iblk5 V c 3 t (ix2 ⟨0, Nat.one_pos⟩ q)
      = V c main_v86 (ix2 ⟨0, Nat.one_pos⟩ ((((cfg5.win 8).blk t).view.emb (ix2 p q)) 1)) := by
    show V c main_v86 (((cfg5.win 3).blk t).view.emb (ix2 ⟨0, Nat.one_pos⟩ q)) = _
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * q.val = win5_8.index t (1 : Fin 2) * 64 + 1 * q.val; omega
  have h4 : iblk5 V c 4 t (ix2 ⟨0, Nat.one_pos⟩ q)
      = V c main_v89 (ix2 ⟨0, Nat.one_pos⟩ ((((cfg5.win 8).blk t).view.emb (ix2 p q)) 1)) := by
    show V c main_v89 (((cfg5.win 4).blk t).view.emb (ix2 ⟨0, Nat.one_pos⟩ q)) = _
    refine congrArg _ (funext fun a => Fin.ext ?_)
    match a with
    | ⟨0, _⟩ => show win5_4.index t (0 : Fin 2) * 1 + 1 * 0 = 0; omega
    | ⟨1, _⟩ => show win5_4.index t (1 : Fin 2) * 64 + 1 * q.val = win5_8.index t (1 : Fin 2) * 64 + 1 * q.val; omega
  have h5 : iblk5 V c 5 t (ix2 ⟨0, Nat.one_pos⟩ q)
      = V c main_v92 (ix2 ⟨0, Nat.one_pos⟩ ((((cfg5.win 8).blk t).view.emb (ix2 p q)) 1)) := by
    show V c main_v92 (((cfg5.win 5).blk t).view.emb (ix2 ⟨0, Nat.one_pos⟩ q)) = _
    refine congrArg _ (funext fun a => Fin.ext ?_)
    match a with
    | ⟨0, _⟩ => show win5_5.index t (0 : Fin 2) * 1 + 1 * 0 = 0; omega
    | ⟨1, _⟩ => show win5_5.index t (1 : Fin 2) * 64 + 1 * q.val = win5_8.index t (1 : Fin 2) * 64 + 1 * q.val; omega
  have h6 : iblk5 V c 6 t (ix2 ⟨0, Nat.one_pos⟩ q)
      = V c main_v95 (ix2 ⟨0, Nat.one_pos⟩ ((((cfg5.win 8).blk t).view.emb (ix2 p q)) 1)) := by
    show V c main_v95 (((cfg5.win 6).blk t).view.emb (ix2 ⟨0, Nat.one_pos⟩ q)) = _
    refine congrArg _ (funext fun a => Fin.ext ?_)
    match a with
    | ⟨0, _⟩ => show win5_6.index t (0 : Fin 2) * 1 + 1 * 0 = 0; omega
    | ⟨1, _⟩ => show win5_6.index t (1 : Fin 2) * 64 + 1 * q.val = win5_8.index t (1 : Fin 2) * 64 + 1 * q.val; omega
  have hp : iblk5 V c 7 t (ix2 p q) = V c main_v69 (((cfg5.win 8).blk t).view.emb (ix2 p q)) := by
    show V c main_v69 (((cfg5.win 7).blk t).view.emb (ix2 p q)) = _
    refine congrArg _ (funext fun a => Fin.ext ?_)
    match a with
    | ⟨0, _⟩ => show win5_7.index t (0 : Fin 2) * 5000 + 1 * p.val = win5_8.index t (0 : Fin 2) * 5000 + 1 * p.val; omega
    | ⟨1, _⟩ => show win5_7.index t (1 : Fin 2) * 64 + 1 * q.val = win5_8.index t (1 : Fin 2) * 64 + 1 * q.val; omega
  rw [ha, hd, h2, h3, h4, h5, h6, hp]
  rfl

/-- An index of the output array lies in point t's block iff its row lies in the block's 5000 rows. -/
theorem mem_blk5 (t : Fin cfg5.N) (i : S100000x64.Idx) :
    i ∈ ((cfg5.win 8).blk t).view.set ↔ ∀ a : Fin 2, win5_8.index t a * S5000x64.size a ≤ (i a).val
      ∧ (i a).val < win5_8.index t a * S5000x64.size a + S5000x64.size a := by
  show i ∈ ((View.whole main_v96).slice (win5_8.rect t)).set ↔ _
  rw [View.set_slice_whole, Rect.mem_set_unit]
  exact Iff.rfl

/-- The 20 blocks tile the array: row r lies in block r / 5000. -/
theorem cover5 (i : S100000x64.Idx) :
    ∃ t : Fin cfg5.N, (cfg5.win 8).flush t = true ∧ i ∈ ((cfg5.win 8).blk t).view.set := by
  have hi0 : (i 0).val < 100000 := (i 0).isLt
  have hi1 : (i 1).val < 64 := (i 1).isLt
  have hN : cfg5.N = 20 := N_5
  refine ⟨⟨(i 0).val / 5000, by rw [hN]; omega⟩, flush5_8 _, ?_⟩
  rw [mem_blk5]
  have hidx := idx5 ⟨(i 0).val / 5000, by rw [hN]; omega⟩
  have e0 := hidx.2.2.2.2.2.2.2.2.2.2.2.2.2.2.2.2.1
  have e1 := hidx.2.2.2.2.2.2.2.2.2.2.2.2.2.2.2.2.2
  intro a
  match a with
  | ⟨0, _⟩ =>
    show win5_8.index _ (0 : Fin 2) * 5000 ≤ (i 0).val ∧ (i 0).val < win5_8.index _ (0 : Fin 2) * 5000 + 5000
    rw [e0]; show (i 0).val / 5000 * 5000 ≤ (i 0).val ∧ (i 0).val < (i 0).val / 5000 * 5000 + 5000; omega
  | ⟨1, _⟩ =>
    show win5_8.index _ (1 : Fin 2) * 64 ≤ (i 1).val ∧ (i 1).val < win5_8.index _ (1 : Fin 2) * 64 + 64
    rw [e1]; omega

/-- Region 5's output array after the region: the normalisation chain of its operand arrays, added to the previous layer's array. -/
theorem region5 (c : Dev nD) :
    (dat5 (F := Ideal) V c).arrAt 8 cfg5.N = Cert.Gcn.bnActRes (V c main_v80) (V c main_v15) (V c main_v83) (V c main_v86) (V c main_v89) (V c main_v92) (V c main_v95) (V c main_v69) :=
  (dat5 (F := Ideal) V c).arrAt_eq_of_cover 8 _ (fun t _ => flushed5 V c t) (cover5)

end Cert.KernelIdeal.Regions

end
-- ==== Proof.KernelHost.lean ====
/- The host stretches of the ideal kernel evaluated over an arbitrary valuation of the buffers: what each stretch
   leaves in the buffers the regions read, as a function of the buffers the stretch itself reads. -/
import proofs.«135579_j32401233281333_2_alg».proof.Proof.Gen.KernelIdeal.Launch
import Idealize.ShloMosaic.Lib.StableHlo.Run

set_option maxRecDepth 16384

noncomputable section

namespace Cert.KernelIdeal.Host

open Idealize.ShloMosaic Idealize.ShloMosaic.TcCoe
open Idealize.SL Idealize.SL.RA Idealize.SL.BI
open scoped Idealize.SL.BI
open Idealize.SL.BI.BIBase Idealize.SL.Sem
open Cert.KernelIdeal.Gen

variable {F : FTy → Type} [FloatOps F]

/-! ## The stretches' functions -/

/-- The gather's start words: a negative row index is moved up by the number of rows, then each index is made a
    one-word row. -/
def normRow (row : (⟨S1100000, .i32⟩ : BufTy).Contents (Elt F)) : (⟨S1100000x1, .i32⟩ : BufTy).Contents (Elt F) :=
  broadcastInDim S1100000x1 ![0] bcast_S1100000_S1100000x1_0
    (select (cmpi .slt row (broadcastInDim S1100000 ![] bcast_S_S1100000 (constantI S_ 32 0#32)))
      (addi row (broadcastInDim S1100000 ![] bcast_S_S1100000 (constantI S_ 32 100000#32)))
      row)

/-- The scatter's index words: each column index as a one-word row. -/
def colWords (col : (⟨S1100000, .i32⟩ : BufTy).Contents (Elt F)) : (⟨S1100000x1, .i32⟩ : BufTy).Contents (Elt F) :=
  broadcastInDim S1100000x1 ![0] bcast_S1100000_S1100000x1_0 col

/-- The all-zero matrix the scatter adds into. -/
def zeros64 : (⟨S100000x64, .f32⟩ : BufTy).Contents (Elt F) :=
  broadcastInDim S100000x64 ![] bcast_S_S100000x64 (constant (F := F) S_ .f32 0x00000000#32)

/-- The aggregation: row `col j` of the result is the sum, over the edges `j`, of row `row j` of `h`. -/
def aggOf (h : (⟨S100000x64, .f32⟩ : BufTy).Contents (Elt F)) (row col : (⟨S1100000, .i32⟩ : BufTy).Contents (Elt F)) : (⟨S100000x64, .f32⟩ : BufTy).Contents (Elt F) :=
  Host.scatterAdd scatter_S100000x64_S1100000x1_S1100000x64_1_0_0_1 zeros64 (colWords col)
    (Host.gather gather_S100000x64_S1100000x1_S1100000x64_1_0_n_n_0_1_164 h (normRow row))

/-- Row 0 of a three-row parameter, as a one-row matrix. -/
def prm0 (p : (⟨S3x64, .f32⟩ : BufTy).Contents (Elt F)) : (⟨S1x64, .f32⟩ : BufTy).Contents (Elt F) :=
  broadcastInDim S1x64 ![1] bcast_S64_S1x64_1
    (shapeCast S64 (extractStridedSlice S1x64 ![0, 0] p slices_S3x64_S1x64_0_0) shapeCasts_S1x64_S64)

/-- Row 1 of a three-row parameter, as a one-row matrix. -/
def prm1 (p : (⟨S3x64, .f32⟩ : BufTy).Contents (Elt F)) : (⟨S1x64, .f32⟩ : BufTy).Contents (Elt F) :=
  broadcastInDim S1x64 ![1] bcast_S64_S1x64_1
    (shapeCast S64 (extractStridedSlice S1x64 ![1, 0] p slices_S3x64_S1x64_1_0) shapeCasts_S1x64_S64)

/-- Row 2 of a three-row parameter, as a one-row matrix. -/
def prm2 (p : (⟨S3x64, .f32⟩ : BufTy).Contents (Elt F)) : (⟨S1x64, .f32⟩ : BufTy).Contents (Elt F) :=
  broadcastInDim S1x64 ![1] bcast_S64_S1x64_1
    (shapeCast S64 (extractStridedSlice S1x64 ![2, 0] p slices_S3x64_S1x64_2_0) shapeCasts_S1x64_S64)

/-- Row 0 of the edge list followed by the nodes' own indices (one self loop per node). -/
def rowOf (e : (⟨S2x1000000, .i32⟩ : BufTy).Contents (Elt F)) : (⟨S1100000, .i32⟩ : BufTy).Contents (Elt F) :=
  concatenate S1100000 0 [⟨S1000000, shapeCast S1000000 (extractStridedSlice S1x1000000 ![0, 0] e slices_S2x1000000_S1x1000000_0_0) shapeCasts_S1x1000000_S1000000⟩,
    ⟨S100000, iotaInDim S100000 32 0⟩] concatenates_S1000000_S100000_S1100000_d0

/-- Row 1 of the edge list followed by the nodes' own indices (one self loop per node). -/
def colOf (e : (⟨S2x1000000, .i32⟩ : BufTy).Contents (Elt F)) : (⟨S1100000, .i32⟩ : BufTy).Contents (Elt F) :=
  concatenate S1100000 0 [⟨S1000000, shapeCast S1000000 (extractStridedSlice S1x1000000 ![1, 0] e slices_S2x1000000_S1x1000000_1_0) shapeCasts_S1x1000000_S1000000⟩,
    ⟨S100000, iotaInDim S100000 32 0⟩] concatenates_S1000000_S100000_S1100000_d0

/-- A node's degree: one added per edge into it. -/
def degOf (e : (⟨S2x1000000, .i32⟩ : BufTy).Contents (Elt F)) : (⟨S100000, .f32⟩ : BufTy).Contents (Elt F) :=
  Host.scatterAdd scatter_S100000_S1100000x1_S1100000_n_0_0_1
    (broadcastInDim S100000 ![] bcast_S_S100000 (constant (F := F) S_ .f32 0x00000000#32))
    (broadcastInDim S1100000x1 ![0] bcast_S1100000_S1100000x1_0 (colOf (F := F) e))
    (broadcastInDim S1100000 ![] bcast_S_S1100000 (constant (F := F) S_ .f32 0x3F800000#32))

/-- The reciprocal square root of the degree where the degree is positive, zero elsewhere. -/
def dinvOf (e : (⟨S2x1000000, .i32⟩ : BufTy).Contents (Elt F)) : (⟨S100000, .f32⟩ : BufTy).Contents (Elt F) :=
  select (cmpf .ogt (degOf e) (broadcastInDim S100000 ![] bcast_S_S100000 (constant (F := F) S_ .f32 0x00000000#32)))
    (Host.rsqrt (degOf e))
    (broadcastInDim S100000 ![] bcast_S_S100000 (id (constant (F := F) S_ .f32 0x00000000#32)))

/-- The same as a one-column matrix. -/
def dinv2Of (e : (⟨S2x1000000, .i32⟩ : BufTy).Contents (Elt F)) : (⟨S100000x1, .f32⟩ : BufTy).Contents (Elt F) :=
  broadcastInDim S100000x1 ![0] bcast_S100000_S100000x1_0 (dinvOf e)

variable (W : Valuation τ sig (Elt F))

/-! ## The stretch `hostOps1` -/

/-- After the stretch the aggregation's buffer holds the aggregation of `main_v16` along the edges. -/
theorem h1_agg : StableHlo.after (hostOps1 (F := F)) W (Proc.devRef .tc main_v26)
    = aggOf (W (Proc.devRef .tc main_v16)) (W (Proc.devRef .tc main_v3)) (W (Proc.devRef .tc main_v6)) := by
  simp only [hostOps1]
  after_results_simp
  rfl

/-- After the stretch each of the five parameter buffers holds row 0 of its parameter. -/
theorem h1_b : StableHlo.after (hostOps1 (F := F)) W (Proc.devRef .tc main_v29) = prm0 (W (Proc.devRef .tc main_arg5)) := by
  simp only [hostOps1]
  after_results
  rfl

theorem h1_mean : StableHlo.after (hostOps1 (F := F)) W (Proc.devRef .tc main_v32) = prm0 (W (Proc.devRef .tc main_arg8)) := by
  simp only [hostOps1]
  after_results
  rfl

theorem h1_var : StableHlo.after (hostOps1 (F := F)) W (Proc.devRef .tc main_v35) = prm0 (W (Proc.devRef .tc main_arg9)) := by
  simp only [hostOps1]
  after_results
  rfl

theorem h1_gamma : StableHlo.after (hostOps1 (F := F)) W (Proc.devRef .tc main_v38) = prm0 (W (Proc.devRef .tc main_arg6)) := by
  simp only [hostOps1]
  after_results
  rfl

theorem h1_beta : StableHlo.after (hostOps1 (F := F)) W (Proc.devRef .tc main_v41) = prm0 (W (Proc.devRef .tc main_arg7)) := by
  simp only [hostOps1]
  after_results
  rfl

/-! ## The stretch `hostOps3` -/

/-- After the stretch the aggregation's buffer holds the aggregation of `main_v43` along the edges. -/
theorem h3_agg : StableHlo.after (hostOps3 (F := F)) W (Proc.devRef .tc main_v53)
    = aggOf (W (Proc.devRef .tc main_v43)) (W (Proc.devRef .tc main_v3)) (W (Proc.devRef .tc main_v6)) := by
  simp only [hostOps3]
  after_results_simp
  rfl

/-- After the stretch each of the five parameter buffers holds row 1 of its parameter. -/
theorem h3_b : StableHlo.after (hostOps3 (F := F)) W (Proc.devRef .tc main_v56) = prm1 (W (Proc.devRef .tc main_arg5)) := by
  simp only [hostOps3]
  after_results
  rfl

theorem h3_mean : StableHlo.after (hostOps3 (F := F)) W (Proc.devRef .tc main_v59) = prm1 (W (Proc.devRef .tc main_arg8)) := by
  simp only [hostOps3]
  after_results
  rfl

theorem h3_var : StableHlo.after (hostOps3 (F := F)) W (Proc.devRef .tc main_v62) = prm1 (W (Proc.devRef .tc main_arg9)) := by
  simp only [hostOps3]
  after_results
  rfl

theorem h3_gamma : StableHlo.after (hostOps3 (F := F)) W (Proc.devRef .tc main_v65) = prm1 (W (Proc.devRef .tc main_arg6)) := by
  simp only [hostOps3]
  after_results
  rfl

theorem h3_beta : StableHlo.after (hostOps3 (F := F)) W (Proc.devRef .tc main_v68) = prm1 (W (Proc.devRef .tc main_arg7)) := by
  simp only [hostOps3]
  after_results
  rfl

/-! ## The stretch `hostOps5` -/

/-- After the stretch the aggregation's buffer holds the aggregation of `main_v70` along the edges. -/
theorem h5_agg : StableHlo.after (hostOps5 (F := F)) W (Proc.devRef .tc main_v80)
    = aggOf (W (Proc.devRef .tc main_v70)) (W (Proc.devRef .tc main_v3)) (W (Proc.devRef .tc main_v6)) := by
  simp only [hostOps5]
  after_results_simp
  rfl

/-- After the stretch each of the five parameter buffers holds row 2 of its parameter. -/
theorem h5_b : StableHlo.after (hostOps5 (F := F)) W (Proc.devRef .tc main_v83) = prm2 (W (Proc.devRef .tc main_arg5)) := by
  simp only [hostOps5]
  after_results
  rfl

theorem h5_mean : StableHlo.after (hostOps5 (F := F)) W (Proc.devRef .tc main_v86) = prm2 (W (Proc.devRef .tc main_arg8)) := by
  simp only [hostOps5]
  after_results
  rfl

theorem h5_var : StableHlo.after (hostOps5 (F := F)) W (Proc.devRef .tc main_v89) = prm2 (W (Proc.devRef .tc main_arg9)) := by
  simp only [hostOps5]
  after_results
  rfl

theorem h5_gamma : StableHlo.after (hostOps5 (F := F)) W (Proc.devRef .tc main_v92) = prm2 (W (Proc.devRef .tc main_arg6)) := by
  simp only [hostOps5]
  after_results
  rfl

theorem h5_beta : StableHlo.after (hostOps5 (F := F)) W (Proc.devRef .tc main_v95) = prm2 (W (Proc.devRef .tc main_arg7)) := by
  simp only [hostOps5]
  after_results
  rfl

/-! ## The first three stretches -/

/-- After the first three stretches the row-index, column-index and normalisation buffers hold the functions above of
    the edge list. -/
theorem h0_row : StableHlo.after hostOps0_2 (StableHlo.after hostOps0_1 (StableHlo.after (hostOps0 (F := F)) W)) (Proc.devRef .tc main_v3)
    = rowOf (W (Proc.devRef .tc main_arg1)) := by
  simp only [hostOps0, hostOps0_1, hostOps0_2]
  after_results
  rfl

theorem h0_col : StableHlo.after hostOps0_2 (StableHlo.after hostOps0_1 (StableHlo.after (hostOps0 (F := F)) W)) (Proc.devRef .tc main_v6)
    = colOf (W (Proc.devRef .tc main_arg1)) := by
  simp only [hostOps0, hostOps0_1, hostOps0_2]
  after_results
  rfl

theorem h0_dinv2 : StableHlo.after hostOps0_2 (StableHlo.after hostOps0_1 (StableHlo.after (hostOps0 (F := F)) W)) (Proc.devRef .tc main_v15)
    = dinv2Of (W (Proc.devRef .tc main_arg1)) := by
  simp only [hostOps0, hostOps0_1, hostOps0_2]
  after_results_simp
  rfl

end Cert.KernelIdeal.Host

end
-- ==== Proof.KernelValue.lean ====
/- The contents of the ideal kernel's result buffer at the end of the run, as one function of the ten argument arrays:
   three normalised graph-convolution layers, each a feature transform, an aggregation along the edges and a
   normalisation chain, the second and the third added to the layer before. -/
import proofs.«135579_j32401233281333_2_alg».proof.Proof.KernelWalk
import proofs.«135579_j32401233281333_2_alg».proof.Proof.KernelHost
import proofs.«135579_j32401233281333_2_alg».proof.Proof.GcnSpec
import proofs.«135579_j32401233281333_2_alg».proof.Proof.Gen.KernelIdeal.Frame

set_option maxRecDepth 16384

noncomputable section

namespace Cert.KernelIdeal.Value6

open Idealize.ShloMosaic Idealize.ShloMosaic.TcCoe
open Cert.KernelIdeal.Gen

/-! ## The three layers -/

/-- The first layer: the input array's feature transform, aggregated along the edges, through the normalisation chain
    with the first rows of the parameters. -/
def layer1 (x0 : (⟨S100000x37, .f32⟩ : BufTy).Contents (Elt Ideal)) (e : (⟨S2x1000000, .i32⟩ : BufTy).Contents (Elt Ideal))
    (w1 : (⟨S37x64, .f32⟩ : BufTy).Contents (Elt Ideal))
    (p5 p6 p7 p8 p9 : (⟨S3x64, .f32⟩ : BufTy).Contents (Elt Ideal)) : (⟨S100000x64, .f32⟩ : BufTy).Contents (Elt Ideal) :=
  Cert.Gcn.bnAct (Host.aggOf (F := Ideal) (Cert.Gcn.mmScale 37 x0 w1 (Host.dinv2Of (F := Ideal) e)) (Host.rowOf (F := Ideal) e) (Host.colOf (F := Ideal) e))
    (Host.dinv2Of (F := Ideal) e) (Host.prm0 (F := Ideal) p5) (Host.prm0 (F := Ideal) p8) (Host.prm0 (F := Ideal) p9) (Host.prm0 (F := Ideal) p6) (Host.prm0 (F := Ideal) p7)

/-- The second layer: the same of the first layer with the second rows of the parameters, added to the first layer. -/
def layer2 (x0 : (⟨S100000x37, .f32⟩ : BufTy).Contents (Elt Ideal)) (e : (⟨S2x1000000, .i32⟩ : BufTy).Contents (Elt Ideal))
    (w1 : (⟨S37x64, .f32⟩ : BufTy).Contents (Elt Ideal)) (w2 : (⟨S64x64, .f32⟩ : BufTy).Contents (Elt Ideal))
    (p5 p6 p7 p8 p9 : (⟨S3x64, .f32⟩ : BufTy).Contents (Elt Ideal)) : (⟨S100000x64, .f32⟩ : BufTy).Contents (Elt Ideal) :=
  Cert.Gcn.bnActRes (Host.aggOf (F := Ideal) (Cert.Gcn.mmScale 64 (layer1 x0 e w1 p5 p6 p7 p8 p9) w2 (Host.dinv2Of (F := Ideal) e)) (Host.rowOf (F := Ideal) e) (Host.colOf (F := Ideal) e))
    (Host.dinv2Of (F := Ideal) e) (Host.prm1 (F := Ideal) p5) (Host.prm1 (F := Ideal) p8) (Host.prm1 (F := Ideal) p9) (Host.prm1 (F := Ideal) p6) (Host.prm1 (F := Ideal) p7)
    (layer1 x0 e w1 p5 p6 p7 p8 p9)

/-- The third layer: the same of the second layer with the third rows of the parameters, added to the second layer. -/
def layer3 (x0 : (⟨S100000x37, .f32⟩ : BufTy).Contents (Elt Ideal)) (e : (⟨S2x1000000, .i32⟩ : BufTy).Contents (Elt Ideal))
    (w1 : (⟨S37x64, .f32⟩ : BufTy).Contents (Elt Ideal)) (w2 w3 : (⟨S64x64, .f32⟩ : BufTy).Contents (Elt Ideal))
    (p5 p6 p7 p8 p9 : (⟨S3x64, .f32⟩ : BufTy).Contents (Elt Ideal)) : (⟨S100000x64, .f32⟩ : BufTy).Contents (Elt Ideal) :=
  Cert.Gcn.bnActRes (Host.aggOf (F := Ideal) (Cert.Gcn.mmScale 64 (layer2 x0 e w1 w2 p5 p6 p7 p8 p9) w3 (Host.dinv2Of (F := Ideal) e)) (Host.rowOf (F := Ideal) e) (Host.colOf (F := Ideal) e))
    (Host.dinv2Of (F := Ideal) e) (Host.prm2 (F := Ideal) p5) (Host.prm2 (F := Ideal) p8) (Host.prm2 (F := Ideal) p9) (Host.prm2 (F := Ideal) p6) (Host.prm2 (F := Ideal) p7)
    (layer2 x0 e w1 w2 p5 p6 p7 p8 p9)

/-- What the kernel computes from its ten arguments: the third layer. -/
def kernelOut (x0 : (⟨S100000x37, .f32⟩ : BufTy).Contents (Elt Ideal)) (e : (⟨S2x1000000, .i32⟩ : BufTy).Contents (Elt Ideal))
    (w1 : (⟨S37x64, .f32⟩ : BufTy).Contents (Elt Ideal)) (w2 w3 : (⟨S64x64, .f32⟩ : BufTy).Contents (Elt Ideal))
    (p5 p6 p7 p8 p9 : (⟨S3x64, .f32⟩ : BufTy).Contents (Elt Ideal)) : (⟨S100000x64, .f32⟩ : BufTy).Contents (Elt Ideal) :=
  layer3 x0 e w1 w2 w3 p5 p6 p7 p8 p9

theorem layer1_eq (x0 : (⟨S100000x37, .f32⟩ : BufTy).Contents (Elt Ideal)) (e : (⟨S2x1000000, .i32⟩ : BufTy).Contents (Elt Ideal))
    (w1 : (⟨S37x64, .f32⟩ : BufTy).Contents (Elt Ideal))
    (p5 p6 p7 p8 p9 : (⟨S3x64, .f32⟩ : BufTy).Contents (Elt Ideal)) : layer1 x0 e w1 p5 p6 p7 p8 p9 =
  Cert.Gcn.bnAct (Host.aggOf (F := Ideal) (Cert.Gcn.mmScale 37 x0 w1 (Host.dinv2Of (F := Ideal) e)) (Host.rowOf (F := Ideal) e) (Host.colOf (F := Ideal) e))
    (Host.dinv2Of (F := Ideal) e) (Host.prm0 (F := Ideal) p5) (Host.prm0 (F := Ideal) p8) (Host.prm0 (F := Ideal) p9) (Host.prm0 (F := Ideal) p6) (Host.prm0 (F := Ideal) p7) := rfl

theorem layer2_eq (x0 : (⟨S100000x37, .f32⟩ : BufTy).Contents (Elt Ideal)) (e : (⟨S2x1000000, .i32⟩ : BufTy).Contents (Elt Ideal))
    (w1 : (⟨S37x64, .f32⟩ : BufTy).Contents (Elt Ideal)) (w2 : (⟨S64x64, .f32⟩ : BufTy).Contents (Elt Ideal))
    (p5 p6 p7 p8 p9 : (⟨S3x64, .f32⟩ : BufTy).Contents (Elt Ideal)) : layer2 x0 e w1 w2 p5 p6 p7 p8 p9 =
  Cert.Gcn.bnActRes (Host.aggOf (F := Ideal) (Cert.Gcn.mmScale 64 (layer1 x0 e w1 p5 p6 p7 p8 p9) w2 (Host.dinv2Of (F := Ideal) e)) (Host.rowOf (F := Ideal) e) (Host.colOf (F := Ideal) e))
    (Host.dinv2Of (F := Ideal) e) (Host.prm1 (F := Ideal) p5) (Host.prm1 (F := Ideal) p8) (Host.prm1 (F := Ideal) p9) (Host.prm1 (F := Ideal) p6) (Host.prm1 (F := Ideal) p7)
    (layer1 x0 e w1 p5 p6 p7 p8 p9) := rfl

theorem layer3_eq (x0 : (⟨S100000x37, .f32⟩ : BufTy).Contents (Elt Ideal)) (e : (⟨S2x1000000, .i32⟩ : BufTy).Contents (Elt Ideal))
    (w1 : (⟨S37x64, .f32⟩ : BufTy).Contents (Elt Ideal)) (w2 w3 : (⟨S64x64, .f32⟩ : BufTy).Contents (Elt Ideal))
    (p5 p6 p7 p8 p9 : (⟨S3x64, .f32⟩ : BufTy).Contents (Elt Ideal)) : layer3 x0 e w1 w2 w3 p5 p6 p7 p8 p9 =
  Cert.Gcn.bnActRes (Host.aggOf (F := Ideal) (Cert.Gcn.mmScale 64 (layer2 x0 e w1 w2 p5 p6 p7 p8 p9) w3 (Host.dinv2Of (F := Ideal) e)) (Host.rowOf (F := Ideal) e) (Host.colOf (F := Ideal) e))
    (Host.dinv2Of (F := Ideal) e) (Host.prm2 (F := Ideal) p5) (Host.prm2 (F := Ideal) p8) (Host.prm2 (F := Ideal) p9) (Host.prm2 (F := Ideal) p6) (Host.prm2 (F := Ideal) p7)
    (layer2 x0 e w1 w2 p5 p6 p7 p8 p9) := rfl

/-! ## The arguments at the first region's entry -/

/-- Closes `∀ op ∈ ops, b ∉ op.writes` for one of the first three stretches and a named TensorCore buffer `b`. -/
macro "not_written0" : tactic => `(tactic|
  exact List.forall_iff_forall_mem.mp (by
    simp only [Cert.KernelIdeal.Gen.hostOps0, Cert.KernelIdeal.Gen.hostOps0_1, Cert.KernelIdeal.Gen.hostOps0_2,
      List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

section
variable (m : (ℓ : Loc nD τ sig) → Buf (Elt Ideal) ℓ) (ρ : Dev nD → PrngReg)

/-- A buffer none of the first three stretches writes holds at the first region's entry what it held at launch. -/
theorem arg_at3 (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    Gen.W3 (F := Ideal) m ρ c (Proc.devRef .tc b) = m ((c : Thread nD τ).loc b) :=
  (StableHlo.after_of_forall_not_mem _ _ h2).trans
    ((StableHlo.after_of_forall_not_mem _ _ h1).trans (StableHlo.after_of_forall_not_mem _ _ h0))

/-! ### The nine arguments the regions and the later stretches read -/

theorem at3_main_arg0 (c : Dev nD) : Gen.W3 (F := Ideal) m ρ c (Proc.devRef .tc main_arg0) = m ((c : Thread nD τ).loc main_arg0) :=
  arg_at3 m ρ c main_arg0 (by not_written0) (by not_written0) (by not_written0)

theorem at3_main_arg2 (c : Dev nD) : Gen.W3 (F := Ideal) m ρ c (Proc.devRef .tc main_arg2) = m ((c : Thread nD τ).loc main_arg2) :=
  arg_at3 m ρ c main_arg2 (by not_written0) (by not_written0) (by not_written0)

theorem at3_main_arg3 (c : Dev nD) : Gen.W3 (F := Ideal) m ρ c (Proc.devRef .tc main_arg3) = m ((c : Thread nD τ).loc main_arg3) :=
  arg_at3 m ρ c main_arg3 (by not_written0) (by not_written0) (by not_written0)

theorem at3_main_arg4 (c : Dev nD) : Gen.W3 (F := Ideal) m ρ c (Proc.devRef .tc main_arg4) = m ((c : Thread nD τ).loc main_arg4) :=
  arg_at3 m ρ c main_arg4 (by not_written0) (by not_written0) (by not_written0)

theorem at3_main_arg5 (c : Dev nD) : Gen.W3 (F := Ideal) m ρ c (Proc.devRef .tc main_arg5) = m ((c : Thread nD τ).loc main_arg5) :=
  arg_at3 m ρ c main_arg5 (by not_written0) (by not_written0) (by not_written0)

theorem at3_main_arg6 (c : Dev nD) : Gen.W3 (F := Ideal) m ρ c (Proc.devRef .tc main_arg6) = m ((c : Thread nD τ).loc main_arg6) :=
  arg_at3 m ρ c main_arg6 (by not_written0) (by not_written0) (by not_written0)

theorem at3_main_arg7 (c : Dev nD) : Gen.W3 (F := Ideal) m ρ c (Proc.devRef .tc main_arg7) = m ((c : Thread nD τ).loc main_arg7) :=
  arg_at3 m ρ c main_arg7 (by not_written0) (by not_written0) (by not_written0)

theorem at3_main_arg8 (c : Dev nD) : Gen.W3 (F := Ideal) m ρ c (Proc.devRef .tc main_arg8) = m ((c : Thread nD τ).loc main_arg8) :=
  arg_at3 m ρ c main_arg8 (by not_written0) (by not_written0) (by not_written0)

theorem at3_main_arg9 (c : Dev nD) : Gen.W3 (F := Ideal) m ρ c (Proc.devRef .tc main_arg9) = m ((c : Thread nD τ).loc main_arg9) :=
  arg_at3 m ρ c main_arg9 (by not_written0) (by not_written0) (by not_written0)

end

/-! ## The result buffer's contents -/

set_option maxHeartbeats 2000000 in
/-- Given what each of the six regions leaves in its output array as a function of its input arrays at entry, the
    result buffer holds at the end of the run the three-layer function of the ten argument arrays as launched: the
    buffer contents are followed boundary by boundary, each region's output by its hypothesis, each host stretch's
    results by its evaluation, every other buffer unchanged. -/
theorem kernel_value
    (hr0 : ∀ (V : (c : Dev nD) → (b : Ref sig .tc) → Buf (Elt Ideal) ((c : Thread nD τ).loc b)) (c : Dev nD),
      (Gen.dat0 (F := Ideal) V c).arrAt 3 cfg0.N = Cert.Gcn.mmScale 37 (V c main_arg0) (V c main_arg2) (V c main_v15))
    (hr1 : ∀ (V : (c : Dev nD) → (b : Ref sig .tc) → Buf (Elt Ideal) ((c : Thread nD τ).loc b)) (c : Dev nD),
      (Gen.dat1 (F := Ideal) V c).arrAt 7 cfg1.N = Cert.Gcn.bnAct (V c main_v26) (V c main_v15) (V c main_v29) (V c main_v32) (V c main_v35) (V c main_v38) (V c main_v41))
    (hr2 : ∀ (V : (c : Dev nD) → (b : Ref sig .tc) → Buf (Elt Ideal) ((c : Thread nD τ).loc b)) (c : Dev nD),
      (Gen.dat2 (F := Ideal) V c).arrAt 3 cfg2.N = Cert.Gcn.mmScale 64 (V c main_v42) (V c main_arg3) (V c main_v15))
    (hr3 : ∀ (V : (c : Dev nD) → (b : Ref sig .tc) → Buf (Elt Ideal) ((c : Thread nD τ).loc b)) (c : Dev nD),
      (Gen.dat3 (F := Ideal) V c).arrAt 8 cfg3.N = Cert.Gcn.bnActRes (V c main_v53) (V c main_v15) (V c main_v56) (V c main_v59) (V c main_v62) (V c main_v65) (V c main_v68) (V c main_v42))
    (hr4 : ∀ (V : (c : Dev nD) → (b : Ref sig .tc) → Buf (Elt Ideal) ((c : Thread nD τ).loc b)) (c : Dev nD),
      (Gen.dat4 (F := Ideal) V c).arrAt 3 cfg4.N = Cert.Gcn.mmScale 64 (V c main_v69) (V c main_arg4) (V c main_v15))
    (hr5 : ∀ (V : (c : Dev nD) → (b : Ref sig .tc) → Buf (Elt Ideal) ((c : Thread nD τ).loc b)) (c : Dev nD),
      (Gen.dat5 (F := Ideal) V c).arrAt 8 cfg5.N = Cert.Gcn.bnActRes (V c main_v80) (V c main_v15) (V c main_v83) (V c main_v86) (V c main_v89) (V c main_v92) (V c main_v95) (V c main_v69))
    (m : (ℓ : Loc nD τ sig) → Buf (Elt Ideal) ℓ) (ρ : Dev nD → PrngReg) (c : Dev nD) :
    Gen.W12 (F := Ideal) m ρ c (Proc.devRef .tc main_v96)
      = kernelOut (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  show _ = (layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
  -- the first three stretches: the edge list's two rows, the normalisation column, the arguments as launched
  have H3_main_v3 : Gen.W3 (F := Ideal) m ρ c (Proc.devRef .tc main_v3) = (Host.rowOf (F := Ideal) (m ((c : Thread nD τ).loc main_arg1))) := Host.h0_row (Gen.W0 (F := Ideal) m ρ c)
  have H3_main_v6 : Gen.W3 (F := Ideal) m ρ c (Proc.devRef .tc main_v6) = (Host.colOf (F := Ideal) (m ((c : Thread nD τ).loc main_arg1))) := Host.h0_col (Gen.W0 (F := Ideal) m ρ c)
  have H3_main_v15 : Gen.W3 (F := Ideal) m ρ c (Proc.devRef .tc main_v15) = (Host.dinv2Of (F := Ideal) (m ((c : Thread nD τ).loc main_arg1))) := Host.h0_dinv2 (Gen.W0 (F := Ideal) m ρ c)
  have H3_main_arg0 : Gen.W3 (F := Ideal) m ρ c (Proc.devRef .tc main_arg0) = (m ((c : Thread nD τ).loc main_arg0)) := at3_main_arg0 m ρ c
  have H3_main_arg2 : Gen.W3 (F := Ideal) m ρ c (Proc.devRef .tc main_arg2) = (m ((c : Thread nD τ).loc main_arg2)) := at3_main_arg2 m ρ c
  have H3_main_arg3 : Gen.W3 (F := Ideal) m ρ c (Proc.devRef .tc main_arg3) = (m ((c : Thread nD τ).loc main_arg3)) := at3_main_arg3 m ρ c
  have H3_main_arg4 : Gen.W3 (F := Ideal) m ρ c (Proc.devRef .tc main_arg4) = (m ((c : Thread nD τ).loc main_arg4)) := at3_main_arg4 m ρ c
  have H3_main_arg5 : Gen.W3 (F := Ideal) m ρ c (Proc.devRef .tc main_arg5) = (m ((c : Thread nD τ).loc main_arg5)) := at3_main_arg5 m ρ c
  have H3_main_arg6 : Gen.W3 (F := Ideal) m ρ c (Proc.devRef .tc main_arg6) = (m ((c : Thread nD τ).loc main_arg6)) := at3_main_arg6 m ρ c
  have H3_main_arg7 : Gen.W3 (F := Ideal) m ρ c (Proc.devRef .tc main_arg7) = (m ((c : Thread nD τ).loc main_arg7)) := at3_main_arg7 m ρ c
  have H3_main_arg8 : Gen.W3 (F := Ideal) m ρ c (Proc.devRef .tc main_arg8) = (m ((c : Thread nD τ).loc main_arg8)) := at3_main_arg8 m ρ c
  have H3_main_arg9 : Gen.W3 (F := Ideal) m ρ c (Proc.devRef .tc main_arg9) = (m ((c : Thread nD τ).loc main_arg9)) := at3_main_arg9 m ρ c
  -- region 0: the feature transform of the input array
  have H4_main_v16 : Gen.W4 (F := Ideal) m ρ c (Proc.devRef .tc main_v16) = (Cert.Gcn.mmScale 37 (m ((c : Thread nD τ).loc main_arg0)) (m ((c : Thread nD τ).loc main_arg2)) (Host.dinv2Of (F := Ideal) (m ((c : Thread nD τ).loc main_arg1)))) := by
    refine (Gen.W4_arr m ρ c 3).trans ((hr0 (Gen.V3 (F := Ideal) m ρ) c).trans ?_)
    show Cert.Gcn.mmScale 37 (Gen.W3 (F := Ideal) m ρ c (Proc.devRef .tc main_arg0)) (Gen.W3 (F := Ideal) m ρ c (Proc.devRef .tc main_arg2)) (Gen.W3 (F := Ideal) m ρ c (Proc.devRef .tc main_v15)) = _
    rw [H3_main_arg0, H3_main_arg2, H3_main_v15]
  have H4_main_v3 : Gen.W4 (F := Ideal) m ρ c (Proc.devRef .tc main_v3) = (Host.rowOf (F := Ideal) (m ((c : Thread nD τ).loc main_arg1))) := (Walk.keep4 m ρ c main_v3 (by decide)).trans H3_main_v3
  have H4_main_v6 : Gen.W4 (F := Ideal) m ρ c (Proc.devRef .tc main_v6) = (Host.colOf (F := Ideal) (m ((c : Thread nD τ).loc main_arg1))) := (Walk.keep4 m ρ c main_v6 (by decide)).trans H3_main_v6
  have H4_main_v15 : Gen.W4 (F := Ideal) m ρ c (Proc.devRef .tc main_v15) = (Host.dinv2Of (F := Ideal) (m ((c : Thread nD τ).loc main_arg1))) := (Walk.keep4 m ρ c main_v15 (by decide)).trans H3_main_v15
  have H4_main_arg3 : Gen.W4 (F := Ideal) m ρ c (Proc.devRef .tc main_arg3) = (m ((c : Thread nD τ).loc main_arg3)) := (Walk.keep4 m ρ c main_arg3 (by decide)).trans H3_main_arg3
  have H4_main_arg4 : Gen.W4 (F := Ideal) m ρ c (Proc.devRef .tc main_arg4) = (m ((c : Thread nD τ).loc main_arg4)) := (Walk.keep4 m ρ c main_arg4 (by decide)).trans H3_main_arg4
  have H4_main_arg5 : Gen.W4 (F := Ideal) m ρ c (Proc.devRef .tc main_arg5) = (m ((c : Thread nD τ).loc main_arg5)) := (Walk.keep4 m ρ c main_arg5 (by decide)).trans H3_main_arg5
  have H4_main_arg6 : Gen.W4 (F := Ideal) m ρ c (Proc.devRef .tc main_arg6) = (m ((c : Thread nD τ).loc main_arg6)) := (Walk.keep4 m ρ c main_arg6 (by decide)).trans H3_main_arg6
  have H4_main_arg7 : Gen.W4 (F := Ideal) m ρ c (Proc.devRef .tc main_arg7) = (m ((c : Thread nD τ).loc main_arg7)) := (Walk.keep4 m ρ c main_arg7 (by decide)).trans H3_main_arg7
  have H4_main_arg8 : Gen.W4 (F := Ideal) m ρ c (Proc.devRef .tc main_arg8) = (m ((c : Thread nD τ).loc main_arg8)) := (Walk.keep4 m ρ c main_arg8 (by decide)).trans H3_main_arg8
  have H4_main_arg9 : Gen.W4 (F := Ideal) m ρ c (Proc.devRef .tc main_arg9) = (m ((c : Thread nD τ).loc main_arg9)) := (Walk.keep4 m ρ c main_arg9 (by decide)).trans H3_main_arg9
  -- the stretch before region 1: the aggregation along the edges and the first rows of the parameters
  have H5_main_v26 : Gen.W5 (F := Ideal) m ρ c (Proc.devRef .tc main_v26) = (Host.aggOf (F := Ideal) (Cert.Gcn.mmScale 37 (m ((c : Thread nD τ).loc main_arg0)) (m ((c : Thread nD τ).loc main_arg2)) (Host.dinv2Of (F := Ideal) (m ((c : Thread nD τ).loc main_arg1)))) (Host.rowOf (F := Ideal) (m ((c : Thread nD τ).loc main_arg1))) (Host.colOf (F := Ideal) (m ((c : Thread nD τ).loc main_arg1)))) := by
    refine (Host.h1_agg (Gen.W4 (F := Ideal) m ρ c)).trans ?_
    rw [H4_main_v16, H4_main_v3, H4_main_v6]
  have H5_main_v29 : Gen.W5 (F := Ideal) m ρ c (Proc.devRef .tc main_v29) = (Host.prm0 (F := Ideal) (m ((c : Thread nD τ).loc main_arg5))) := by
    refine (Host.h1_b (Gen.W4 (F := Ideal) m ρ c)).trans ?_
    rw [H4_main_arg5]
  have H5_main_v32 : Gen.W5 (F := Ideal) m ρ c (Proc.devRef .tc main_v32) = (Host.prm0 (F := Ideal) (m ((c : Thread nD τ).loc main_arg8))) := by
    refine (Host.h1_mean (Gen.W4 (F := Ideal) m ρ c)).trans ?_
    rw [H4_main_arg8]
  have H5_main_v35 : Gen.W5 (F := Ideal) m ρ c (Proc.devRef .tc main_v35) = (Host.prm0 (F := Ideal) (m ((c : Thread nD τ).loc main_arg9))) := by
    refine (Host.h1_var (Gen.W4 (F := Ideal) m ρ c)).trans ?_
    rw [H4_main_arg9]
  have H5_main_v38 : Gen.W5 (F := Ideal) m ρ c (Proc.devRef .tc main_v38) = (Host.prm0 (F := Ideal) (m ((c : Thread nD τ).loc main_arg6))) := by
    refine (Host.h1_gamma (Gen.W4 (F := Ideal) m ρ c)).trans ?_
    rw [H4_main_arg6]
  have H5_main_v41 : Gen.W5 (F := Ideal) m ρ c (Proc.devRef .tc main_v41) = (Host.prm0 (F := Ideal) (m ((c : Thread nD τ).loc main_arg7))) := by
    refine (Host.h1_beta (Gen.W4 (F := Ideal) m ρ c)).trans ?_
    rw [H4_main_arg7]
  have H5_main_v3 : Gen.W5 (F := Ideal) m ρ c (Proc.devRef .tc main_v3) = (Host.rowOf (F := Ideal) (m ((c : Thread nD τ).loc main_arg1))) := (Walk.keep5_main_v3 m ρ c).trans H4_main_v3
  have H5_main_v6 : Gen.W5 (F := Ideal) m ρ c (Proc.devRef .tc main_v6) = (Host.colOf (F := Ideal) (m ((c : Thread nD τ).loc main_arg1))) := (Walk.keep5_main_v6 m ρ c).trans H4_main_v6
  have H5_main_v15 : Gen.W5 (F := Ideal) m ρ c (Proc.devRef .tc main_v15) = (Host.dinv2Of (F := Ideal) (m ((c : Thread nD τ).loc main_arg1))) := (Walk.keep5_main_v15 m ρ c).trans H4_main_v15
  have H5_main_arg3 : Gen.W5 (F := Ideal) m ρ c (Proc.devRef .tc main_arg3) = (m ((c : Thread nD τ).loc main_arg3)) := (Walk.keep5_main_arg3 m ρ c).trans H4_main_arg3
  have H5_main_arg4 : Gen.W5 (F := Ideal) m ρ c (Proc.devRef .tc main_arg4) = (m ((c : Thread nD τ).loc main_arg4)) := (Walk.keep5_main_arg4 m ρ c).trans H4_main_arg4
  have H5_main_arg5 : Gen.W5 (F := Ideal) m ρ c (Proc.devRef .tc main_arg5) = (m ((c : Thread nD τ).loc main_arg5)) := (Walk.keep5_main_arg5 m ρ c).trans H4_main_arg5
  have H5_main_arg6 : Gen.W5 (F := Ideal) m ρ c (Proc.devRef .tc main_arg6) = (m ((c : Thread nD τ).loc main_arg6)) := (Walk.keep5_main_arg6 m ρ c).trans H4_main_arg6
  have H5_main_arg7 : Gen.W5 (F := Ideal) m ρ c (Proc.devRef .tc main_arg7) = (m ((c : Thread nD τ).loc main_arg7)) := (Walk.keep5_main_arg7 m ρ c).trans H4_main_arg7
  have H5_main_arg8 : Gen.W5 (F := Ideal) m ρ c (Proc.devRef .tc main_arg8) = (m ((c : Thread nD τ).loc main_arg8)) := (Walk.keep5_main_arg8 m ρ c).trans H4_main_arg8
  have H5_main_arg9 : Gen.W5 (F := Ideal) m ρ c (Proc.devRef .tc main_arg9) = (m ((c : Thread nD τ).loc main_arg9)) := (Walk.keep5_main_arg9 m ρ c).trans H4_main_arg9
  -- region 1: the first layer
  have H6_main_v42 : Gen.W6 (F := Ideal) m ρ c (Proc.devRef .tc main_v42) = (layer1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9))) := by
    refine (Gen.W6_arr m ρ c 7).trans ((hr1 (Gen.V5 (F := Ideal) m ρ) c).trans ?_)
    show Cert.Gcn.bnAct (Gen.W5 (F := Ideal) m ρ c (Proc.devRef .tc main_v26)) (Gen.W5 (F := Ideal) m ρ c (Proc.devRef .tc main_v15)) (Gen.W5 (F := Ideal) m ρ c (Proc.devRef .tc main_v29)) (Gen.W5 (F := Ideal) m ρ c (Proc.devRef .tc main_v32)) (Gen.W5 (F := Ideal) m ρ c (Proc.devRef .tc main_v35)) (Gen.W5 (F := Ideal) m ρ c (Proc.devRef .tc main_v38)) (Gen.W5 (F := Ideal) m ρ c (Proc.devRef .tc main_v41)) = _
    rw [H5_main_v26, H5_main_v15, H5_main_v29, H5_main_v32, H5_main_v35, H5_main_v38, H5_main_v41]
    exact (layer1_eq _ _ _ _ _ _ _ _).symm
  have H6_main_v3 : Gen.W6 (F := Ideal) m ρ c (Proc.devRef .tc main_v3) = (Host.rowOf (F := Ideal) (m ((c : Thread nD τ).loc main_arg1))) := (Walk.keep6 m ρ c main_v3 (by decide)).trans H5_main_v3
  have H6_main_v6 : Gen.W6 (F := Ideal) m ρ c (Proc.devRef .tc main_v6) = (Host.colOf (F := Ideal) (m ((c : Thread nD τ).loc main_arg1))) := (Walk.keep6 m ρ c main_v6 (by decide)).trans H5_main_v6
  have H6_main_v15 : Gen.W6 (F := Ideal) m ρ c (Proc.devRef .tc main_v15) = (Host.dinv2Of (F := Ideal) (m ((c : Thread nD τ).loc main_arg1))) := (Walk.keep6 m ρ c main_v15 (by decide)).trans H5_main_v15
  have H6_main_arg3 : Gen.W6 (F := Ideal) m ρ c (Proc.devRef .tc main_arg3) = (m ((c : Thread nD τ).loc main_arg3)) := (Walk.keep6 m ρ c main_arg3 (by decide)).trans H5_main_arg3
  have H6_main_arg4 : Gen.W6 (F := Ideal) m ρ c (Proc.devRef .tc main_arg4) = (m ((c : Thread nD τ).loc main_arg4)) := (Walk.keep6 m ρ c main_arg4 (by decide)).trans H5_main_arg4
  have H6_main_arg5 : Gen.W6 (F := Ideal) m ρ c (Proc.devRef .tc main_arg5) = (m ((c : Thread nD τ).loc main_arg5)) := (Walk.keep6 m ρ c main_arg5 (by decide)).trans H5_main_arg5
  have H6_main_arg6 : Gen.W6 (F := Ideal) m ρ c (Proc.devRef .tc main_arg6) = (m ((c : Thread nD τ).loc main_arg6)) := (Walk.keep6 m ρ c main_arg6 (by decide)).trans H5_main_arg6
  have H6_main_arg7 : Gen.W6 (F := Ideal) m ρ c (Proc.devRef .tc main_arg7) = (m ((c : Thread nD τ).loc main_arg7)) := (Walk.keep6 m ρ c main_arg7 (by decide)).trans H5_main_arg7
  have H6_main_arg8 : Gen.W6 (F := Ideal) m ρ c (Proc.devRef .tc main_arg8) = (m ((c : Thread nD τ).loc main_arg8)) := (Walk.keep6 m ρ c main_arg8 (by decide)).trans H5_main_arg8
  have H6_main_arg9 : Gen.W6 (F := Ideal) m ρ c (Proc.devRef .tc main_arg9) = (m ((c : Thread nD τ).loc main_arg9)) := (Walk.keep6 m ρ c main_arg9 (by decide)).trans H5_main_arg9
  -- region 2: the feature transform of the first layer
  have H7_main_v43 : Gen.W7 (F := Ideal) m ρ c (Proc.devRef .tc main_v43) = (Cert.Gcn.mmScale 64 (layer1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg3)) (Host.dinv2Of (F := Ideal) (m ((c : Thread nD τ).loc main_arg1)))) := by
    refine (Gen.W7_arr m ρ c 3).trans ((hr2 (Gen.V6 (F := Ideal) m ρ) c).trans ?_)
    show Cert.Gcn.mmScale 64 (Gen.W6 (F := Ideal) m ρ c (Proc.devRef .tc main_v42)) (Gen.W6 (F := Ideal) m ρ c (Proc.devRef .tc main_arg3)) (Gen.W6 (F := Ideal) m ρ c (Proc.devRef .tc main_v15)) = _
    rw [H6_main_v42, H6_main_arg3, H6_main_v15]
  have H7_main_v3 : Gen.W7 (F := Ideal) m ρ c (Proc.devRef .tc main_v3) = (Host.rowOf (F := Ideal) (m ((c : Thread nD τ).loc main_arg1))) := (Walk.keep7 m ρ c main_v3 (by decide)).trans H6_main_v3
  have H7_main_v6 : Gen.W7 (F := Ideal) m ρ c (Proc.devRef .tc main_v6) = (Host.colOf (F := Ideal) (m ((c : Thread nD τ).loc main_arg1))) := (Walk.keep7 m ρ c main_v6 (by decide)).trans H6_main_v6
  have H7_main_v15 : Gen.W7 (F := Ideal) m ρ c (Proc.devRef .tc main_v15) = (Host.dinv2Of (F := Ideal) (m ((c : Thread nD τ).loc main_arg1))) := (Walk.keep7 m ρ c main_v15 (by decide)).trans H6_main_v15
  have H7_main_v42 : Gen.W7 (F := Ideal) m ρ c (Proc.devRef .tc main_v42) = (layer1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9))) := (Walk.keep7 m ρ c main_v42 (by decide)).trans H6_main_v42
  have H7_main_arg4 : Gen.W7 (F := Ideal) m ρ c (Proc.devRef .tc main_arg4) = (m ((c : Thread nD τ).loc main_arg4)) := (Walk.keep7 m ρ c main_arg4 (by decide)).trans H6_main_arg4
  have H7_main_arg5 : Gen.W7 (F := Ideal) m ρ c (Proc.devRef .tc main_arg5) = (m ((c : Thread nD τ).loc main_arg5)) := (Walk.keep7 m ρ c main_arg5 (by decide)).trans H6_main_arg5
  have H7_main_arg6 : Gen.W7 (F := Ideal) m ρ c (Proc.devRef .tc main_arg6) = (m ((c : Thread nD τ).loc main_arg6)) := (Walk.keep7 m ρ c main_arg6 (by decide)).trans H6_main_arg6
  have H7_main_arg7 : Gen.W7 (F := Ideal) m ρ c (Proc.devRef .tc main_arg7) = (m ((c : Thread nD τ).loc main_arg7)) := (Walk.keep7 m ρ c main_arg7 (by decide)).trans H6_main_arg7
  have H7_main_arg8 : Gen.W7 (F := Ideal) m ρ c (Proc.devRef .tc main_arg8) = (m ((c : Thread nD τ).loc main_arg8)) := (Walk.keep7 m ρ c main_arg8 (by decide)).trans H6_main_arg8
  have H7_main_arg9 : Gen.W7 (F := Ideal) m ρ c (Proc.devRef .tc main_arg9) = (m ((c : Thread nD τ).loc main_arg9)) := (Walk.keep7 m ρ c main_arg9 (by decide)).trans H6_main_arg9
  -- the stretch before region 3
  have H8_main_v53 : Gen.W8 (F := Ideal) m ρ c (Proc.devRef .tc main_v53) = (Host.aggOf (F := Ideal) (Cert.Gcn.mmScale 64 (layer1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg3)) (Host.dinv2Of (F := Ideal) (m ((c : Thread nD τ).loc main_arg1)))) (Host.rowOf (F := Ideal) (m ((c : Thread nD τ).loc main_arg1))) (Host.colOf (F := Ideal) (m ((c : Thread nD τ).loc main_arg1)))) := by
    refine (Host.h3_agg (Gen.W7 (F := Ideal) m ρ c)).trans ?_
    rw [H7_main_v43, H7_main_v3, H7_main_v6]
  have H8_main_v56 : Gen.W8 (F := Ideal) m ρ c (Proc.devRef .tc main_v56) = (Host.prm1 (F := Ideal) (m ((c : Thread nD τ).loc main_arg5))) := by
    refine (Host.h3_b (Gen.W7 (F := Ideal) m ρ c)).trans ?_
    rw [H7_main_arg5]
  have H8_main_v59 : Gen.W8 (F := Ideal) m ρ c (Proc.devRef .tc main_v59) = (Host.prm1 (F := Ideal) (m ((c : Thread nD τ).loc main_arg8))) := by
    refine (Host.h3_mean (Gen.W7 (F := Ideal) m ρ c)).trans ?_
    rw [H7_main_arg8]
  have H8_main_v62 : Gen.W8 (F := Ideal) m ρ c (Proc.devRef .tc main_v62) = (Host.prm1 (F := Ideal) (m ((c : Thread nD τ).loc main_arg9))) := by
    refine (Host.h3_var (Gen.W7 (F := Ideal) m ρ c)).trans ?_
    rw [H7_main_arg9]
  have H8_main_v65 : Gen.W8 (F := Ideal) m ρ c (Proc.devRef .tc main_v65) = (Host.prm1 (F := Ideal) (m ((c : Thread nD τ).loc main_arg6))) := by
    refine (Host.h3_gamma (Gen.W7 (F := Ideal) m ρ c)).trans ?_
    rw [H7_main_arg6]
  have H8_main_v68 : Gen.W8 (F := Ideal) m ρ c (Proc.devRef .tc main_v68) = (Host.prm1 (F := Ideal) (m ((c : Thread nD τ).loc main_arg7))) := by
    refine (Host.h3_beta (Gen.W7 (F := Ideal) m ρ c)).trans ?_
    rw [H7_main_arg7]
  have H8_main_v3 : Gen.W8 (F := Ideal) m ρ c (Proc.devRef .tc main_v3) = (Host.rowOf (F := Ideal) (m ((c : Thread nD τ).loc main_arg1))) := (Walk.keep8_main_v3 m ρ c).trans H7_main_v3
  have H8_main_v6 : Gen.W8 (F := Ideal) m ρ c (Proc.devRef .tc main_v6) = (Host.colOf (F := Ideal) (m ((c : Thread nD τ).loc main_arg1))) := (Walk.keep8_main_v6 m ρ c).trans H7_main_v6
  have H8_main_v15 : Gen.W8 (F := Ideal) m ρ c (Proc.devRef .tc main_v15) = (Host.dinv2Of (F := Ideal) (m ((c : Thread nD τ).loc main_arg1))) := (Walk.keep8_main_v15 m ρ c).trans H7_main_v15
  have H8_main_v42 : Gen.W8 (F := Ideal) m ρ c (Proc.devRef .tc main_v42) = (layer1 (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9))) := (Walk.keep8_main_v42 m ρ c).trans H7_main_v42
  have H8_main_arg4 : Gen.W8 (F := Ideal) m ρ c (Proc.devRef .tc main_arg4) = (m ((c : Thread nD τ).loc main_arg4)) := (Walk.keep8_main_arg4 m ρ c).trans H7_main_arg4
  have H8_main_arg5 : Gen.W8 (F := Ideal) m ρ c (Proc.devRef .tc main_arg5) = (m ((c : Thread nD τ).loc main_arg5)) := (Walk.keep8_main_arg5 m ρ c).trans H7_main_arg5
  have H8_main_arg6 : Gen.W8 (F := Ideal) m ρ c (Proc.devRef .tc main_arg6) = (m ((c : Thread nD τ).loc main_arg6)) := (Walk.keep8_main_arg6 m ρ c).trans H7_main_arg6
  have H8_main_arg7 : Gen.W8 (F := Ideal) m ρ c (Proc.devRef .tc main_arg7) = (m ((c : Thread nD τ).loc main_arg7)) := (Walk.keep8_main_arg7 m ρ c).trans H7_main_arg7
  have H8_main_arg8 : Gen.W8 (F := Ideal) m ρ c (Proc.devRef .tc main_arg8) = (m ((c : Thread nD τ).loc main_arg8)) := (Walk.keep8_main_arg8 m ρ c).trans H7_main_arg8
  have H8_main_arg9 : Gen.W8 (F := Ideal) m ρ c (Proc.devRef .tc main_arg9) = (m ((c : Thread nD τ).loc main_arg9)) := (Walk.keep8_main_arg9 m ρ c).trans H7_main_arg9
  -- region 3: the second layer, added to the first
  have H9_main_v69 : Gen.W9 (F := Ideal) m ρ c (Proc.devRef .tc main_v69) = (layer2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) := by
    refine (Gen.W9_arr m ρ c 8).trans ((hr3 (Gen.V8 (F := Ideal) m ρ) c).trans ?_)
    show Cert.Gcn.bnActRes (Gen.W8 (F := Ideal) m ρ c (Proc.devRef .tc main_v53)) (Gen.W8 (F := Ideal) m ρ c (Proc.devRef .tc main_v15)) (Gen.W8 (F := Ideal) m ρ c (Proc.devRef .tc main_v56)) (Gen.W8 (F := Ideal) m ρ c (Proc.devRef .tc main_v59)) (Gen.W8 (F := Ideal) m ρ c (Proc.devRef .tc main_v62)) (Gen.W8 (F := Ideal) m ρ c (Proc.devRef .tc main_v65)) (Gen.W8 (F := Ideal) m ρ c (Proc.devRef .tc main_v68)) (Gen.W8 (F := Ideal) m ρ c (Proc.devRef .tc main_v42)) = _
    rw [H8_main_v53, H8_main_v15, H8_main_v56, H8_main_v59, H8_main_v62, H8_main_v65, H8_main_v68, H8_main_v42]
    exact (layer2_eq _ _ _ _ _ _ _ _ _).symm
  have H9_main_v3 : Gen.W9 (F := Ideal) m ρ c (Proc.devRef .tc main_v3) = (Host.rowOf (F := Ideal) (m ((c : Thread nD τ).loc main_arg1))) := (Walk.keep9 m ρ c main_v3 (by decide)).trans H8_main_v3
  have H9_main_v6 : Gen.W9 (F := Ideal) m ρ c (Proc.devRef .tc main_v6) = (Host.colOf (F := Ideal) (m ((c : Thread nD τ).loc main_arg1))) := (Walk.keep9 m ρ c main_v6 (by decide)).trans H8_main_v6
  have H9_main_v15 : Gen.W9 (F := Ideal) m ρ c (Proc.devRef .tc main_v15) = (Host.dinv2Of (F := Ideal) (m ((c : Thread nD τ).loc main_arg1))) := (Walk.keep9 m ρ c main_v15 (by decide)).trans H8_main_v15
  have H9_main_arg4 : Gen.W9 (F := Ideal) m ρ c (Proc.devRef .tc main_arg4) = (m ((c : Thread nD τ).loc main_arg4)) := (Walk.keep9 m ρ c main_arg4 (by decide)).trans H8_main_arg4
  have H9_main_arg5 : Gen.W9 (F := Ideal) m ρ c (Proc.devRef .tc main_arg5) = (m ((c : Thread nD τ).loc main_arg5)) := (Walk.keep9 m ρ c main_arg5 (by decide)).trans H8_main_arg5
  have H9_main_arg6 : Gen.W9 (F := Ideal) m ρ c (Proc.devRef .tc main_arg6) = (m ((c : Thread nD τ).loc main_arg6)) := (Walk.keep9 m ρ c main_arg6 (by decide)).trans H8_main_arg6
  have H9_main_arg7 : Gen.W9 (F := Ideal) m ρ c (Proc.devRef .tc main_arg7) = (m ((c : Thread nD τ).loc main_arg7)) := (Walk.keep9 m ρ c main_arg7 (by decide)).trans H8_main_arg7
  have H9_main_arg8 : Gen.W9 (F := Ideal) m ρ c (Proc.devRef .tc main_arg8) = (m ((c : Thread nD τ).loc main_arg8)) := (Walk.keep9 m ρ c main_arg8 (by decide)).trans H8_main_arg8
  have H9_main_arg9 : Gen.W9 (F := Ideal) m ρ c (Proc.devRef .tc main_arg9) = (m ((c : Thread nD τ).loc main_arg9)) := (Walk.keep9 m ρ c main_arg9 (by decide)).trans H8_main_arg9
  -- region 4: the feature transform of the second layer
  have H10_main_v70 : Gen.W10 (F := Ideal) m ρ c (Proc.devRef .tc main_v70) = (Cert.Gcn.mmScale 64 (layer2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg4)) (Host.dinv2Of (F := Ideal) (m ((c : Thread nD τ).loc main_arg1)))) := by
    refine (Gen.W10_arr m ρ c 3).trans ((hr4 (Gen.V9 (F := Ideal) m ρ) c).trans ?_)
    show Cert.Gcn.mmScale 64 (Gen.W9 (F := Ideal) m ρ c (Proc.devRef .tc main_v69)) (Gen.W9 (F := Ideal) m ρ c (Proc.devRef .tc main_arg4)) (Gen.W9 (F := Ideal) m ρ c (Proc.devRef .tc main_v15)) = _
    rw [H9_main_v69, H9_main_arg4, H9_main_v15]
  have H10_main_v3 : Gen.W10 (F := Ideal) m ρ c (Proc.devRef .tc main_v3) = (Host.rowOf (F := Ideal) (m ((c : Thread nD τ).loc main_arg1))) := (Walk.keep10 m ρ c main_v3 (by decide)).trans H9_main_v3
  have H10_main_v6 : Gen.W10 (F := Ideal) m ρ c (Proc.devRef .tc main_v6) = (Host.colOf (F := Ideal) (m ((c : Thread nD τ).loc main_arg1))) := (Walk.keep10 m ρ c main_v6 (by decide)).trans H9_main_v6
  have H10_main_v15 : Gen.W10 (F := Ideal) m ρ c (Proc.devRef .tc main_v15) = (Host.dinv2Of (F := Ideal) (m ((c : Thread nD τ).loc main_arg1))) := (Walk.keep10 m ρ c main_v15 (by decide)).trans H9_main_v15
  have H10_main_v69 : Gen.W10 (F := Ideal) m ρ c (Proc.devRef .tc main_v69) = (layer2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) := (Walk.keep10 m ρ c main_v69 (by decide)).trans H9_main_v69
  have H10_main_arg5 : Gen.W10 (F := Ideal) m ρ c (Proc.devRef .tc main_arg5) = (m ((c : Thread nD τ).loc main_arg5)) := (Walk.keep10 m ρ c main_arg5 (by decide)).trans H9_main_arg5
  have H10_main_arg6 : Gen.W10 (F := Ideal) m ρ c (Proc.devRef .tc main_arg6) = (m ((c : Thread nD τ).loc main_arg6)) := (Walk.keep10 m ρ c main_arg6 (by decide)).trans H9_main_arg6
  have H10_main_arg7 : Gen.W10 (F := Ideal) m ρ c (Proc.devRef .tc main_arg7) = (m ((c : Thread nD τ).loc main_arg7)) := (Walk.keep10 m ρ c main_arg7 (by decide)).trans H9_main_arg7
  have H10_main_arg8 : Gen.W10 (F := Ideal) m ρ c (Proc.devRef .tc main_arg8) = (m ((c : Thread nD τ).loc main_arg8)) := (Walk.keep10 m ρ c main_arg8 (by decide)).trans H9_main_arg8
  have H10_main_arg9 : Gen.W10 (F := Ideal) m ρ c (Proc.devRef .tc main_arg9) = (m ((c : Thread nD τ).loc main_arg9)) := (Walk.keep10 m ρ c main_arg9 (by decide)).trans H9_main_arg9
  -- the stretch before region 5
  have H11_main_v80 : Gen.W11 (F := Ideal) m ρ c (Proc.devRef .tc main_v80) = (Host.aggOf (F := Ideal) (Cert.Gcn.mmScale 64 (layer2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg4)) (Host.dinv2Of (F := Ideal) (m ((c : Thread nD τ).loc main_arg1)))) (Host.rowOf (F := Ideal) (m ((c : Thread nD τ).loc main_arg1))) (Host.colOf (F := Ideal) (m ((c : Thread nD τ).loc main_arg1)))) := by
    refine (Host.h5_agg (Gen.W10 (F := Ideal) m ρ c)).trans ?_
    rw [H10_main_v70, H10_main_v3, H10_main_v6]
  have H11_main_v83 : Gen.W11 (F := Ideal) m ρ c (Proc.devRef .tc main_v83) = (Host.prm2 (F := Ideal) (m ((c : Thread nD τ).loc main_arg5))) := by
    refine (Host.h5_b (Gen.W10 (F := Ideal) m ρ c)).trans ?_
    rw [H10_main_arg5]
  have H11_main_v86 : Gen.W11 (F := Ideal) m ρ c (Proc.devRef .tc main_v86) = (Host.prm2 (F := Ideal) (m ((c : Thread nD τ).loc main_arg8))) := by
    refine (Host.h5_mean (Gen.W10 (F := Ideal) m ρ c)).trans ?_
    rw [H10_main_arg8]
  have H11_main_v89 : Gen.W11 (F := Ideal) m ρ c (Proc.devRef .tc main_v89) = (Host.prm2 (F := Ideal) (m ((c : Thread nD τ).loc main_arg9))) := by
    refine (Host.h5_var (Gen.W10 (F := Ideal) m ρ c)).trans ?_
    rw [H10_main_arg9]
  have H11_main_v92 : Gen.W11 (F := Ideal) m ρ c (Proc.devRef .tc main_v92) = (Host.prm2 (F := Ideal) (m ((c : Thread nD τ).loc main_arg6))) := by
    refine (Host.h5_gamma (Gen.W10 (F := Ideal) m ρ c)).trans ?_
    rw [H10_main_arg6]
  have H11_main_v95 : Gen.W11 (F := Ideal) m ρ c (Proc.devRef .tc main_v95) = (Host.prm2 (F := Ideal) (m ((c : Thread nD τ).loc main_arg7))) := by
    refine (Host.h5_beta (Gen.W10 (F := Ideal) m ρ c)).trans ?_
    rw [H10_main_arg7]
  have H11_main_v15 : Gen.W11 (F := Ideal) m ρ c (Proc.devRef .tc main_v15) = (Host.dinv2Of (F := Ideal) (m ((c : Thread nD τ).loc main_arg1))) := (Walk.keep11_main_v15 m ρ c).trans H10_main_v15
  have H11_main_v69 : Gen.W11 (F := Ideal) m ρ c (Proc.devRef .tc main_v69) = (layer2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9))) := (Walk.keep11_main_v69 m ρ c).trans H10_main_v69
  -- region 5: the third layer, added to the second
  have H12_main_v96 : Gen.W12 (F := Ideal) m ρ c (Proc.devRef .tc main_v96) = (layer3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
    refine (Gen.W12_arr m ρ c 8).trans ((hr5 (Gen.V11 (F := Ideal) m ρ) c).trans ?_)
    show Cert.Gcn.bnActRes (Gen.W11 (F := Ideal) m ρ c (Proc.devRef .tc main_v80)) (Gen.W11 (F := Ideal) m ρ c (Proc.devRef .tc main_v15)) (Gen.W11 (F := Ideal) m ρ c (Proc.devRef .tc main_v83)) (Gen.W11 (F := Ideal) m ρ c (Proc.devRef .tc main_v86)) (Gen.W11 (F := Ideal) m ρ c (Proc.devRef .tc main_v89)) (Gen.W11 (F := Ideal) m ρ c (Proc.devRef .tc main_v92)) (Gen.W11 (F := Ideal) m ρ c (Proc.devRef .tc main_v95)) (Gen.W11 (F := Ideal) m ρ c (Proc.devRef .tc main_v69)) = _
    rw [H11_main_v80, H11_main_v15, H11_main_v83, H11_main_v86, H11_main_v89, H11_main_v92, H11_main_v95, H11_main_v69]
    exact (layer3_eq _ _ _ _ _ _ _ _ _ _).symm
  exact H12_main_v96

end Cert.KernelIdeal.Value6

end
-- ==== Proof.LibRowOps.lean ====
/-
  Row gathers and row scatter-adds of a two-axis array, read at one element.

  A gather of rows: operand [N, C], one start word per result row (start indices [E, 1]), result [E, C].  Result element
  (e, c) is the operand at (the start word of row e read signed and clamped into [0, N - 1], c).
  A scatter-add of rows: operand [N, C], one index word per update row, updates [E, C].  Update element (e, c) lands on
  operand element (n, c') exactly when the word of row e, read signed, is n and c = c' (a word out of range lands nowhere).
-/
import Idealize.ShloMosaic.PureOps.Ideal
import Idealize.ShloMosaic.Lib.ValueIdx

noncomputable section

open scoped BigOperators

namespace Cert.Gat.Rows

open Idealize.ShloMosaic Idealize.ShloMosaic.ValueIdx

section Gather
variable {α : Type} {N C E w : Nat}

/-- The dimension numbers of a row gather. -/
abbrev rowDims (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem not_one_mem : ¬ (1 : Fin 2) ∈ ([0] : List (Fin 2)) := by decide
theorem not_zero_mem_one : ¬ (0 : Fin 2) ∈ ([1] : List (Fin 2)) := by decide

/-- The operand row a result element reads: the clamped start word. -/
theorem opIdx0 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (0 : Fin 2) + (rowDims wf).batchCoord (ix2 e c) (0 : Fin 2) + (rowDims wf).offCoord (ix2 e c) (0 : Fin 2)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims wf).startIndexMap from List.mem_singleton.mpr rfl)]
  have hsi : (rowDims wf).siIdx (ix2 e c) ⟨List.idxOf (0 : Fin 2) (rowDims wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- The operand column a result element reads: its own. -/
theorem opIdx1 (wf : GatherDims.WF ⟨2, ![N, C]⟩ ⟨2, ![E, 1]⟩ ⟨2, ![E, C]⟩ [1] [0] [] [0] [] 1 ![1, C])
    (idx : IVec ⟨2, ![E, 1]⟩ w) (e : Fin E) (c : Fin C) :
    (rowDims wf).start (ix2 e c) idx (1 : Fin 2) + (rowDims wf).batchCoord (ix2 e c) (1 : Fin 2) + (rowDims wf).offCoord (ix2 e c) (1 : Fin 2)
      = c.val := by
  rw [GatherDims.batchCoord_eq_zero _ _ _ List.not_mem_nil]
  unfold GatherDims.start GatherDims.offCoord
  rw [dif_neg (show ¬ (1 : Fin 2) ∈ (rowDims wf).startIndexMap from not_one_mem),
    dif_pos (show (1 : Fin 2) ∈ (rowDims wf).sKept from
      (GatherDims.mem_sKept _ _).mpr ⟨not_one_mem, List.not_mem_nil⟩)]
  simp only [Nat.zero_add]
  rfl

/-- A row gather at (e, c): the operand at (the clamped start word of row e, c). -/
theorem gather_row_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowDims wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ => exact opIdx0 wf idx e c
  | ⟨1, _⟩ => exact opIdx1 wf idx e c

end Gather

section Scatter
variable {N C E w : Nat}

/-- The dimension numbers of a row scatter. -/
abbrev rowScatter (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem start0 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (0 : Fin 2) = (idx (ix2 e ⟨0, Nat.one_pos⟩)).toInt := by
  unfold ScatterDims.start
  rw [dif_pos (show (0 : Fin 2) ∈ (rowScatter wf).scatterDimsToOperandDims from List.mem_singleton.mpr rfl)]
  congr 2
  funext b; refine Fin.ext ?_
  match b with
  | ⟨0, _⟩ => rfl
  | ⟨1, _⟩ => rfl

theorem start1 (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter wf).start (ix2 e c) idx (1 : Fin 2) = 0 := by
  unfold ScatterDims.start
  rw [dif_neg (show ¬ (1 : Fin 2) ∈ (rowScatter wf).scatterDimsToOperandDims from not_one_mem)]

theorem window0 (wf : ScatterDims.WF ⟨2, ![N, C]⟩ ⟨2, ![E, 1]⟩ ⟨2, ![E, C]⟩ [1] [0] [0] 1) (e : Fin E) (c : Fin C) :
    (rowScatter wf).window (ix2 e c) (0 : Fin 2) = 0 := by
  unfold ScatterDims.window
  rw [dif_neg (show ¬ (0 : Fin 2) ∈ (rowScatter wf).sKept from by simp [ScatterDims.sKept, Shape.kept, List.mem_filter, List.mem_finRange])]

theorem window1 (wf : ScatterDims.WF ⟨2, ![N, C]⟩ ⟨2, ![E, 1]⟩ ⟨2, ![E, C]⟩ [1] [0] [0] 1) (e : Fin E) (c : Fin C) :
    (rowScatter wf).window (ix2 e c) (1 : Fin 2) = c.val := by
  unfold ScatterDims.window
  rw [dif_pos (show (1 : Fin 2) ∈ (rowScatter wf).sKept from by simp [ScatterDims.sKept, Shape.kept, List.mem_filter, List.mem_finRange])]
  rfl

/-- Where an update element lands. -/
theorem lands_iff (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (c' : Fin C) :
    (rowScatter wf).resultIdx? (ix2 e c) idx = some (ix2 n c')
      ↔ (idx (ix2 e ⟨0, Nat.one_pos⟩)).toInt = (n.val : Int) ∧ c = c' := by
  unfold ScatterDims.resultIdx?
  have h0 := start0 wf idx e c
  have h1 := start1 wf idx e c
  have w0 := window0 wf e c
  have w1 := window1 wf e c
  constructor
  · intro h
    split at h
    · rename_i hall
      have hv := Option.some.inj h
      have e0 := congrArg (fun f => (f (0 : Fin 2) : Fin _).val) hv
      have e1 := congrArg (fun f => (f (1 : Fin 2) : Fin _).val) hv
      simp only [h0, h1, w0, w1] at e0 e1
      have hb := hall (0 : Fin 2)
      rw [h0, w0] at hb
      refine ⟨?_, Fin.ext ?_⟩
      · have : ((idx (ix2 e ⟨0, Nat.one_pos⟩)).toInt + ((0 : Nat) : Int)).toNat = n.val := e0
        omega
      · have : ((0 : Int) + ((c.val : Nat) : Int)).toNat = c'.val := e1
        omega
    · exact absurd h (by simp)
  · rintro ⟨hn, rfl⟩
    have hall : ∀ a : Fin 2, 0 ≤ (rowScatter wf).start (ix2 e c) idx a + (rowScatter wf).window (ix2 e c) a ∧
        (rowScatter wf).start (ix2 e c) idx a + (rowScatter wf).window (ix2 e c) a < (⟨2, ![N, C]⟩ : Shape).size a := by
      intro a
      match a with
      | ⟨0, _⟩ =>
        show 0 ≤ (rowScatter wf).start (ix2 e c) idx (0 : Fin 2) + (((rowScatter wf).window (ix2 e c) (0 : Fin 2) : Nat) : Int) ∧
          (rowScatter wf).start (ix2 e c) idx (0 : Fin 2) + (((rowScatter wf).window (ix2 e c) (0 : Fin 2) : Nat) : Int) < ((N : Nat) : Int)
        rw [h0, w0, hn]
        have := n.isLt
        omega
      | ⟨1, _⟩ =>
        show 0 ≤ (rowScatter wf).start (ix2 e c) idx (1 : Fin 2) + (((rowScatter wf).window (ix2 e c) (1 : Fin 2) : Nat) : Int) ∧
          (rowScatter wf).start (ix2 e c) idx (1 : Fin 2) + (((rowScatter wf).window (ix2 e c) (1 : Fin 2) : Nat) : Int) < ((C : Nat) : Int)
        rw [h1, w1]
        have := c.isLt
        omega
    rw [dif_pos hall]
    congr 1
    funext a
    refine Fin.ext ?_
    match a with
    | ⟨0, _⟩ =>
      show ((rowScatter wf).start (ix2 e c) idx (0 : Fin 2) + (rowScatter wf).window (ix2 e c) (0 : Fin 2)).toNat = n.val
      rw [h0, w0, hn]; omega
    | ⟨1, _⟩ =>
      show ((rowScatter wf).start (ix2 e c) idx (1 : Fin 2) + (rowScatter wf).window (ix2 e c) (1 : Fin 2)).toNat = c.val
      rw [h1, w1]; omega

/-- The sum over the update elements that land on (n, c') is the sum, over the rows whose word is n, of column c'. -/
theorem sum_lands {β : Type} [AddCommMonoid β]
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx → β) (n : Fin N) (c' : Fin C) :
    ∑ j ∈ Finset.univ.filter (fun j => (rowScatter wf).resultIdx? j idx = some (ix2 n c')), u j
      = ∑ e ∈ Finset.univ.filter (fun e : Fin E => (idx (ix2 e ⟨0, Nat.one_pos⟩)).toInt = (n.val : Int)), u (ix2 e c') := by
  symm
  refine Finset.sum_bij (fun e _ => ix2 e c') ?_ ?_ ?_ ?_
  · intro e he
    rw [Finset.mem_filter] at he ⊢
    exact ⟨Finset.mem_univ _, (lands_iff wf idx e c' n c').mpr ⟨he.2, rfl⟩⟩
  · intro e _ e' _ h
    have := congrFun h (0 : Fin 2)
    exact this
  · intro j hj
    rw [Finset.mem_filter] at hj
    rw [eq_ix2 j] at hj
    obtain ⟨hn, hc⟩ := (lands_iff wf idx (j 0) (j 1) n c').mp hj.2
    refine ⟨j 0, Finset.mem_filter.mpr ⟨Finset.mem_univ _, hn⟩, ?_⟩
    rw [← hc]; exact (eq_ix2 j).symm
  · intro e _; rfl

end Scatter

end Cert.Gat.Rows

end
-- ==== Proof.LibHitSet.lean ====
/-
  The scatter-add of the ideal instance, read at one element: the operand's element plus the sum of the updates that
  land on it.  The set of those updates is named once here so that the two programs' sums range over one set.
-/
import Idealize.ShloMosaic.PureOps.Ideal

noncomputable section

open scoped BigOperators

namespace Cert.Hits

open Idealize.ShloMosaic

/-- The updates that land on operand element i: those whose start word, read signed, plus window coordinate is i. -/
def hitSet {s si su : Shape} (d : ScatterDims s si su) {w : Nat} (idx : IVec si w) (i : s.Idx) : Finset su.Idx :=
  Finset.univ.filter (fun j => d.resultIdx? j idx = some i)

theorem mem_hitSet {s si su : Shape} (d : ScatterDims s si su) {w : Nat} (idx : IVec si w) (i : s.Idx) (j : su.Idx) :
    j ∈ hitSet d idx i ↔ d.resultIdx? j idx = some i := by
  unfold hitSet
  rw [Finset.mem_filter]
  exact ⟨fun h => h.2, fun h => ⟨Finset.mem_univ _, h⟩⟩

/-- The host's float scatter-add at element i. -/
theorem scatterAdd_at {s si su : Shape} (d : ScatterDims s si su) {w : Nat} (z : FVec Ideal s .f32) (idx : IVec si w)
    (u : FVec Ideal su .f32) (i : s.Idx) :
    Host.scatterAdd (F := Ideal) d z idx u i = z i + ∑ j ∈ hitSet d idx i, u j := rfl

end Cert.Hits

end
-- ==== Proof.GcnAlgebra.lean ====
/-
  The one algebraic law of a normalised graph convolution on the extended reals.

  A node's aggregate is a finite sum over the edges that end at it.  Scaling every message by the source's factor
  before the sum and the whole sum by the target's factor afterwards gives the same extended real as scaling every
  message by the product of the two factors, provided the target's factor is a nonnegative extended real other than
  +∞: multiplication by such a factor distributes over sums of arbitrary extended reals (infinite terms included),
  and the rest is commutativity and associativity of the product.  The factor in question is
  `if 0 < deg then rsqrt deg else 0`, which is such a number whatever `deg` is: `rsqrt` of a positive real is a
  positive real, and `rsqrt (+∞) = 0`.
-/
import Idealize.ShloMosaic.PureOps.Ideal

noncomputable section

open scoped BigOperators

namespace Cert.Gcn

open Idealize.ShloMosaic

/-- A nonnegative factor other than +∞ moves inside a finite sum of extended reals. -/
theorem sum_mul_of_nonneg_of_ne_top {ι : Type} (s : Finset ι) (a : ι → EReal) {c : EReal} (h0 : 0 ≤ c) (ht : c ≠ ⊤) :
    (∑ e ∈ s, a e) * c = ∑ e ∈ s, a e * c := by
  classical
  induction s using Finset.induction_on with
  | empty => simp
  | insert x s hx ih =>
    rw [Finset.sum_insert hx, Finset.sum_insert hx, EReal.right_distrib_of_nonneg_of_ne_top h0 ht, ih]

/-- Source factor inside and target factor outside the sum, against the product of the two factors on every
    message: `(0 + ∑ h·d) · c = 0 + ∑ (d·c)·h` when the target's factor is `c` on every edge of the sum. -/
theorem agg_scale {ι : Type} (s : Finset ι) (h d dc : ι → EReal) {c : EReal} (h0 : 0 ≤ c) (ht : c ≠ ⊤)
    (hdc : ∀ e ∈ s, dc e = c) :
    ((0 : EReal) + ∑ e ∈ s, h e * d e) * c = 0 + ∑ e ∈ s, (d e * dc e) * h e := by
  rw [zero_add, zero_add, sum_mul_of_nonneg_of_ne_top s _ h0 ht]
  refine Finset.sum_congr rfl fun e he => ?_
  rw [hdc e he, mul_comm (h e) (d e), mul_right_comm]

/-- The reciprocal square root of a positive extended real is a nonnegative real. -/
theorem rsqrt_ok {x : EReal} (hx : 0 < x) : 0 ≤ Ideal.rsqrt x ∧ Ideal.rsqrt x ≠ ⊤ := by
  induction x using EReal.rec with
  | bot => exact absurd hx (by simp)
  | top => exact ⟨by rw [Ideal.rsqrt_top], by rw [Ideal.rsqrt_top]; exact EReal.zero_ne_top⟩
  | coe r =>
    have hr : 0 < r := by exact_mod_cast hx
    rw [Ideal.rsqrt_coe, if_neg (not_lt.mpr hr.le), if_neg hr.ne']
    exact ⟨by exact_mod_cast inv_nonneg.mpr (Real.sqrt_nonneg r), EReal.coe_ne_top _⟩

/-- The normalisation factor `if 0 < deg then rsqrt deg else 0` is a nonnegative real for every `deg`. -/
theorem factor_ok (deg z z' : EReal) (hz : z = 0) (hz' : z' = 0) :
    0 ≤ Scalar.select (Ideal.cmp .ogt deg z) (Ideal.rsqrt deg) z'
      ∧ Scalar.select (Ideal.cmp .ogt deg z) (Ideal.rsqrt deg) z' ≠ ⊤ := by
  subst hz hz'
  unfold Scalar.select Ideal.cmp
  by_cases h : (0 : EReal) < deg
  · simp only [h, decide_true, BitVec.ofBool_true, if_true]
    exact rsqrt_ok h
  · simp only [h, decide_false, BitVec.ofBool_false]
    exact ⟨by simp, by simp⟩

end Cert.Gcn

end
-- ==== Proof.GcnLayer.lean ====
/-
  One layer's aggregation, read at a node n and a feature j, in the two arrangements of the normalisation.

  Rows are gathered from a [N, C] array by one start word per edge (read signed, clamped into [0, N − 1]) and
  scatter-added into a zero [N, C] array by one index word per edge (an edge lands on node n exactly when its word,
  read signed, is n).  In the first arrangement the gathered rows already carry the source node's factor and the
  aggregate is multiplied by the target node's factor; in the second every gathered row is multiplied by the product
  of the two factors before it is added.  The two agree when the target's factor is a nonnegative real, because the
  edges that land on n all have n as their target.
-/
import proofs.«135579_j32401233281333_2_alg».proof.Proof.LibRowOps
import proofs.«135579_j32401233281333_2_alg».proof.Proof.LibHitSet
import proofs.«135579_j32401233281333_2_alg».proof.Proof.GcnAlgebra

noncomputable section

open scoped BigOperators

namespace Cert.Gcn

open Idealize.ShloMosaic Idealize.ShloMosaic.ValueIdx Cert.Gat.Rows Cert.Hits

section
variable {N C E : Nat} (hN : 0 < N)
  (wfG : GatherDims.WF ⟨2, ![N, C]⟩ ⟨2, ![E, 1]⟩ ⟨2, ![E, C]⟩ [1] [0] [] [0] [] 1 ![1, C])
  (wfS : ScatterDims.WF ⟨2, ![N, C]⟩ ⟨2, ![E, 1]⟩ ⟨2, ![E, C]⟩ [1] [0] [0] 1)

/-- The node an edge's start word selects: the word read signed, clamped into the array. -/
def clampRow (idx : IVec ⟨2, ![E, 1]⟩ 32) (e : Fin E) : Fin N :=
  ⟨min (idx (ix2 e ⟨0, Nat.one_pos⟩)).toInt.toNat (N - 1), by omega⟩

/-- The edges whose index word, read signed, is n. -/
def landing (idx : IVec ⟨2, ![E, 1]⟩ 32) (n : Fin N) : Finset (Fin E) :=
  Finset.univ.filter (fun e => (idx (ix2 e ⟨0, Nat.one_pos⟩)).toInt = (n.val : Int))

/-- A row scatter-add at (n, c): the operand's entry plus the sum of column c over the edges landing on n. -/
theorem scatter_at (z : FVec Ideal ⟨2, ![N, C]⟩ .f32) (idx : IVec ⟨2, ![E, 1]⟩ 32) (u : FVec Ideal ⟨2, ![E, C]⟩ .f32)
    (n : Fin N) (c : Fin C) :
    Host.scatterAdd (F := Ideal) (rowScatter wfS) z idx u (ix2 n c) = z (ix2 n c) + ∑ e ∈ landing idx n, u (ix2 e c) := by
  rw [scatterAdd_at]
  unfold hitSet landing
  rw [sum_lands wfS idx u n c]

/-- The two arrangements of one layer's aggregation agree at (n, j). -/
theorem agg_bridge (zk zr : FVec Ideal ⟨2, ![N, C]⟩ .f32) (rowW colW : IVec ⟨2, ![E, 1]⟩ 32)
    (Hs : FVec Ideal ⟨2, ![N, C]⟩ .f32) (M : FVec Ideal ⟨2, ![E, C]⟩ .f32) (n : Fin N) (j : Fin C)
    (h d : Fin N → EReal) (dc : Fin E → EReal)
    (hzk : zk (ix2 n j) = 0) (hzr : zr (ix2 n j) = 0)
    (hHs : ∀ r : Fin N, Hs (ix2 r j) = h r * d r)
    (hM : ∀ e : Fin E, M (ix2 e j) = (d (clampRow hN rowW e) * dc e) * h (clampRow hN rowW e))
    (hdc : ∀ e ∈ landing colW n, dc e = d n)
    (h0 : 0 ≤ d n) (ht : d n ≠ ⊤) :
    Host.scatterAdd (F := Ideal) (rowScatter wfS) zk colW (Host.gather (rowDims wfG) Hs rowW) (ix2 n j) * d n
      = Host.scatterAdd (F := Ideal) (rowScatter wfS) zr colW M (ix2 n j) := by
  rw [scatter_at, scatter_at, hzk, hzr]
  have e1 : ∀ e ∈ landing colW n, Host.gather (rowDims wfG) Hs rowW (ix2 e j)
      = h (clampRow hN rowW e) * d (clampRow hN rowW e) := fun e _ => by
    rw [gather_row_apply hN wfG Hs rowW e j]
    exact hHs _
  rw [Finset.sum_congr rfl e1, Finset.sum_congr rfl (fun e _ => hM e)]
  exact agg_scale (landing colW n) (fun e => h (clampRow hN rowW e)) (fun e => d (clampRow hN rowW e)) dc h0 ht hdc

/-! ## The index words of an edge that lands on a node -/

/-- A word whose signed reading is a node number is not negative, so adding the node count to negative words
    leaves it as it is. -/
theorem norm_word (x : BitVec 32) (k : BitVec 32) (n : Nat) (hx : x.toInt = (n : Int)) :
    Scalar.select (IntOp.cmpi .slt x 0#32) (IntOp.addi x k) x = x := by
  unfold Scalar.select
  rw [if_neg]
  intro h
  have h' : BitVec.ofBool (x.slt 0#32) = 1#1 := h
  have hs : x.slt 0#32 = true := by
    cases hb : x.slt 0#32 with
    | true => rfl
    | false => rw [hb] at h'; exact absurd h' (by decide)
  rw [BitVec.slt_iff_toInt_lt] at hs
  have h0 : (0#32 : BitVec 32).toInt = 0 := by decide
  omega

/-- The signed reading of such a word, clamped into the array, is the node. -/
theorem clamp_word (x : BitVec 32) (N n : Nat) (hn : n < N) (hx : x.toInt = (n : Int)) :
    min x.toInt.toNat (N - 1) = n := by
  rw [hx]
  simp only [Int.toNat_natCast]
  omega

end

end Cert.Gcn

end
-- ==== Proof.LibVecGather.lean ====
/-
  A gather of single entries from a one-axis array, read at one element.

  Operand [N], one start word per result element (start indices [E, 1]), result [E].  Result element e is the
  operand at the start word of e read signed and clamped into [0, N − 1].
-/
import Idealize.ShloMosaic.PureOps.Ideal
import Idealize.ShloMosaic.Lib.ValueIdx

noncomputable section

namespace Cert.Gat.Vec

open Idealize.ShloMosaic Idealize.ShloMosaic.ValueIdx

variable {α : Type} {N E w : Nat}

/-- The dimension numbers of an entry gather from a one-axis array. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The operand entry a result element reads: the clamped start word. -/
theorem opIdx (wf : GatherDims.WF ⟨1, ![N]⟩ ⟨2, ![E, 1]⟩ ⟨1, ![E]⟩ [] [0] [] [0] [] 1 ![1])
    (idx : IVec ⟨2, ![E, 1]⟩ w) (e : Fin E) :
    (vecDims wf).start (ix1 e) idx (0 : Fin 1) + (vecDims wf).batchCoord (ix1 e) (0 : Fin 1) + (vecDims wf).offCoord (ix1 e) (0 : Fin 1)
      = min (idx (ix2 e ⟨0, Nat.one_pos⟩)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims wf).startIndexMap from List.mem_singleton.mpr rfl)]
  have hsi : (vecDims wf).siIdx (ix1 e) ⟨List.idxOf (0 : Fin 1) (vecDims wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- An entry gather at e: the operand at the clamped start word of e. -/
theorem gather_vec_apply (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims wf) x idx (ix1 e)
      = x (ix1 ⟨min (idx (ix2 e ⟨0, Nat.one_pos⟩)).toInt.toNat (N - 1), by omega⟩) := by
  unfold Host.gather
  congr 1
  funext a
  refine Fin.ext ?_
  match a with
  | ⟨0, _⟩ => exact opIdx wf idx e

end Cert.Gat.Vec

end
-- ==== Proof.Bridge.lean ====
/-
  The reference's three layers are the kernel program's arrangement of them, as whole arrays of extended reals.

  Both programs derive the edge lists (sources, targets, one self-loop per node) and the per-node factor from the
  edge array by the same operations, so those are carried as the same terms and never opened, except to see that the
  factor is a nonnegative real (a selection between the reciprocal square root of a positive number and zero) and
  that the reference's "negative index plus node count" adjustment leaves the target word of an edge that lands on
  a node as it is.  Per layer, at a node n and a feature j: the reference's scatter-add of messages scaled by the
  product of the two factors is the kernel program's aggregate of pre-scaled rows times the target's factor
  (`core`, from the abstract statement in GcnLayer); the bias, running mean, running variance plus ε under the
  reciprocal square root, scale, shift and rectifier then act on equal numbers, read from the same rows of the
  same parameter arrays; and the residual adds the previous layer's arrays, equal by the previous layer's theorem.
-/
import proofs.«135579_j32401233281333_2_alg».proof.Proof.ReadP
import proofs.«135579_j32401233281333_2_alg».proof.Proof.KernelHost
import proofs.«135579_j32401233281333_2_alg».proof.Proof.GcnSpec
import proofs.«135579_j32401233281333_2_alg».proof.Proof.GcnLayer
import proofs.«135579_j32401233281333_2_alg».proof.Proof.LibVecGather
import proofs.«135579_j32401233281333_2_alg».proof.Proof.LibPlainDot
import Idealize.ShloMosaic.Lib.Pipeline.Value
import Idealize.ShloMosaic.Lib.ValueIdx

set_option maxRecDepth 8192

noncomputable section

open scoped BigOperators

namespace Cert.Bridge

open Idealize.ShloMosaic Idealize.ShloMosaic.ValueIdx Cert.ReferenceIdeal Cert.ReferenceIdeal.ReadP

/-! ## Index plumbing shared by the three layers -/

section
variable (e : (⟨S2x1000000, .i32⟩ : BufTy).Contents (Elt Ideal))

theorem v20_eq : val_main_v20 (F := Ideal) e = Cert.KernelIdeal.Host.normRow (F := Ideal) (Cert.KernelIdeal.Host.rowOf e) := rfl
theorem v37_eq : val_main_v37 (F := Ideal) e = Cert.KernelIdeal.Host.normRow (F := Ideal) (Cert.KernelIdeal.Host.rowOf e) := rfl
theorem v42_eq : val_main_v42 (F := Ideal) e = Cert.KernelIdeal.Host.colWords (F := Ideal) (Cert.KernelIdeal.Host.colOf e) := rfl
theorem v41_eq : val_main_v41 (F := Ideal) = Cert.KernelIdeal.Host.zeros64 (F := Ideal) := rfl
theorem v14_eq : val_main_v14 (F := Ideal) e = Cert.KernelIdeal.Host.dinvOf (F := Ideal) e := rfl

/-- The factor column [N, 1] reads, at (r, 0), the factor vector's entry r. -/
theorem dinv2_apply (r : Fin 100000) :
    Cert.KernelIdeal.Host.dinv2Of (F := Ideal) e (ix2 r ⟨0, Nat.one_pos⟩) = val_main_v14 (F := Ideal) e (ix1 r) := by
  rw [v14_eq]
  unfold Cert.KernelIdeal.Host.dinv2Of
  exact broadcastInDim_apply _ _ _ (ix2 r ⟨0, Nat.one_pos⟩) (ix1 r) (fun a => by
    match a with
    | ⟨0, _⟩ => show r.val = if (100000 : Nat) = 1 then 0 else r.val; rw [if_neg (by decide)])

/-- The zero array reads zero. -/
theorem zeros_apply (i : S100000x64.Idx) : Cert.KernelIdeal.Host.zeros64 (F := Ideal) i = 0 := by
  unfold Cert.KernelIdeal.Host.zeros64
  rw [broadcastInDim_apply _ _ _ i ix0 (fun a => a.elim0)]
  exact Ideal.ofBits_zero_f32

/-- The scatter's index words [E, 1] read, at (e', 0), the target vector's entry e'. -/
theorem colWords_apply (e' : Fin 1100000) :
    Cert.KernelIdeal.Host.colWords (F := Ideal) (Cert.KernelIdeal.Host.colOf e) (ix2 e' ⟨0, Nat.one_pos⟩) = val_main_v6 (F := Ideal) e (ix1 e') := by
  unfold Cert.KernelIdeal.Host.colWords
  exact broadcastInDim_apply _ _ _ (ix2 e' ⟨0, Nat.one_pos⟩) (ix1 e') (fun a => by
    match a with
    | ⟨0, _⟩ => show e'.val = if (1100000 : Nat) = 1 then 0 else e'.val; rw [if_neg (by decide)])

/-- The normalisation factor of a node is a nonnegative real. -/
theorem factor_node (n : Fin 100000) :
    0 ≤ Cert.KernelIdeal.Host.dinv2Of (F := Ideal) e (ix2 n ⟨0, Nat.one_pos⟩) ∧ Cert.KernelIdeal.Host.dinv2Of (F := Ideal) e (ix2 n ⟨0, Nat.one_pos⟩) ≠ ⊤ := by
  rw [dinv2_apply, val_main_v14_apply, val_main_v12_apply, val_main_v13_apply, Ideal.cmpf_def, Ideal.hostUnary_rsqrt_def]
  refine Cert.Gcn.factor_ok _ _ _ ?_ ?_
  · rw [val_main_v11_apply]; exact Ideal.ofBits_zero_f32
  · rw [val_main_call0_v1_apply]; exact Ideal.ofBits_zero_f32

/-- The factor gathered at an edge's normalised target word is the target node's, for an edge that lands on n. -/
theorem target_factor (n : Fin 100000) (e' : Fin 1100000)
    (he' : e' ∈ Cert.Gcn.landing (N := 100000) (Cert.KernelIdeal.Host.colWords (F := Ideal) (Cert.KernelIdeal.Host.colOf e)) n) :
    val_main_v28 (F := Ideal) e (ix1 e') = Cert.KernelIdeal.Host.dinv2Of (F := Ideal) e (ix2 n ⟨0, Nat.one_pos⟩) := by
  have hw : (Cert.KernelIdeal.Host.colWords (F := Ideal) (Cert.KernelIdeal.Host.colOf e) (ix2 e' ⟨0, Nat.one_pos⟩)).toInt = (n.val : Int) :=
    (Finset.mem_filter.mp he').2
  rw [colWords_apply] at hw
  have h27 : val_main_v27 (F := Ideal) e (ix2 e' ⟨0, Nat.one_pos⟩) = val_main_v6 (F := Ideal) e (ix1 e') := by
    rw [val_main_v27_apply]
    have hi : idx_main_v27 (ix2 e' ⟨0, Nat.one_pos⟩) = ix1 e' := funext fun a => by match a with | ⟨0, _⟩ => rfl
    rw [hi, val_main_v26_apply, val_main_v23_apply, val_main_v25_apply, val_main_v22_apply]
    exact Cert.Gcn.norm_word _ _ n.val hw
  rw [dinv2_apply]
  unfold val_main_v28
  refine (Cert.Gat.Vec.gather_vec_apply (N := 100000) (E := 1100000) (by decide) Facts₀.gather_S100000_S1100000x1_S1100000_n_0_n_n_0_1_1_wf
    (val_main_v14 (F := Ideal) e) (val_main_v27 (F := Ideal) e) e').trans ?_
  refine congrArg _ (congrArg ix1 (Fin.ext ?_))
  show min (val_main_v27 (F := Ideal) e (ix2 e' ⟨0, Nat.one_pos⟩)).toInt.toNat (100000 - 1) = n.val
  rw [h27]
  exact Cert.Gcn.clamp_word _ 100000 n.val n.isLt hw

/-- One layer's aggregation in the two arrangements: the kernel program's aggregate times the target's factor is
    the reference's scatter-add of the messages scaled by the product of the two factors. `H` is the layer's
    feature-transform array, `X · Wt`. -/
theorem core (K : Nat) (X : (⟨2, ![100000, K]⟩ : Shape).Idx → EReal) (Wt : (⟨2, ![K, 64]⟩ : Shape).Idx → EReal)
    (H : (⟨S100000x64, .f32⟩ : BufTy).Contents (Elt Ideal))
    (hH : ∀ (r : Fin 100000) (j : Fin 64), H (ix2 r j) = ∑ k : Fin K, X (ix2 r k) * Wt (ix2 k j))
    (n : Fin 100000) (j : Fin 64) :
    Cert.KernelIdeal.Host.aggOf (F := Ideal) (Cert.Gcn.mmScale K X Wt (Cert.KernelIdeal.Host.dinv2Of e)) (Cert.KernelIdeal.Host.rowOf e) (Cert.KernelIdeal.Host.colOf e) (ix2 n j)
        * Cert.KernelIdeal.Host.dinv2Of (F := Ideal) e (ix2 n ⟨0, Nat.one_pos⟩)
      = Host.scatterAdd (F := Ideal) (φ := .f32) scatter_S100000x64_S1100000x1_S1100000x64_1_0_0_1 (val_main_v41 (F := Ideal)) (val_main_v42 e)
          (mulf (F := Ideal) (φ := .f32) (val_main_v39 e) (Host.gather (α := Elt Ideal .f32) gather_S100000x64_S1100000x1_S1100000x64_1_0_n_n_0_1_164 H (val_main_v37 e))) (ix2 n j) := by
  rw [v41_eq, v42_eq, v37_eq]
  refine Cert.Gcn.agg_bridge (N := 100000) (C := 64) (E := 1100000) (by decide)
    Facts₀.gather_S100000x64_S1100000x1_S1100000x64_1_0_n_n_0_1_164_wf Facts₀.scatter_S100000x64_S1100000x1_S1100000x64_1_0_0_1_wf
    (Cert.KernelIdeal.Host.zeros64 (F := Ideal)) (Cert.KernelIdeal.Host.zeros64 (F := Ideal)) (Cert.KernelIdeal.Host.normRow (F := Ideal) (Cert.KernelIdeal.Host.rowOf e)) (Cert.KernelIdeal.Host.colWords (F := Ideal) (Cert.KernelIdeal.Host.colOf e))
    (Cert.Gcn.mmScale K X Wt (Cert.KernelIdeal.Host.dinv2Of e)) _ n j
    (fun r => ∑ k : Fin K, X (ix2 r k) * Wt (ix2 k j)) (fun r => Cert.KernelIdeal.Host.dinv2Of (F := Ideal) e (ix2 r ⟨0, Nat.one_pos⟩))
    (fun e' => val_main_v28 (F := Ideal) e (ix1 e'))
    (zeros_apply _) (zeros_apply _) (fun r => rfl) ?_ (fun e' he' => target_factor e n e' he') (factor_node e n).1 (factor_node e n).2
  intro e'
  rw [mulf_apply]
  have hg : Host.gather (α := Elt Ideal .f32) gather_S100000x64_S1100000x1_S1100000x64_1_0_n_n_0_1_164 H (Cert.KernelIdeal.Host.normRow (F := Ideal) (Cert.KernelIdeal.Host.rowOf e)) (ix2 e' j)
      = H (ix2 (Cert.Gcn.clampRow (N := 100000) (by decide) (Cert.KernelIdeal.Host.normRow (F := Ideal) (Cert.KernelIdeal.Host.rowOf e)) e') j) :=
    Cert.Gat.Rows.gather_row_apply (N := 100000) (C := 64) (E := 1100000) (by decide) Facts₀.gather_S100000x64_S1100000x1_S1100000x64_1_0_n_n_0_1_164_wf H _ e' j
  rw [hg, hH]
  have h39 : val_main_v39 (F := Ideal) e (ix2 e' j) = val_main_v21 (F := Ideal) e (ix1 e') * val_main_v28 (F := Ideal) e (ix1 e') := by
    rw [val_main_v39_apply, val_main_v30_apply, val_main_v29_apply]
    have hi : idx_main_v30 (idx_main_v39 (ix2 e' j)) = ix1 e' := funext fun a => by match a with | ⟨0, _⟩ => rfl
    rw [hi]
    rfl
  have h21 : val_main_v21 (F := Ideal) e (ix1 e')
      = Cert.KernelIdeal.Host.dinv2Of (F := Ideal) e (ix2 (Cert.Gcn.clampRow (N := 100000) (by decide) (Cert.KernelIdeal.Host.normRow (F := Ideal) (Cert.KernelIdeal.Host.rowOf e)) e') ⟨0, Nat.one_pos⟩) := by
    rw [dinv2_apply]
    unfold val_main_v21
    rw [v20_eq]
    exact Cert.Gat.Vec.gather_vec_apply (N := 100000) (E := 1100000) (by decide) Facts₀.gather_S100000_S1100000x1_S1100000_n_0_n_n_0_1_1_wf (val_main_v14 (F := Ideal) e) _ e'
  rw [h39, h21]
end

/-! ## The parameter rows and the normalisation chain -/

/-- A row [1, 64] spread over the 100000 nodes reads, at (n, j), the row's entry j. -/
theorem rowRead {α : Type} (R : S1x64.Idx → α) (n : Fin 100000) (j : Fin 64) :
    broadcastInDim S100000x64 ![0, 1] Facts₀.bcast_S1x64_S100000x64_0_1 R (ix2 n j) = R (ix2 ⟨0, Nat.one_pos⟩ j) :=
  broadcastInDim_apply _ _ R (ix2 n j) (ix2 ⟨0, Nat.one_pos⟩ j) (fun a => by
    match a with
    | ⟨0, _⟩ => show (0 : Nat) = if (1 : Nat) = 1 then 0 else n.val; rw [if_pos rfl]
    | ⟨1, _⟩ => show j.val = if (64 : Nat) = 1 then 0 else j.val; rw [if_neg (by decide)])

/-- A vector [64] laid out as a row [1, 64] reads, at (0, j), the vector's entry j. -/
theorem vecRow {α : Type} (v : S64.Idx → α) (j : Fin 64) :
    broadcastInDim S1x64 ![1] Facts₀.bcast_S64_S1x64_1 v (ix2 ⟨0, Nat.one_pos⟩ j) = v (ix1 j) :=
  broadcastInDim_apply _ _ v (ix2 ⟨0, Nat.one_pos⟩ j) (ix1 j) (fun a => by
    match a with
    | ⟨0, _⟩ => show j.val = if (64 : Nat) = 1 then 0 else j.val; rw [if_neg (by decide)])

/-- The normalisation chain written over the aggregate already multiplied by the target's factor. -/
theorem bnEntry_of_scaled (a d s b μ v γ β : EReal) (h : a * d = s) :
    Cert.Gcn.bnEntry a d b μ v γ β
      = max (((((s + b) - μ) * Ideal.rsqrt (v + Ideal.ofBits .f32 0x3727C5AC#32)) * γ) + β) (Ideal.ofBits .f32 0x00000000#32) := by
  unfold Cert.Gcn.bnEntry
  rw [h]

/-! ## The three layers as the kernel program arranges them -/

section
variable (x0 : (⟨S100000x37, .f32⟩ : BufTy).Contents (Elt Ideal)) (e : (⟨S2x1000000, .i32⟩ : BufTy).Contents (Elt Ideal))
  (w1 : (⟨S37x64, .f32⟩ : BufTy).Contents (Elt Ideal)) (w2 w3 : (⟨S64x64, .f32⟩ : BufTy).Contents (Elt Ideal))
  (p5 p6 p7 p8 p9 : (⟨S3x64, .f32⟩ : BufTy).Contents (Elt Ideal))

/-- The first layer: no residual (37 features in, 64 out). -/
def L1 : (⟨S100000x64, .f32⟩ : BufTy).Contents (Elt Ideal) :=
  Cert.Gcn.bnAct (Cert.KernelIdeal.Host.aggOf (F := Ideal) (Cert.Gcn.mmScale 37 x0 w1 (Cert.KernelIdeal.Host.dinv2Of e)) (Cert.KernelIdeal.Host.rowOf e) (Cert.KernelIdeal.Host.colOf e)) (Cert.KernelIdeal.Host.dinv2Of e)
    (Cert.KernelIdeal.Host.prm0 p5) (Cert.KernelIdeal.Host.prm0 p8) (Cert.KernelIdeal.Host.prm0 p9) (Cert.KernelIdeal.Host.prm0 p6) (Cert.KernelIdeal.Host.prm0 p7)

/-- The second layer, added to the first layer's output. -/
def L2 : (⟨S100000x64, .f32⟩ : BufTy).Contents (Elt Ideal) :=
  Cert.Gcn.bnActRes (Cert.KernelIdeal.Host.aggOf (F := Ideal) (Cert.Gcn.mmScale 64 (L1 x0 e w1 p5 p6 p7 p8 p9) w2 (Cert.KernelIdeal.Host.dinv2Of e)) (Cert.KernelIdeal.Host.rowOf e) (Cert.KernelIdeal.Host.colOf e)) (Cert.KernelIdeal.Host.dinv2Of e)
    (Cert.KernelIdeal.Host.prm1 p5) (Cert.KernelIdeal.Host.prm1 p8) (Cert.KernelIdeal.Host.prm1 p9) (Cert.KernelIdeal.Host.prm1 p6) (Cert.KernelIdeal.Host.prm1 p7) (L1 x0 e w1 p5 p6 p7 p8 p9)

/-- The third layer, added to the second layer's output. -/
def L3 : (⟨S100000x64, .f32⟩ : BufTy).Contents (Elt Ideal) :=
  Cert.Gcn.bnActRes (Cert.KernelIdeal.Host.aggOf (F := Ideal) (Cert.Gcn.mmScale 64 (L2 x0 e w1 w2 p5 p6 p7 p8 p9) w3 (Cert.KernelIdeal.Host.dinv2Of e)) (Cert.KernelIdeal.Host.rowOf e) (Cert.KernelIdeal.Host.colOf e)) (Cert.KernelIdeal.Host.dinv2Of e)
    (Cert.KernelIdeal.Host.prm2 p5) (Cert.KernelIdeal.Host.prm2 p8) (Cert.KernelIdeal.Host.prm2 p9) (Cert.KernelIdeal.Host.prm2 p6) (Cert.KernelIdeal.Host.prm2 p7) (L2 x0 e w1 w2 p5 p6 p7 p8 p9)

/-- The reference's first layer is the kernel program's arrangement of it. -/
theorem refL1 : val_main_v72 (F := Ideal) x0 e w1 p5 p6 p7 p8 p9 = L1 x0 e w1 p5 p6 p7 p8 p9 := by
  funext i
  obtain ⟨n, j, rfl⟩ : ∃ (n : Fin 100000) (j : Fin 64), i = ix2 n j := ⟨i 0, i 1, eq_ix2 i⟩
  rw [val_main_v72_apply, val_main_v71_apply, val_main_v66_apply, val_main_v61_apply, val_main_v53_apply, val_main_v48_apply]
  have hb : val_main_v47 (F := Ideal) p5 (ix2 n j) = Cert.KernelIdeal.Host.prm0 (F := Ideal) p5 (ix2 ⟨0, Nat.one_pos⟩ j) := rowRead (val_main_v46 (F := Ideal) p5) n j
  have hm : val_main_v52 (F := Ideal) p8 (ix2 n j) = Cert.KernelIdeal.Host.prm0 (F := Ideal) p8 (ix2 ⟨0, Nat.one_pos⟩ j) := rowRead (val_main_v51 (F := Ideal) p8) n j
  have hg : val_main_v65 (F := Ideal) p6 (ix2 n j) = Cert.KernelIdeal.Host.prm0 (F := Ideal) p6 (ix2 ⟨0, Nat.one_pos⟩ j) := rowRead (val_main_v64 (F := Ideal) p6) n j
  have hbe : val_main_v70 (F := Ideal) p7 (ix2 n j) = Cert.KernelIdeal.Host.prm0 (F := Ideal) p7 (ix2 ⟨0, Nat.one_pos⟩ j) := rowRead (val_main_v69 (F := Ideal) p7) n j
  have hr : val_main_v60 (F := Ideal) p9 (ix2 n j)
      = Ideal.rsqrt (Cert.KernelIdeal.Host.prm0 (F := Ideal) p9 (ix2 ⟨0, Nat.one_pos⟩ j) + Ideal.ofBits .f32 0x3727C5AC#32) := by
    have h1 : val_main_v60 (F := Ideal) p9 (ix2 n j) = val_main_v59 (F := Ideal) p9 (ix2 ⟨0, Nat.one_pos⟩ j) := rowRead (val_main_v59 (F := Ideal) p9) n j
    have h2 : val_main_v59 (F := Ideal) p9 (ix2 ⟨0, Nat.one_pos⟩ j) = val_main_v58 (F := Ideal) p9 (ix1 j) := vecRow (val_main_v58 (F := Ideal) p9) j
    have h3 : Cert.KernelIdeal.Host.prm0 (F := Ideal) p9 (ix2 ⟨0, Nat.one_pos⟩ j) = val_main_v55 (F := Ideal) p9 (ix1 j) := vecRow (val_main_v55 (F := Ideal) p9) j
    rw [h1, h2, h3, val_main_v58_apply, val_main_v57_apply, val_main_v56_apply]
    rfl
  have hz : val_main_call1_v0 (F := Ideal) (ix2 n j) = Ideal.ofBits .f32 0x00000000#32 := by
    rw [val_main_call1_v0_apply]; rfl
  rw [hb, hm, hg, hbe, hr, hz]
  have hH : ∀ (r : Fin 100000) (c : Fin 64), val_main_v31 (F := Ideal) x0 w1 (ix2 r c)
      = ∑ k : Fin 37, x0 (ix2 r k) * w1 (ix2 k c) := fun r c => by
    rw [val_main_v31_apply]

    refine Finset.sum_congr rfl fun k _ => ?_
    have hl : lidx_main_v31 (ix2 r c) k = ix2 r k := funext fun a => by match a with | ⟨0, _⟩ => rfl | ⟨1, _⟩ => rfl
    have hr' : ridx_main_v31 (ix2 r c) k = ix2 k c := funext fun a => by match a with | ⟨0, _⟩ => rfl | ⟨1, _⟩ => rfl
    rw [hl, hr']
  have hs : Cert.KernelIdeal.Host.aggOf (F := Ideal) (Cert.Gcn.mmScale 37 x0 w1 (Cert.KernelIdeal.Host.dinv2Of e)) (Cert.KernelIdeal.Host.rowOf e) (Cert.KernelIdeal.Host.colOf e) (ix2 n j)
        * Cert.KernelIdeal.Host.dinv2Of (F := Ideal) e (ix2 n ⟨0, Nat.one_pos⟩)
      = val_main_v43 (F := Ideal) x0 e w1 (ix2 n j) :=
    core e 37 x0 w1 (val_main_v31 (F := Ideal) x0 w1) hH n j
  have hE := bnEntry_of_scaled (Cert.KernelIdeal.Host.aggOf (F := Ideal) (Cert.Gcn.mmScale 37 x0 w1 (Cert.KernelIdeal.Host.dinv2Of e)) (Cert.KernelIdeal.Host.rowOf e) (Cert.KernelIdeal.Host.colOf e) (ix2 n j)) (Cert.KernelIdeal.Host.dinv2Of (F := Ideal) e (ix2 n ⟨0, Nat.one_pos⟩))
    (val_main_v43 (F := Ideal) x0 e w1 (ix2 n j))
    (Cert.KernelIdeal.Host.prm0 (F := Ideal) p5 (ix2 ⟨0, Nat.one_pos⟩ j)) (Cert.KernelIdeal.Host.prm0 (F := Ideal) p8 (ix2 ⟨0, Nat.one_pos⟩ j))
    (Cert.KernelIdeal.Host.prm0 (F := Ideal) p9 (ix2 ⟨0, Nat.one_pos⟩ j)) (Cert.KernelIdeal.Host.prm0 (F := Ideal) p6 (ix2 ⟨0, Nat.one_pos⟩ j))
    (Cert.KernelIdeal.Host.prm0 (F := Ideal) p7 (ix2 ⟨0, Nat.one_pos⟩ j)) hs
  exact hE.symm

/-- The reference's second layer is the kernel program's arrangement of it. -/
theorem refL2 : val_main_v115 (F := Ideal) x0 e w1 w2 p5 p6 p7 p8 p9 = L2 x0 e w1 w2 p5 p6 p7 p8 p9 := by
  funext i
  obtain ⟨n, j, rfl⟩ : ∃ (n : Fin 100000) (j : Fin 64), i = ix2 n j := ⟨i 0, i 1, eq_ix2 i⟩
  rw [val_main_v115_apply]
  rw [val_main_v114_apply, val_main_v113_apply, val_main_v108_apply, val_main_v103_apply, val_main_v95_apply, val_main_v90_apply]
  have hb : val_main_v89 (F := Ideal) p5 (ix2 n j) = Cert.KernelIdeal.Host.prm1 (F := Ideal) p5 (ix2 ⟨0, Nat.one_pos⟩ j) := rowRead (val_main_v88 (F := Ideal) p5) n j
  have hm : val_main_v94 (F := Ideal) p8 (ix2 n j) = Cert.KernelIdeal.Host.prm1 (F := Ideal) p8 (ix2 ⟨0, Nat.one_pos⟩ j) := rowRead (val_main_v93 (F := Ideal) p8) n j
  have hg : val_main_v107 (F := Ideal) p6 (ix2 n j) = Cert.KernelIdeal.Host.prm1 (F := Ideal) p6 (ix2 ⟨0, Nat.one_pos⟩ j) := rowRead (val_main_v106 (F := Ideal) p6) n j
  have hbe : val_main_v112 (F := Ideal) p7 (ix2 n j) = Cert.KernelIdeal.Host.prm1 (F := Ideal) p7 (ix2 ⟨0, Nat.one_pos⟩ j) := rowRead (val_main_v111 (F := Ideal) p7) n j
  have hr : val_main_v102 (F := Ideal) p9 (ix2 n j)
      = Ideal.rsqrt (Cert.KernelIdeal.Host.prm1 (F := Ideal) p9 (ix2 ⟨0, Nat.one_pos⟩ j) + Ideal.ofBits .f32 0x3727C5AC#32) := by
    have h1 : val_main_v102 (F := Ideal) p9 (ix2 n j) = val_main_v101 (F := Ideal) p9 (ix2 ⟨0, Nat.one_pos⟩ j) := rowRead (val_main_v101 (F := Ideal) p9) n j
    have h2 : val_main_v101 (F := Ideal) p9 (ix2 ⟨0, Nat.one_pos⟩ j) = val_main_v100 (F := Ideal) p9 (ix1 j) := vecRow (val_main_v100 (F := Ideal) p9) j
    have h3 : Cert.KernelIdeal.Host.prm1 (F := Ideal) p9 (ix2 ⟨0, Nat.one_pos⟩ j) = val_main_v97 (F := Ideal) p9 (ix1 j) := vecRow (val_main_v97 (F := Ideal) p9) j
    rw [h1, h2, h3, val_main_v100_apply, val_main_v99_apply, val_main_v98_apply]
    rfl
  have hz : val_main_call2_v0 (F := Ideal) (ix2 n j) = Ideal.ofBits .f32 0x00000000#32 := by
    rw [val_main_call2_v0_apply]; rfl
  rw [hb, hm, hg, hbe, hr, hz]
  have hH : ∀ (r : Fin 100000) (c : Fin 64), val_main_v73 (F := Ideal) x0 e w1 w2 p5 p6 p7 p8 p9 (ix2 r c)
      = ∑ k : Fin 64, (L1 x0 e w1 p5 p6 p7 p8 p9) (ix2 r k) * w2 (ix2 k c) := fun r c => by
    rw [val_main_v73_apply]
    rw [refL1]
    refine Finset.sum_congr rfl fun k _ => ?_
    have hl : lidx_main_v73 (ix2 r c) k = ix2 r k := funext fun a => by match a with | ⟨0, _⟩ => rfl | ⟨1, _⟩ => rfl
    have hr' : ridx_main_v73 (ix2 r c) k = ix2 k c := funext fun a => by match a with | ⟨0, _⟩ => rfl | ⟨1, _⟩ => rfl
    rw [hl, hr']
  have hs : Cert.KernelIdeal.Host.aggOf (F := Ideal) (Cert.Gcn.mmScale 64 (L1 x0 e w1 p5 p6 p7 p8 p9) w2 (Cert.KernelIdeal.Host.dinv2Of e)) (Cert.KernelIdeal.Host.rowOf e) (Cert.KernelIdeal.Host.colOf e) (ix2 n j)
        * Cert.KernelIdeal.Host.dinv2Of (F := Ideal) e (ix2 n ⟨0, Nat.one_pos⟩)
      = val_main_v85 (F := Ideal) x0 e w1 w2 p5 p6 p7 p8 p9 (ix2 n j) :=
    core e 64 (L1 x0 e w1 p5 p6 p7 p8 p9) w2 (val_main_v73 (F := Ideal) x0 e w1 w2 p5 p6 p7 p8 p9) hH n j
  have hE := bnEntry_of_scaled (Cert.KernelIdeal.Host.aggOf (F := Ideal) (Cert.Gcn.mmScale 64 (L1 x0 e w1 p5 p6 p7 p8 p9) w2 (Cert.KernelIdeal.Host.dinv2Of e)) (Cert.KernelIdeal.Host.rowOf e) (Cert.KernelIdeal.Host.colOf e) (ix2 n j)) (Cert.KernelIdeal.Host.dinv2Of (F := Ideal) e (ix2 n ⟨0, Nat.one_pos⟩))
    (val_main_v85 (F := Ideal) x0 e w1 w2 p5 p6 p7 p8 p9 (ix2 n j))
    (Cert.KernelIdeal.Host.prm1 (F := Ideal) p5 (ix2 ⟨0, Nat.one_pos⟩ j)) (Cert.KernelIdeal.Host.prm1 (F := Ideal) p8 (ix2 ⟨0, Nat.one_pos⟩ j))
    (Cert.KernelIdeal.Host.prm1 (F := Ideal) p9 (ix2 ⟨0, Nat.one_pos⟩ j)) (Cert.KernelIdeal.Host.prm1 (F := Ideal) p6 (ix2 ⟨0, Nat.one_pos⟩ j))
    (Cert.KernelIdeal.Host.prm1 (F := Ideal) p7 (ix2 ⟨0, Nat.one_pos⟩ j)) hs
  rw [refL1]
  exact congrArg (fun z : EReal => (L1 x0 e w1 p5 p6 p7 p8 p9) (ix2 n j) + z) hE.symm

/-- The reference's third layer is the kernel program's arrangement of it. -/
theorem refL3 : val_main_v158 (F := Ideal) x0 e w1 w2 w3 p5 p6 p7 p8 p9 = L3 x0 e w1 w2 w3 p5 p6 p7 p8 p9 := by
  funext i
  obtain ⟨n, j, rfl⟩ : ∃ (n : Fin 100000) (j : Fin 64), i = ix2 n j := ⟨i 0, i 1, eq_ix2 i⟩
  rw [val_main_v158_apply]
  rw [val_main_v157_apply, val_main_v156_apply, val_main_v151_apply, val_main_v146_apply, val_main_v138_apply, val_main_v133_apply]
  have hb : val_main_v132 (F := Ideal) p5 (ix2 n j) = Cert.KernelIdeal.Host.prm2 (F := Ideal) p5 (ix2 ⟨0, Nat.one_pos⟩ j) := rowRead (val_main_v131 (F := Ideal) p5) n j
  have hm : val_main_v137 (F := Ideal) p8 (ix2 n j) = Cert.KernelIdeal.Host.prm2 (F := Ideal) p8 (ix2 ⟨0, Nat.one_pos⟩ j) := rowRead (val_main_v136 (F := Ideal) p8) n j
  have hg : val_main_v150 (F := Ideal) p6 (ix2 n j) = Cert.KernelIdeal.Host.prm2 (F := Ideal) p6 (ix2 ⟨0, Nat.one_pos⟩ j) := rowRead (val_main_v149 (F := Ideal) p6) n j
  have hbe : val_main_v155 (F := Ideal) p7 (ix2 n j) = Cert.KernelIdeal.Host.prm2 (F := Ideal) p7 (ix2 ⟨0, Nat.one_pos⟩ j) := rowRead (val_main_v154 (F := Ideal) p7) n j
  have hr : val_main_v145 (F := Ideal) p9 (ix2 n j)
      = Ideal.rsqrt (Cert.KernelIdeal.Host.prm2 (F := Ideal) p9 (ix2 ⟨0, Nat.one_pos⟩ j) + Ideal.ofBits .f32 0x3727C5AC#32) := by
    have h1 : val_main_v145 (F := Ideal) p9 (ix2 n j) = val_main_v144 (F := Ideal) p9 (ix2 ⟨0, Nat.one_pos⟩ j) := rowRead (val_main_v144 (F := Ideal) p9) n j
    have h2 : val_main_v144 (F := Ideal) p9 (ix2 ⟨0, Nat.one_pos⟩ j) = val_main_v143 (F := Ideal) p9 (ix1 j) := vecRow (val_main_v143 (F := Ideal) p9) j
    have h3 : Cert.KernelIdeal.Host.prm2 (F := Ideal) p9 (ix2 ⟨0, Nat.one_pos⟩ j) = val_main_v140 (F := Ideal) p9 (ix1 j) := vecRow (val_main_v140 (F := Ideal) p9) j
    rw [h1, h2, h3, val_main_v143_apply, val_main_v142_apply, val_main_v141_apply]
    rfl
  have hz : val_main_call3_v0 (F := Ideal) (ix2 n j) = Ideal.ofBits .f32 0x00000000#32 := by
    rw [val_main_call3_v0_apply]; rfl
  rw [hb, hm, hg, hbe, hr, hz]
  have hH : ∀ (r : Fin 100000) (c : Fin 64), val_main_v116 (F := Ideal) x0 e w1 w2 w3 p5 p6 p7 p8 p9 (ix2 r c)
      = ∑ k : Fin 64, (L2 x0 e w1 w2 p5 p6 p7 p8 p9) (ix2 r k) * w3 (ix2 k c) := fun r c => by
    rw [val_main_v116_apply]
    rw [refL2]
    refine Finset.sum_congr rfl fun k _ => ?_
    have hl : lidx_main_v116 (ix2 r c) k = ix2 r k := funext fun a => by match a with | ⟨0, _⟩ => rfl | ⟨1, _⟩ => rfl
    have hr' : ridx_main_v116 (ix2 r c) k = ix2 k c := funext fun a => by match a with | ⟨0, _⟩ => rfl | ⟨1, _⟩ => rfl
    rw [hl, hr']
  have hs : Cert.KernelIdeal.Host.aggOf (F := Ideal) (Cert.Gcn.mmScale 64 (L2 x0 e w1 w2 p5 p6 p7 p8 p9) w3 (Cert.KernelIdeal.Host.dinv2Of e)) (Cert.KernelIdeal.Host.rowOf e) (Cert.KernelIdeal.Host.colOf e) (ix2 n j)
        * Cert.KernelIdeal.Host.dinv2Of (F := Ideal) e (ix2 n ⟨0, Nat.one_pos⟩)
      = val_main_v128 (F := Ideal) x0 e w1 w2 w3 p5 p6 p7 p8 p9 (ix2 n j) :=
    core e 64 (L2 x0 e w1 w2 p5 p6 p7 p8 p9) w3 (val_main_v116 (F := Ideal) x0 e w1 w2 w3 p5 p6 p7 p8 p9) hH n j
  have hE := bnEntry_of_scaled (Cert.KernelIdeal.Host.aggOf (F := Ideal) (Cert.Gcn.mmScale 64 (L2 x0 e w1 w2 p5 p6 p7 p8 p9) w3 (Cert.KernelIdeal.Host.dinv2Of e)) (Cert.KernelIdeal.Host.rowOf e) (Cert.KernelIdeal.Host.colOf e) (ix2 n j)) (Cert.KernelIdeal.Host.dinv2Of (F := Ideal) e (ix2 n ⟨0, Nat.one_pos⟩))
    (val_main_v128 (F := Ideal) x0 e w1 w2 w3 p5 p6 p7 p8 p9 (ix2 n j))
    (Cert.KernelIdeal.Host.prm2 (F := Ideal) p5 (ix2 ⟨0, Nat.one_pos⟩ j)) (Cert.KernelIdeal.Host.prm2 (F := Ideal) p8 (ix2 ⟨0, Nat.one_pos⟩ j))
    (Cert.KernelIdeal.Host.prm2 (F := Ideal) p9 (ix2 ⟨0, Nat.one_pos⟩ j)) (Cert.KernelIdeal.Host.prm2 (F := Ideal) p6 (ix2 ⟨0, Nat.one_pos⟩ j))
    (Cert.KernelIdeal.Host.prm2 (F := Ideal) p7 (ix2 ⟨0, Nat.one_pos⟩ j)) hs
  rw [refL2]
  exact congrArg (fun z : EReal => (L2 x0 e w1 w2 p5 p6 p7 p8 p9) (ix2 n j) + z) hE.symm
end

end Cert.Bridge

end
-- ==== Proof.lean ====
/-
  A three-layer normalised graph convolution on 100000 nodes and 1100000 edges (the given million and one self-loop
  per node), 64 hidden features, with batch normalisation in inference form, a rectifier, and a residual on the second
  and third layers — as six tiled kernels (a feature transform and a normalisation per layer) between host
  gather / scatter-add steps, against a plain array program.

  The two programs differ in where the symmetric normalisation D^{-1/2} (A + I) D^{-1/2} is applied.  The reference
  multiplies every gathered message by the product of the source's and the target's factor and then sums.  The
  kernel program multiplies each node's transformed features by the node's factor before the gather, sums the
  gathered rows, and multiplies the aggregate by the target's factor afterwards.  On the extended reals the two agree
  because the factor, `if 0 < deg then rsqrt deg else 0`, is a nonnegative real for every degree, and a
  nonnegative real factor moves inside any finite sum of extended reals; the rest is commutativity and associativity
  of the product.  Nothing else is rearranged: the matrix unit's product into a zero accumulator and the host's
  contraction are the same sum, the change of float format before the product is the identity, and the bias, the
  running statistics, the scale and shift, the rectifier and the residual are the same operations in the same order.
  No finiteness of the inputs is needed.

  The modules: the law (GcnAlgebra), one layer's aggregation in the two arrangements over abstract index data
  (GcnLayer, with the row and entry gathers and the row scatter-add read at an element), each kernel's body at an
  entry (KernelPay) and its output array as one whole-array function (GcnSpec, KernelRegions), the host steps
  between the kernels (KernelHost), the buffers carried from one segment of the program to the next (KernelWalk),
  their composition into the result as a function of the arguments (KernelValue), and the reference's three layers
  identified with that function (Bridge).
-/
import proofs.«135579_j32401233281333_2_alg».proof.Defs
import proofs.«135579_j32401233281333_2_alg».proof.Proof.Gen.Kernel
import proofs.«135579_j32401233281333_2_alg».proof.Proof.Gen.Kernel.Skeleton
import proofs.«135579_j32401233281333_2_alg».proof.Proof.Gen.Kernel.Launch
import proofs.«135579_j32401233281333_2_alg».proof.Proof.Gen.Kernel.Points
import proofs.«135579_j32401233281333_2_alg».proof.Proof.Gen.Kernel.Frame
import proofs.«135579_j32401233281333_2_alg».proof.Proof.Gen.KernelIdeal
import proofs.«135579_j32401233281333_2_alg».proof.Proof.Gen.KernelIdeal.Skeleton
import proofs.«135579_j32401233281333_2_alg».proof.Proof.Gen.KernelIdeal.Launch
import proofs.«135579_j32401233281333_2_alg».proof.Proof.Gen.KernelIdeal.Points
import proofs.«135579_j32401233281333_2_alg».proof.Proof.Gen.KernelIdeal.Frame
import proofs.«135579_j32401233281333_2_alg».proof.Proof.Gen.ReferenceIdeal
import proofs.«135579_j32401233281333_2_alg».proof.Proof.Gen.Pre_finite_inputs
import proofs.«135579_j32401233281333_2_alg».proof.Proof.RunP
import proofs.«135579_j32401233281333_2_alg».proof.Proof.ReadP
import proofs.«135579_j32401233281333_2_alg».proof.Proof.KernelWalk
import proofs.«135579_j32401233281333_2_alg».proof.Proof.KernelRegions
import proofs.«135579_j32401233281333_2_alg».proof.Proof.KernelValue
import proofs.«135579_j32401233281333_2_alg».proof.Proof.Bridge
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The composed function of the arguments is the reference's third layer. -/
theorem out_eq (x0 : (⟨Cert.ReferenceIdeal.S100000x37, .f32⟩ : BufTy).Contents (Elt Ideal))
    (e : (⟨Cert.ReferenceIdeal.S2x1000000, .i32⟩ : BufTy).Contents (Elt Ideal))
    (w1 : (⟨Cert.ReferenceIdeal.S37x64, .f32⟩ : BufTy).Contents (Elt Ideal))
    (w2 w3 : (⟨Cert.ReferenceIdeal.S64x64, .f32⟩ : BufTy).Contents (Elt Ideal))
    (p5 p6 p7 p8 p9 : (⟨Cert.ReferenceIdeal.S3x64, .f32⟩ : BufTy).Contents (Elt Ideal)) :
    Cert.ReferenceIdeal.ReadP.val_main_v158 (F := Ideal) x0 e w1 w2 w3 p5 p6 p7 p8 p9
      = Cert.KernelIdeal.Value6.kernelOut x0 e w1 w2 w3 p5 p6 p7 p8 p9 :=
  (Cert.Bridge.refL3 x0 e w1 w2 w3 p5 p6 p7 p8 p9).trans rfl

/-- From memories that agree on the arguments both programs run, and their results are the same array of extended
    reals: the kernel program's is the composed function of its arguments, the reference's is its third layer of
    its own, and the arguments agree. -/
theorem algebraic : Cert.algebraic_KernelIdeal_ReferenceIdeal := by
  intro m ρ m' ρ' _ hagree
  refine ⟨fun c => Cert.KernelIdeal.Value6.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Value6.kernel_value
          (fun V c => Cert.KernelIdeal.Regions.region0 V c) (fun V c => Cert.KernelIdeal.Regions.region1 V c)
          (fun V c => Cert.KernelIdeal.Regions.region2 V c) (fun V c => Cert.KernelIdeal.Regions.region3 V c)
          (fun V c => Cert.KernelIdeal.Regions.region4 V c) (fun V c => Cert.KernelIdeal.Regions.region5 V c) m ρ c), (h c).2⟩)
      (Cert.KernelIdeal.Walk.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8, a9⟩ := hagree c
    rw [Cert.ReferenceIdeal.ReadP.val_main_v158_eq, out_eq, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
